-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x2 : Shape := ⟨2, ![800000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S20x32 : Shape := ⟨2, ![20, 32]⟩
abbrev S194x2 : Shape := ⟨2, ![194, 2]⟩
abbrev S2 : Shape := ⟨1, ![2]⟩
abbrev S2x2 : Shape := ⟨2, ![2, 2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x2 : S_.BroadcastsInDim S800000x2 (![] : Fin 0 → Fin S800000x2.rank)
  reducesTo_S800000x2_S_d0_1 : S800000x2.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S20x32 : S_.BroadcastsInDim S20x32 (![] : Fin 0 → Fin S20x32.rank)
  reducesTo_S20x32_S_d0_1 : S20x32.ReducesTo [0, 1] S_
  bcast_S_S194x2 : S_.BroadcastsInDim S194x2 (![] : Fin 0 → Fin S194x2.rank)
  reducesTo_S194x2_S_d0_1 : S194x2.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part3 {F : FTy → Type} [FloatOps F] (main_arg13 : FVec F S2 .f32) (main_v48 : IVec S_ 1) (main_v49 : FVec F S2x2 .f32) (main_v50 : FVec F S2x2 .f32) : IVec S_ 1 :=
  let main_v51 : IVec S2x2 1 := cmpf .olt main_v49 main_v50
  let main_c_19 : IVec S_ 1 := constantI S_ 1 1#1
  let main_v52 : IVec S_ 1 := (fun x v => Host.reduce IntOp.andi x v reducesTo_S2x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S20x32 .f32) (main_arg10 : FVec F S194x2 .f32) (main_arg11 : FVec F S2 .f32) (main_arg12 : FVec F S2x2 .f32) (main_arg13 : FVec F S2 .f32) (main_v33 : IVec S_ 1) : IVec S_ 1 :=
  let main_v34 : FVec F S20x32 .f32 := Host.absf main_arg9
  let main_cst_12 : FVec F S_ .f32 := constant S_ .f32 0x7F800000#32
  let main_v35 : FVec F S20x32 .f32 := broadcastInDim S20x32 ![] bcast_S_S20x32 main_cst_12
  let main_v36 : IVec S20x32 1 := cmpf .olt main_v34 main_v35
  let main_c_13 : IVec S_ 1 := constantI S_ 1 1#1
  let main_v37 : IVec S_ 1 := (fun x v => Host.reduce IntOp.andi x v reducesTo_S20x32_S_d0_1 h_S_) main_v36 main_c_13
  let main_v38 : IVec S_ 1 := andi main_v33 main_v37
  let main_v39 : FVec F S194x2 .f32 := Host.absf main_arg10
  let main_cst_14 : FVec F S_ .f32 := constant S_ .f32 0x7F800000#32
  let main_v40 : FVec F S194x2 .f32 := broadcastInDim S194x2 ![] bcast_S_S194x2 main_cst_14
  let main_v41 : IVec S194x2 1 := cmpf .olt main_v39 main_v40
  let main_c_15 : IVec S_ 1 := constantI S_ 1 1#1
  let main_v42 : IVec S_ 1 := (fun x v => Host.reduce IntOp.andi x v reducesTo_S194x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S2x2 .f32 := Host.absf main_arg12
  let main_cst_18 : FVec F S_ .f32 := constant S_ .f32 0x7F800000#32
  let main_v50 : FVec F S2x2 .f32 := broadcastInDim S2x2 ![] bcast_S_S2x2 main_cst_18
  fn_part3 (F := F) main_arg13 main_v48 main_v49 main_v50

def fn_part1 {F : FTy → Type} [FloatOps F] (main_arg6 : FVec F S256x128 .f32) (main_arg7 : FVec F S128 .f32) (main_arg8 : FVec F S20x32 .f32) (main_arg9 : FVec F S20x32 .f32) (main_arg10 : FVec F S194x2 .f32) (main_arg11 : FVec F S2 .f32) (main_arg12 : FVec F S2x2 .f32) (main_arg13 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S20x32 .f32 := Host.absf main_arg8
  let main_cst_10 : FVec F S_ .f32 := constant S_ .f32 0x7F800000#32
  let main_v30 : FVec F S20x32 .f32 := broadcastInDim S20x32 ![] bcast_S_S20x32 main_cst_10
  let main_v31 : IVec S20x32 1 := cmpf .olt main_v29 main_v30
  let main_c_11 : IVec S_ 1 := constantI S_ 1 1#1
  let main_v32 : IVec S_ 1 := (fun x v => Host.reduce IntOp.andi x v reducesTo_S20x32_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x256 .f32) (main_arg1 : IVec S2x800000 32) (main_arg2 : IVec S800000x2 32) (main_arg3 : FVec F S800000x2 .f32) (main_arg4 : FVec F S256x256 .f32) (main_arg5 : FVec F S256 .f32) (main_arg6 : FVec F S256x128 .f32) (main_arg7 : FVec F S128 .f32) (main_arg8 : FVec F S20x32 .f32) (main_arg9 : FVec F S20x32 .f32) (main_arg10 : FVec F S194x2 .f32) (main_arg11 : FVec F S2 .f32) (main_arg12 : FVec F S2x2 .f32) (main_arg13 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x2 .f32 := Host.absf main_arg3
  let main_cst_0 : FVec F S_ .f32 := constant S_ .f32 0x7F800000#32
  let main_v5 : FVec F S800000x2 .f32 := broadcastInDim S800000x2 ![] bcast_S_S800000x2 main_cst_0
  let main_v6 : IVec S800000x2 1 := cmpf .olt main_v4 main_v5
  let main_c_1 : IVec S_ 1 := constantI S_ 1 1#1
  let main_v7 : IVec S_ 1 := (fun x v => Host.reduce IntOp.andi x v reducesTo_S800000x2_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_v13 main_v16
-- ==== Kernel.lean ====
abbrev S50000x256 : Shape := ⟨2, ![50000, 256]⟩
abbrev S2x800000 : Shape := ⟨2, ![2, 800000]⟩
abbrev S800000x2 : Shape := ⟨2, ![800000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S20x32 : Shape := ⟨2, ![20, 32]⟩
abbrev S194x2 : Shape := ⟨2, ![194, 2]⟩
abbrev S2 : Shape := ⟨1, ![2]⟩
abbrev S2x2 : Shape := ⟨2, ![2, 2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S10000x256 : Shape := ⟨2, ![10000, 256]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S10000x128 : Shape := ⟨2, ![10000, 128]⟩
abbrev S800000x128 : Shape := ⟨2, ![800000, 128]⟩
abbrev S1x128 : Shape := ⟨2, ![1, 128]⟩
abbrev S128x2 : Shape := ⟨2, ![128, 2]⟩
abbrev S32x2 : Shape := ⟨2, ![32, 2]⟩
abbrev S50000x2 : Shape := ⟨2, ![50000, 2]⟩
abbrev S20x2 : Shape := ⟨2, ![20, 2]⟩
abbrev S1x2 : Shape := ⟨2, ![1, 2]⟩

abbrev nBuf : Space → Nat
  | .hbm => 153
  | .vmem => 10
  | .smem => 0
  | _ => 0

abbrev hbmTy0_0 (i : Nat) : BufTy := match i % 128 with
  | 0 => ⟨S50000x256, .f32⟩
  | 1 => ⟨S2x800000, .i32⟩
  | 2 => ⟨S800000x2, .i32⟩
  | 3 => ⟨S800000x2, .f32⟩
  | 4 => ⟨S256x256, .f32⟩
  | 5 => ⟨S256, .f32⟩
  | 6 => ⟨S256x128, .f32⟩
  | 7 => ⟨S128, .f32⟩
  | 8 => ⟨S20x32, .f32⟩
  | 9 => ⟨S20x32, .f32⟩
  | 10 => ⟨S194x2, .f32⟩
  | 11 => ⟨S2, .f32⟩
  | 12 => ⟨S2x2, .f32⟩
  | 13 => ⟨S2, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S50000x256, .bf16⟩
  | 29 => ⟨S256x256, .bf16⟩
  | 30 => ⟨S50000x256, .f32⟩
  | 31 => ⟨S50000x1, .f32⟩
  | 32 => ⟨S50000x256, .f32⟩
  | 33 => ⟨S50000x256, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x256, .f32⟩
  | 43 => ⟨S_, .f32⟩
  | 44 => ⟨S50000x256, .f32⟩
  | 45 => ⟨S800000x1, .i32⟩
  | 46 => ⟨S50000x256, .f32⟩
  | 47 => ⟨S50000x1, .f32⟩
  | 48 => ⟨S50000x256, .f32⟩
  | 49 => ⟨S50000x256, .f32⟩
  | 50 => ⟨S50000, .f32⟩
  | 51 => ⟨S50000x1, .f32⟩
  | 52 => ⟨S50000x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S_, .f32⟩
  | 59 => ⟨S50000x256, .f32⟩
  | 60 => ⟨S50000x256, .f32⟩
  | 61 => ⟨S50000x256, .bf16⟩
  | 62 => ⟨S256x128, .bf16⟩
  | 63 => ⟨S50000x128, .f32⟩
  | 64 => ⟨S50000x1, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x1, .f32⟩
  | 81 => ⟨S50000x128, .f32⟩
  | 82 => ⟨S50000x128, .f32⟩
  | 83 => ⟨S50000, .f32⟩
  | 84 => ⟨S50000x1, .f32⟩
  | 85 => ⟨S50000x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S128x2, .f32⟩
  | 92 => ⟨S2x2, .f32⟩
  | 93 => ⟨S32x2, .f32⟩
  | 94 => ⟨S32x2, .f32⟩
  | 95 => ⟨S50000x2, .f32⟩
  | 96 => ⟨S800000x2, .f32⟩
  | 97 => ⟨S20x2, .f32⟩
  | 98 => ⟨S20x2, .f32⟩
  | 99 => ⟨S800000x1, .i32⟩
  | 100 => ⟨S800000, .i32⟩
  | 101 => ⟨S800000x1, .i32⟩
  | 102 => ⟨S800000, .i32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x2, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x2, .f32⟩
  | 121 => ⟨S800000x2, .f32⟩
  | 122 => ⟨S800000x2, .f32⟩
  | 123 => ⟨S_, .i32⟩
  | 124 => ⟨S800000, .i32⟩
  | 125 => ⟨S800000, .i1⟩
  | 126 => ⟨S_, .i32⟩
  | 127 => ⟨S800000, .i32⟩
  | _ => ⟨S50000x256, .f32⟩

abbrev hbmTy0_1 (i : Nat) : BufTy := match i % 128 with
  | 0 => ⟨S800000, .i32⟩
  | 1 => ⟨S800000, .i32⟩
  | 2 => ⟨S800000x1, .i32⟩
  | 3 => ⟨S800000x2, .f32⟩
  | 4 => ⟨S800000x2, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x2, .f32⟩
  | 14 => ⟨S800000x2, .f32⟩
  | 15 => ⟨S1x2, .f32⟩
  | 16 => ⟨S800000x2, .f32⟩
  | 17 => ⟨S800000x2, .f32⟩
  | 18 => ⟨S_, .f32⟩
  | 19 => ⟨S800000x2, .f32⟩
  | 20 => ⟨S800000x2, .f32⟩
  | 21 => ⟨S800000x2, .f32⟩
  | 22 => ⟨S1x2, .f32⟩
  | 23 => ⟨S800000x2, .f32⟩
  | 24 => ⟨S800000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S10000x256, .bf16⟩
  | .local _ .vmem, ⟨1, _⟩ => ⟨S10000x256, .bf16⟩
  | .local _ .vmem, ⟨2, _⟩ => ⟨S256x256, .bf16⟩
  | .local _ .vmem, ⟨3, _⟩ => ⟨S10000x256, .f32⟩
  | .local _ .vmem, ⟨4, _⟩ => ⟨S10000x256, .f32⟩
  | .local _ .vmem, ⟨5, _⟩ => ⟨S10000x256, .bf16⟩
  | .local _ .vmem, ⟨6, _⟩ => ⟨S10000x256, .bf16⟩
  | .local _ .vmem, ⟨7, _⟩ => ⟨S256x128, .bf16⟩
  | .local _ .vmem, ⟨8, _⟩ => ⟨S10000x128, .f32⟩
  | .local _ .vmem, ⟨9, _⟩ => ⟨S10000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_4 : Ref sig .tc := ⟨.hbm, 67, rfl⟩
abbrev main_v45 : Ref sig .tc := ⟨.hbm, 68, rfl⟩
abbrev main_v46 : Ref sig .tc := ⟨.hbm, 69, rfl⟩
abbrev main_c_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_7 : Ref sig .tc := ⟨.hbm, 103, rfl⟩
abbrev main_v78 : Ref sig .tc := ⟨.hbm, 104, rfl⟩
abbrev main_v79 : Ref sig .tc := ⟨.hbm, 105, rfl⟩
abbrev main_c_8 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_9 : Ref sig .tc := ⟨.hbm, 112, rfl⟩
abbrev main_v85 : Ref sig .tc := ⟨.hbm, 113, rfl⟩
abbrev main_v86 : Ref sig .tc := ⟨.hbm, 114, rfl⟩
abbrev main_c_10 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_11 : Ref sig .tc := ⟨.hbm, 123, rfl⟩
abbrev main_v94 : Ref sig .tc := ⟨.hbm, 124, rfl⟩
abbrev main_v95 : Ref sig .tc := ⟨.hbm, 125, rfl⟩
abbrev main_c_12 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_13 : Ref sig .tc := ⟨.hbm, 133, rfl⟩
abbrev main_v102 : Ref sig .tc := ⟨.hbm, 134, rfl⟩
abbrev main_v103 : Ref sig .tc := ⟨.hbm, 135, rfl⟩
abbrev main_c_14 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_call1_cst : Ref sig .tc := ⟨.hbm, 146, rfl⟩
abbrev main_call1_v0 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S194x2_S128x2_0_0 : S194x2.Slices ![0, 0] S128x2
  slices_S194x2_S2x2_128_0 : S194x2.Slices ![128, 0] S2x2
  slices_S194x2_S32x2_130_0 : S194x2.Slices ![130, 0] S32x2
  slices_S194x2_S32x2_162_0 : S194x2.Slices ![162, 0] S32x2
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  bcast_S_S800000x2 : S_.BroadcastsInDim S800000x2 (![] : Fin 0 → Fin S800000x2.rank)
  scatter_S50000_S800000x1_S800000_n_0_0_1_wf : ScatterDims.WF S50000 S800000x1 S800000 [] [0] [0] 1
  dot_S10000x256_S256x256_S10000x256_1_0_0_1_n_n_wf : DotDims.WF S10000x256 S256x256 S10000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S10000x256_S256x128_S10000x128_1_0_0_1_n_n_wf : DotDims.WF S10000x256 S256x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x2_S50000x2_1_0_0_1_n_n_wf : DotDims.WF S50000x128 S128x2 S50000x2 [1] [0] [0] [1] [] []
  dot_S800000x2_S2x2_S800000x2_1_0_0_1_n_n_wf : DotDims.WF S800000x2 S2x2 S800000x2 [1] [0] [0] [1] [] []
  dot_S20x32_S32x2_S20x2_1_0_0_1_n_n_wf : DotDims.WF S20x32 S32x2 S20x2 [1] [0] [0] [1] [] []
  gather_S50000x2_S800000x1_S800000x2_1_0_n_n_0_1_12_wf : GatherDims.WF S50000x2 S800000x1 S800000x2 [1] [0] [] [0] [] 1 ![1, 2]
  gather_S20x2_S800000x1_S800000x2_1_0_n_n_0_1_12_wf : GatherDims.WF S20x2 S800000x1 S800000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .bf16 = 32 ∨ (Rect.block (s := S50000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S50000x256.size a
  hwx0_2 : ∀ i : grid0.Coords, EltTy.bits .f32 = 32 ∨ (Rect.block (s := S50000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S50000x256.size a
  hwx1_0 : ∀ i : grid1.Coords, EltTy.bits .bf16 = 32 ∨ (Rect.block (s := S50000x256) S10000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def dot_S800000x2_S2x2_S800000x2_1_0_0_1_n_n : DotDims S800000x2 S2x2 S800000x2 where
  lhsContracting := [1]
  rhsContracting := [0]
  lhsNonContracting := [0]
  rhsNonContracting := [1]
  lhsBatch := []
  rhsBatch := []
  wf := dot_S800000x2_S2x2_S800000x2_1_0_0_1_n_n_wf
def dot_S20x32_S32x2_S20x2_1_0_0_1_n_n : DotDims S20x32 S32x2 S20x2 where
  lhsContracting := [1]
  rhsContracting := [0]
  lhsNonContracting := [0]
  rhsNonContracting := [1]
  lhsBatch := []
  rhsBatch := []
  wf := dot_S20x32_S32x2_S20x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S20x2_S800000x1_S800000x2_1_0_n_n_0_1_12 : GatherDims S20x2 S800000x1 S800000x2 where
  offsetDims := [1]
  collapsedSliceDims := [0]
  operandBatchingDims := []
  startIndicesBatchingDims := []
  startIndexMap := [0]
  indexVectorDim := 1
  sliceSizes := ![1, 2]
  wf := gather_S20x2_S800000x1_S800000x2_1_0_n_n_0_1_12_wf

abbrev win0_0 : Pipeline.Window sig grid0 :=
  Pipeline.Window.ofSpec (Memref.whole main_v11) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x2 : Shape := ⟨2, ![800000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S20x32 : Shape := ⟨2, ![20, 32]⟩
abbrev S194x2 : Shape := ⟨2, ![194, 2]⟩
abbrev S2 : Shape := ⟨1, ![2]⟩
abbrev S2x2 : Shape := ⟨2, ![2, 2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S800000x32 : Shape := ⟨2, ![800000, 32]⟩
abbrev S800000x66 : Shape := ⟨2, ![800000, 66]⟩
abbrev S800000x194 : Shape := ⟨2, ![800000, 194]⟩
abbrev S1x2 : Shape := ⟨2, ![1, 2]⟩

abbrev nBuf : Space → Nat
  | .hbm => 183
  | .vmem => 0
  | .smem => 0
  | _ => 0

abbrev hbmTy0_0 (i : Nat) : BufTy := match i % 128 with
  | 0 => ⟨S50000x256, .f32⟩
  | 1 => ⟨S2x800000, .i32⟩
  | 2 => ⟨S800000x2, .i32⟩
  | 3 => ⟨S800000x2, .f32⟩
  | 4 => ⟨S256x256, .f32⟩
  | 5 => ⟨S256, .f32⟩
  | 6 => ⟨S256x128, .f32⟩
  | 7 => ⟨S128, .f32⟩
  | 8 => ⟨S20x32, .f32⟩
  | 9 => ⟨S20x32, .f32⟩
  | 10 => ⟨S194x2, .f32⟩
  | 11 => ⟨S2, .f32⟩
  | 12 => ⟨S2x2, .f32⟩
  | 13 => ⟨S2, .f32⟩
  | 14 => ⟨S1x800000, .i32⟩
  | 15 => ⟨S800000, .i32⟩
  | 16 => ⟨S1x800000, .i32⟩
  | 17 => ⟨S800000, .i32⟩
  | 18 => ⟨S50000x256, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x1, .f32⟩
  | 58 => ⟨S800000x256, .f32⟩
  | 59 => ⟨S800000x256, .f32⟩
  | 60 => ⟨S_, .f32⟩
  | 61 => ⟨S50000x256, .f32⟩
  | 62 => ⟨S800000x1, .i32⟩
  | 63 => ⟨S50000x256, .f32⟩
  | 64 => ⟨S50000, .f32⟩
  | 65 => ⟨S50000x1, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x128, .f32⟩
  | 76 => ⟨S_, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .f32⟩
  | 85 => ⟨S50000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x1, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000, .f32⟩
  | 122 => ⟨S50000x1, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S800000x128, .f32⟩
  | 20 => ⟨S800000x1, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x32, .f32⟩
  | 31 => ⟨S800000x1, .i32⟩
  | 32 => ⟨S800000, .i32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x32, .f32⟩
  | 42 => ⟨S800000x66, .f32⟩
  | 43 => ⟨S800000x194, .f32⟩
  | 44 => ⟨S800000x2, .f32⟩
  | 45 => ⟨S1x2, .f32⟩
  | 46 => ⟨S800000x2, .f32⟩
  | 47 => ⟨S800000x2, .f32⟩
  | 48 => ⟨S_, .f32⟩
  | 49 => ⟨S800000x2, .f32⟩
  | 50 => ⟨S800000x2, .f32⟩
  | 51 => ⟨S800000x2, .f32⟩
  | 52 => ⟨S1x2, .f32⟩
  | 53 => ⟨S800000x2, .f32⟩
  | 54 => ⟨S800000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_18 : Ref sig .tc := ⟨.hbm, 129, rfl⟩
abbrev main_v93 : Ref sig .tc := ⟨.hbm, 130, rfl⟩
abbrev main_v94 : Ref sig .tc := ⟨.hbm, 131, rfl⟩
abbrev main_c_19 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_20 : Ref sig .tc := ⟨.hbm, 138, rfl⟩
abbrev main_v100 : Ref sig .tc := ⟨.hbm, 139, rfl⟩
abbrev main_v101 : Ref sig .tc := ⟨.hbm, 140, rfl⟩
abbrev main_c_21 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_22 : Ref sig .tc := ⟨.hbm, 150, rfl⟩
abbrev main_v110 : Ref sig .tc := ⟨.hbm, 151, rfl⟩
abbrev main_v111 : Ref sig .tc := ⟨.hbm, 152, rfl⟩
abbrev main_c_23 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c_24 : Ref sig .tc := ⟨.hbm, 161, rfl⟩
abbrev main_v119 : Ref sig .tc := ⟨.hbm, 162, rfl⟩
abbrev main_v120 : Ref sig .tc := ⟨.hbm, 163, rfl⟩
abbrev main_c_25 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_call1_cst : Ref sig .tc := ⟨.hbm, 176, rfl⟩
abbrev main_call1_v0 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000x2_S800000x32_S800000x32_S800000x66_d1 : Shape.Concatenates [S800000x2, S800000x32, S800000x32] S800000x66 1
  concatenates_S800000x128_S800000x66_S800000x194_d1 : Shape.Concatenates [S800000x128, S800000x66] S800000x194 1
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  bcast_S_S800000x2 : S_.BroadcastsInDim S800000x2 (![] : Fin 0 → Fin S800000x2.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S20x32_S800000x1_S800000x32_1_0_n_n_0_1_132_wf : GatherDims.WF S20x32 S800000x1 S800000x32 [1] [0] [] [0] [] 1 ![1, 32]
  dot_S800000x194_S194x2_S800000x2_1_0_0_1_n_n_wf : DotDims.WF S800000x194 S194x2 S800000x2 [1] [0] [0] [1] [] []
  dot_S800000x2_S2x2_S800000x2_1_0_0_1_n_n_wf : DotDims.WF S800000x2 S2x2 S800000x2 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S20x32_S800000x1_S800000x32_1_0_n_n_0_1_132 : GatherDims S20x32 S800000x1 S800000x32 where
  offsetDims := [1]
  collapsedSliceDims := [0]
  operandBatchingDims := []
  startIndicesBatchingDims := []
  startIndexMap := [0]
  indexVectorDim := 1
  sliceSizes := ![1, 32]
  wf := gather_S20x32_S800000x1_S800000x32_1_0_n_n_0_1_132_wf
def dot_S800000x194_S194x2_S800000x2_1_0_0_1_n_n : DotDims S800000x194 S194x2 S800000x2 where
  lhsContracting := [1]
  rhsContracting := [0]
  lhsNonContracting := [0]
  rhsNonContracting := [1]
  lhsBatch := []
  rhsBatch := []
  wf := dot_S800000x194_S194x2_S800000x2_1_0_0_1_n_n_wf
def dot_S800000x2_S2x2_S800000x2_1_0_0_1_n_n : DotDims S800000x2 S2x2 S800000x2 where
  lhsContracting := [1]
  rhsContracting := [0]
  lhsNonContracting := [0]
  rhsNonContracting := [1]
  lhsBatch := []
  rhsBatch := []
  wf := dot_S800000x2_S2x2_S800000x2_1_0_0_1_n_n_wf

class Facts : Prop extends Facts₀ where

variable [Facts]
-- ==== Proof.KernelRunKeep.lean ====
/-
  Which buffers each stretch of the idealized kernel's host operations writes, and that every other buffer keeps its
  contents through the stretch.

  The program's host operations come in seven stretches (one before the first matrix product, three between the two
  products, three after the second). Each operation writes exactly one buffer, its result; the lists below name those
  results stretch by stretch. A buffer that is not in a stretch's list is read after the stretch as it was before it.
-/
import proofs.«131849_j52312701665557_2_alg».proof.Proof.Gen.KernelIdeal.Frame

-- membership of a reference in a list of eighty-two literals is decided by a recursion along the list
set_option maxRecDepth 16384

noncomputable section

namespace Cert.KernelIdeal.KRun

open Cert.KernelIdeal Cert.KernelIdeal.Gen Idealize.ShloMosaic Idealize.ShloMosaic.TcCoe Idealize.SL.Sem Idealize.ShloMosaic.StableHlo

variable {F : FTy → Type} [FloatOps F]

/-- The references the operations of `hostOps0` write, in order. -/
def wr0 : List (Ref sig .tc) := [
    main_v0, main_v1, main_v2, main_v3, main_cst, main_v4, main_cst_0, main_v5, main_v6, main_v7,
    main_cst_1, main_v8, main_v9, main_v10, main_v11, main_v12 ]
theorem wr0_sub : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference no operation of `hostOps0` writes keeps its contents through the stretch. -/
theorem keep0 (W : Valuation τ sig (Elt F)) {r : Ref sig .tc} (hr : r ∉ wr0) :
    StableHlo.after hostOps0 W (Proc.devRef .tc r) = W (Proc.devRef .tc r) :=
  StableHlo.after_of_writes_sub _ _ wr0_sub hr

/-- The references the operations of `hostOps1` write, in order. -/
def wr1 : List (Ref sig .tc) := [
    main_v14, main_v15, main_v16, main_c, main_v17, main_v18, main_c_2, main_v19, main_v20, main_v21,
    main_v22, main_v23, main_cst_3, main_v24, main_v25, main_v26, main_v27, main_v28, main_v29, main_v30,
    main_v31, main_v32, main_v33, main_v34, main_v35, main_v36, main_v37 ]
theorem wr1_sub : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference no operation of `hostOps1` writes keeps its contents through the stretch. -/
theorem keep1 (W : Valuation τ sig (Elt F)) {r : Ref sig .tc} (hr : r ∉ wr1) :
    StableHlo.after hostOps1 W (Proc.devRef .tc r) = W (Proc.devRef .tc r) :=
  StableHlo.after_of_writes_sub _ _ wr1_sub hr

/-- The references the operations of `hostOps1_1` write, in order. -/
def wr1_1 : List (Ref sig .tc) := [
    main_call0_cst, main_call0_v0, main_v38 ]
theorem wr1_1_sub : (hostOps1_1 : List (HloOp τ sig (Elt F))).Forall fun op => op.writes ⊆ (wr1_1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference no operation of `hostOps1_1` writes keeps its contents through the stretch. -/
theorem keep1_1 (W : Valuation τ sig (Elt F)) {r : Ref sig .tc} (hr : r ∉ wr1_1) :
    StableHlo.after hostOps1_1 W (Proc.devRef .tc r) = W (Proc.devRef .tc r) :=
  StableHlo.after_of_writes_sub _ _ wr1_1_sub hr

/-- The references the operations of `hostOps1_2` write, in order. -/
def wr1_2 : List (Ref sig .tc) := [
    main_v39, main_v40 ]
theorem wr1_2_sub : (hostOps1_2 : List (HloOp τ sig (Elt F))).Forall fun op => op.writes ⊆ (wr1_2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference no operation of `hostOps1_2` writes keeps its contents through the stretch. -/
theorem keep1_2 (W : Valuation τ sig (Elt F)) {r : Ref sig .tc} (hr : r ∉ wr1_2) :
    StableHlo.after hostOps1_2 W (Proc.devRef .tc r) = W (Proc.devRef .tc r) :=
  StableHlo.after_of_writes_sub _ _ wr1_2_sub hr

/-- The references the operations of `hostOps2` write, in order. -/
def wr2 : List (Ref sig .tc) := [
    main_v42, main_v43, main_v44, main_c_4, main_v45, main_v46, main_c_5, main_v47, main_v48, main_v49,
    main_v50, main_v51, main_cst_6, main_v52, main_v53, main_v54, main_v55, main_v56, main_v57, main_v58,
    main_v59, main_v60, main_v61, main_v62, main_v63, main_v64, main_v65, main_v66, main_v67, main_v68,
    main_v69, main_v70, main_v71, main_v72, main_v73, main_v74, main_v75, main_v76, main_v77, main_c_7,
    main_v78, main_v79, main_c_8, main_v80, main_v81, main_v82, main_v83, main_v84, main_c_9, main_v85,
    main_v86, main_c_10, main_v87, main_v88, main_v89, main_v90, main_v91, main_v92, main_v93, main_c_11,
    main_v94, main_v95, main_c_12, main_v96, main_v97, main_v98, main_v99, main_v100, main_v101, main_c_13,
    main_v102, main_v103, main_c_14, main_v104, main_v105, main_v106, main_v107, main_v108, main_v109, main_v110,
    main_v111, main_v112 ]
theorem wr2_sub : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference no operation of `hostOps2` writes keeps its contents through the stretch. -/
theorem keep2 (W : Valuation τ sig (Elt F)) {r : Ref sig .tc} (hr : r ∉ wr2) :
    StableHlo.after hostOps2 W (Proc.devRef .tc r) = W (Proc.devRef .tc r) :=
  StableHlo.after_of_writes_sub _ _ wr2_sub hr

/-- The references the operations of `hostOps2_1` write, in order. -/
def wr2_1 : List (Ref sig .tc) := [
    main_call1_cst, main_call1_v0, main_v113 ]
theorem wr2_1_sub : (hostOps2_1 : List (HloOp τ sig (Elt F))).Forall fun op => op.writes ⊆ (wr2_1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference no operation of `hostOps2_1` writes keeps its contents through the stretch. -/
theorem keep2_1 (W : Valuation τ sig (Elt F)) {r : Ref sig .tc} (hr : r ∉ wr2_1) :
    StableHlo.after hostOps2_1 W (Proc.devRef .tc r) = W (Proc.devRef .tc r) :=
  StableHlo.after_of_writes_sub _ _ wr2_1_sub hr

/-- The references the operations of `hostOps2_2` write, in order. -/
def wr2_2 : List (Ref sig .tc) := [
    main_v114, main_v115, main_v116, main_v117 ]
theorem wr2_2_sub : (hostOps2_2 : List (HloOp τ sig (Elt F))).Forall fun op => op.writes ⊆ (wr2_2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference no operation of `hostOps2_2` writes keeps its contents through the stretch. -/
theorem keep2_2 (W : Valuation τ sig (Elt F)) {r : Ref sig .tc} (hr : r ∉ wr2_2) :
    StableHlo.after hostOps2_2 W (Proc.devRef .tc r) = W (Proc.devRef .tc r) :=
  StableHlo.after_of_writes_sub _ _ wr2_2_sub hr

end Cert.KernelIdeal.KRun

end
-- ==== Proof.KStages.lean ====
/-
  The idealized kernel's host arithmetic, one operation at a time, as functions of what each stretch of host operations
  reads. The program runs three stretches around its two matrix-product regions:
    * before the first product: the source and destination columns of the edge list, the nodes' factors
      s = (in-degree + 1)^(-1/2), and the first product's two operands;
    * between the products: the first graph-convolution layer in its node-scaled arrangement
      s[i] · Σ_{e : dst e = i} (h·s)[src e] + h[i] · s[i]² + b, its positive part, and the second product's operands;
    * after the second product: the second layer, the four projections of the edge network's first layer taken before
      the gathers, their sum along the edges, its positive part, and the last affine layer.
  Each definition names one operation's result from the stretch's inputs; a value proof reads them at an index.
-/
import proofs.«131849_j52312701665557_2_alg».proof.Proof.Gen.KernelIdeal

noncomputable section

namespace Cert.KernelIdeal.KStages

open Cert.KernelIdeal Cert.KernelIdeal.Gen Idealize.ShloMosaic Idealize.ShloMosaic.TcCoe Idealize.SL.Sem Idealize.ShloMosaic.StableHlo

variable {F : FTy → Type} [FloatOps F]

def k_v0 (x1 : (⟨S2x800000, .i32⟩ : BufTy).Contents (Elt F)) : (⟨S1x800000, .i32⟩ : BufTy).Contents (Elt F) :=
  ((extractStridedSlice S1x800000 ![0, 0] · slices_S2x800000_S1x800000_0_0) : (⟨S2x800000, .i32⟩ : BufTy).Contents (Elt F) → (⟨S1x800000, .i32⟩ : BufTy).Contents (Elt F)) x1
def k_v1 (x1 : (⟨S2x800000, .i32⟩ : BufTy).Contents (Elt F)) : (⟨S800000, .i32⟩ : BufTy).Contents (Elt F) :=
  shapeCast _ (k_v0 (F := F) x1) shapeCasts_S1x800000_S800000
def k_v2 (x1 : (⟨S2x800000, .i32⟩ : BufTy).Contents (Elt F)) : (⟨S1x800000, .i32⟩ : BufTy).Contents (Elt F) :=
  ((extractStridedSlice S1x800000 ![1, 0] · slices_S2x800000_S1x800000_1_0) : (⟨S2x800000, .i32⟩ : BufTy).Contents (Elt F) → (⟨S1x800000, .i32⟩ : BufTy).Contents (Elt F)) x1
def k_v3 (x1 : (⟨S2x800000, .i32⟩ : BufTy).Contents (Elt F)) : (⟨S800000, .i32⟩ : BufTy).Contents (Elt F) :=
  shapeCast _ (k_v2 (F := F) x1) shapeCasts_S1x800000_S800000
def k_cst  : (⟨S_, .f32⟩ : BufTy).Contents (Elt F) :=
  constant S_ .f32 0x3F800000#32
def k_v4  : (⟨S800000, .f32⟩ : BufTy).Contents (Elt F) :=
  (broadcastInDim S800000 ![] bcast_S_S800000 : (⟨S_, .f32⟩ : BufTy).Contents (Elt F) → (⟨S800000, .f32⟩ : BufTy).Contents (Elt F)) (k_cst (F := F))
def k_cst_0  : (⟨S_, .f32⟩ : BufTy).Contents (Elt F) :=
  constant S_ .f32 0x00000000#32
def k_v5  : (⟨S50000, .f32⟩ : BufTy).Contents (Elt F) :=
  (broadcastInDim S50000 ![] bcast_S_S50000 : (⟨S_, .f32⟩ : BufTy).Contents (Elt F) → (⟨S50000, .f32⟩ : BufTy).Contents (Elt F)) (k_cst_0 (F := F))
def k_v6 (x1 : (⟨S2x800000, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (k_v3 (F := F) x1)
def k_v7 (x1 : (⟨S2x800000, .i32⟩ : BufTy).Contents (Elt F)) : (⟨S50000, .f32⟩ : BufTy).Contents (Elt F) :=
  ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) (k_v5 (F := F)) (k_v6 (F := F) x1) (k_v4 (F := F))
def k_cst_1  : (⟨S_, .f32⟩ : BufTy).Contents (Elt F) :=
  constant S_ .f32 0x3F800000#32
def k_v8  : (⟨S50000, .f32⟩ : BufTy).Contents (Elt F) :=
  (broadcastInDim S50000 ![] bcast_S_S50000 : (⟨S_, .f32⟩ : BufTy).Contents (Elt F) → (⟨S50000, .f32⟩ : BufTy).Contents (Elt F)) (k_cst_1 (F := F))
def k_v9 (x1 : (⟨S2x800000, .i32⟩ : BufTy).Contents (Elt F)) : (⟨S50000, .f32⟩ : BufTy).Contents (Elt F) :=
  (addf : (⟨S50000, .f32⟩ : BufTy).Contents (Elt F) → (⟨S50000, .f32⟩ : BufTy).Contents (Elt F) → (⟨S50000, .f32⟩ : BufTy).Contents (Elt F)) (k_v7 (F := F) x1) (k_v8 (F := F))
def k_v10 (x1 : (⟨S2x800000, .i32⟩ : BufTy).Contents (Elt F)) : (⟨S50000, .f32⟩ : BufTy).Contents (Elt F) :=
  (Host.rsqrt : (⟨S50000, .f32⟩ : BufTy).Contents (Elt F) → (⟨S50000, .f32⟩ : BufTy).Contents (Elt F)) (k_v9 (F := F) x1)
def k_v11 (x0 : (⟨S50000x256, .f32⟩ : BufTy).Contents (Elt F)) : (⟨S50000x256, .bf16⟩ : BufTy).Contents (Elt F) :=
  ((truncf .bf16 · bitsLt_bf16_f32) : (⟨S50000x256, .f32⟩ : BufTy).Contents (Elt F) → (⟨S50000x256, .bf16⟩ : BufTy).Contents (Elt F)) x0
def k_v12 (x4 : (⟨S256x256, .f32⟩ : BufTy).Contents (Elt F)) : (⟨S256x256, .bf16⟩ : BufTy).Contents (Elt F) :=
  ((truncf .bf16 · bitsLt_bf16_f32) : (⟨S256x256, .f32⟩ : BufTy).Contents (Elt F) → (⟨S256x256, .bf16⟩ : BufTy).Contents (Elt F)) x4
def k_v14 (v10 : (⟨S50000, .f32⟩ : BufTy).Contents (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) v10
def k_v15 (v10 : (⟨S50000, .f32⟩ : BufTy).Contents (Elt F)) : (⟨S50000x256, .f32⟩ : BufTy).Contents (Elt F) :=
  (broadcastInDim S50000x256 ![0, 1] bcast_S50000x1_S50000x256_0_1 : (⟨S50000x1, .f32⟩ : BufTy).Contents (Elt F) → (⟨S50000x256, .f32⟩ : BufTy).Contents (Elt F)) (k_v14 (F := F) v10)
def k_v16 (v10 : (⟨S50000, .f32⟩ : BufTy).Contents (Elt F)) (v13 : (⟨S50000x256, .f32⟩ : BufTy).Contents (Elt F)) : (⟨S50000x256, .f32⟩ : BufTy).Contents (Elt F) :=
  (mulf : (⟨S50000x256, .f32⟩ : BufTy).Contents (Elt F) → (⟨S50000x256, .f32⟩ : BufTy).Contents (Elt F) → (⟨S50000x256, .f32⟩ : BufTy).Contents (Elt F)) v13 (k_v15 (F := F) v10)
def k_c  : (⟨S_, .i32⟩ : BufTy).Contents (Elt F) :=
  constantI S_ 32 0#32
def k_v17  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c (F := F))
def k_v18 (v1 : (⟨S800000, .i32⟩ : BufTy).Contents (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) v1 (k_v17 (F := F))
def k_c_2  : (⟨S_, .i32⟩ : BufTy).Contents (Elt F) :=
  constantI S_ 32 50000#32
def k_v19  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_2 (F := F))
def k_v20 (v1 : (⟨S800000, .i32⟩ : BufTy).Contents (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) v1 (k_v19 (F := F))
def k_v21 (v1 : (⟨S800000, .i32⟩ : BufTy).Contents (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v18 (F := F) v1) (k_v20 (F := F) v1) v1
def k_v22 (v1 : (⟨S800000, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (k_v21 (F := F) v1)
def k_v23 (v1 : (⟨S800000, .i32⟩ : BufTy).Contents (Elt F)) (v10 : (⟨S50000, .f32⟩ : BufTy).Contents (Elt F)) (v13 : (⟨S50000x256, .f32⟩ : BufTy).Contents (Elt F)) : (⟨S800000x256, .f32⟩ : BufTy).Contents (Elt F) :=
  ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) (k_v16 (F := F) v10 v13) (k_v22 (F := F) v1)
def k_cst_3  : (⟨S_, .f32⟩ : BufTy).Contents (Elt F) :=
  constant S_ .f32 0x00000000#32
def k_v24  : (⟨S50000x256, .f32⟩ : BufTy).Contents (Elt F) :=
  (broadcastInDim S50000x256 ![] bcast_S_S50000x256 : (⟨S_, .f32⟩ : BufTy).Contents (Elt F) → (⟨S50000x256, .f32⟩ : BufTy).Contents (Elt F)) (k_cst_3 (F := F))
def k_v25 (v3 : (⟨S800000, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) v3
def k_v26 (v1 : (⟨S800000, .i32⟩ : BufTy).Contents (Elt F)) (v3 : (⟨S800000, .i32⟩ : BufTy).Contents (Elt F)) (v10 : (⟨S50000, .f32⟩ : BufTy).Contents (Elt F)) (v13 : (⟨S50000x256, .f32⟩ : BufTy).Contents (Elt F)) : (⟨S50000x256, .f32⟩ : BufTy).Contents (Elt F) :=
  ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) (k_v24 (F := F)) (k_v25 (F := F) v3) (k_v23 (F := F) v1 v10 v13)
def k_v27 (v10 : (⟨S50000, .f32⟩ : BufTy).Contents (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) v10
def k_v28 (v10 : (⟨S50000, .f32⟩ : BufTy).Contents (Elt F)) : (⟨S50000x256, .f32⟩ : BufTy).Contents (Elt F) :=
  (broadcastInDim S50000x256 ![0, 1] bcast_S50000x1_S50000x256_0_1 : (⟨S50000x1, .f32⟩ : BufTy).Contents (Elt F) → (⟨S50000x256, .f32⟩ : BufTy).Contents (Elt F)) (k_v27 (F := F) v10)
def k_v29 (v1 : (⟨S800000, .i32⟩ : BufTy).Contents (Elt F)) (v3 : (⟨S800000, .i32⟩ : BufTy).Contents (Elt F)) (v10 : (⟨S50000, .f32⟩ : BufTy).Contents (Elt F)) (v13 : (⟨S50000x256, .f32⟩ : BufTy).Contents (Elt F)) : (⟨S50000x256, .f32⟩ : BufTy).Contents (Elt F) :=
  (mulf : (⟨S50000x256, .f32⟩ : BufTy).Contents (Elt F) → (⟨S50000x256, .f32⟩ : BufTy).Contents (Elt F) → (⟨S50000x256, .f32⟩ : BufTy).Contents (Elt F)) (k_v28 (F := F) v10) (k_v26 (F := F) v1 v3 v10 v13)
def k_v30 (v10 : (⟨S50000, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) v10 v10
def k_v31 (v10 : (⟨S50000, .f32⟩ : BufTy).Contents (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (k_v30 (F := F) v10)
def k_v32 (v10 : (⟨S50000, .f32⟩ : BufTy).Contents (Elt F)) : (⟨S50000x256, .f32⟩ : BufTy).Contents (Elt F) :=
  (broadcastInDim S50000x256 ![0, 1] bcast_S50000x1_S50000x256_0_1 : (⟨S50000x1, .f32⟩ : BufTy).Contents (Elt F) → (⟨S50000x256, .f32⟩ : BufTy).Contents (Elt F)) (k_v31 (F := F) v10)
def k_v33 (v10 : (⟨S50000, .f32⟩ : BufTy).Contents (Elt F)) (v13 : (⟨S50000x256, .f32⟩ : BufTy).Contents (Elt F)) : (⟨S50000x256, .f32⟩ : BufTy).Contents (Elt F) :=
  (mulf : (⟨S50000x256, .f32⟩ : BufTy).Contents (Elt F) → (⟨S50000x256, .f32⟩ : BufTy).Contents (Elt F) → (⟨S50000x256, .f32⟩ : BufTy).Contents (Elt F)) v13 (k_v32 (F := F) v10)
def k_v34 (v1 : (⟨S800000, .i32⟩ : BufTy).Contents (Elt F)) (v3 : (⟨S800000, .i32⟩ : BufTy).Contents (Elt F)) (v10 : (⟨S50000, .f32⟩ : BufTy).Contents (Elt F)) (v13 : (⟨S50000x256, .f32⟩ : BufTy).Contents (Elt F)) : (⟨S50000x256, .f32⟩ : BufTy).Contents (Elt F) :=
  (addf : (⟨S50000x256, .f32⟩ : BufTy).Contents (Elt F) → (⟨S50000x256, .f32⟩ : BufTy).Contents (Elt F) → (⟨S50000x256, .f32⟩ : BufTy).Contents (Elt F)) (k_v29 (F := F) v1 v3 v10 v13) (k_v33 (F := F) v10 v13)
def k_v35 (x5 : (⟨S256, .f32⟩ : BufTy).Contents (Elt F)) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) x5
def k_v36 (x5 : (⟨S256, .f32⟩ : BufTy).Contents (Elt F)) : (⟨S50000x256, .f32⟩ : BufTy).Contents (Elt F) :=
  (broadcastInDim S50000x256 ![0, 1] bcast_S1x256_S50000x256_0_1 : (⟨S1x256, .f32⟩ : BufTy).Contents (Elt F) → (⟨S50000x256, .f32⟩ : BufTy).Contents (Elt F)) (k_v35 (F := F) x5)
def k_v37 (v1 : (⟨S800000, .i32⟩ : BufTy).Contents (Elt F)) (v3 : (⟨S800000, .i32⟩ : BufTy).Contents (Elt F)) (v10 : (⟨S50000, .f32⟩ : BufTy).Contents (Elt F)) (v13 : (⟨S50000x256, .f32⟩ : BufTy).Contents (Elt F)) (x5 : (⟨S256, .f32⟩ : BufTy).Contents (Elt F)) : (⟨S50000x256, .f32⟩ : BufTy).Contents (Elt F) :=
  (addf : (⟨S50000x256, .f32⟩ : BufTy).Contents (Elt F) → (⟨S50000x256, .f32⟩ : BufTy).Contents (Elt F) → (⟨S50000x256, .f32⟩ : BufTy).Contents (Elt F)) (k_v34 (F := F) v1 v3 v10 v13) (k_v36 (F := F) x5)
def k_call0_cst  : (⟨S_, .f32⟩ : BufTy).Contents (Elt F) :=
  constant S_ .f32 0x00000000#32
def k_call0_v0  : (⟨S50000x256, .f32⟩ : BufTy).Contents (Elt F) :=
  (broadcastInDim S50000x256 ![] bcast_S_S50000x256 : (⟨S_, .f32⟩ : BufTy).Contents (Elt F) → (⟨S50000x256, .f32⟩ : BufTy).Contents (Elt F)) (k_call0_cst (F := F))
def k_v38 (v37 : (⟨S50000x256, .f32⟩ : BufTy).Contents (Elt F)) : (⟨S50000x256, .f32⟩ : BufTy).Contents (Elt F) :=
  maximumf v37 (k_call0_v0 (F := F))
def k_v39 (v37 : (⟨S50000x256, .f32⟩ : BufTy).Contents (Elt F)) : (⟨S50000x256, .bf16⟩ : BufTy).Contents (Elt F) :=
  ((truncf .bf16 · bitsLt_bf16_f32) : (⟨S50000x256, .f32⟩ : BufTy).Contents (Elt F) → (⟨S50000x256, .bf16⟩ : BufTy).Contents (Elt F)) (k_v38 (F := F) v37)
def k_v40 (x6 : (⟨S256x128, .f32⟩ : BufTy).Contents (Elt F)) : (⟨S256x128, .bf16⟩ : BufTy).Contents (Elt F) :=
  ((truncf .bf16 · bitsLt_bf16_f32) : (⟨S256x128, .f32⟩ : BufTy).Contents (Elt F) → (⟨S256x128, .bf16⟩ : BufTy).Contents (Elt F)) x6
def k_v42 (v10 : (⟨S50000, .f32⟩ : BufTy).Contents (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) v10
def k_v43 (v10 : (⟨S50000, .f32⟩ : BufTy).Contents (Elt F)) : (⟨S50000x128, .f32⟩ : BufTy).Contents (Elt F) :=
  (broadcastInDim S50000x128 ![0, 1] bcast_S50000x1_S50000x128_0_1 : (⟨S50000x1, .f32⟩ : BufTy).Contents (Elt F) → (⟨S50000x128, .f32⟩ : BufTy).Contents (Elt F)) (k_v42 (F := F) v10)
def k_v44 (v10 : (⟨S50000, .f32⟩ : BufTy).Contents (Elt F)) (v41 : (⟨S50000x128, .f32⟩ : BufTy).Contents (Elt F)) : (⟨S50000x128, .f32⟩ : BufTy).Contents (Elt F) :=
  (mulf : (⟨S50000x128, .f32⟩ : BufTy).Contents (Elt F) → (⟨S50000x128, .f32⟩ : BufTy).Contents (Elt F) → (⟨S50000x128, .f32⟩ : BufTy).Contents (Elt F)) v41 (k_v43 (F := F) v10)
def k_c_4  : (⟨S_, .i32⟩ : BufTy).Contents (Elt F) :=
  constantI S_ 32 0#32
def k_v45  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_4 (F := F))
def k_v46 (v1 : (⟨S800000, .i32⟩ : BufTy).Contents (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) v1 (k_v45 (F := F))
def k_c_5  : (⟨S_, .i32⟩ : BufTy).Contents (Elt F) :=
  constantI S_ 32 50000#32
def k_v47  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_5 (F := F))
def k_v48 (v1 : (⟨S800000, .i32⟩ : BufTy).Contents (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) v1 (k_v47 (F := F))
def k_v49 (v1 : (⟨S800000, .i32⟩ : BufTy).Contents (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v46 (F := F) v1) (k_v48 (F := F) v1) v1
def k_v50 (v1 : (⟨S800000, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (k_v49 (F := F) v1)
def k_v51 (v1 : (⟨S800000, .i32⟩ : BufTy).Contents (Elt F)) (v10 : (⟨S50000, .f32⟩ : BufTy).Contents (Elt F)) (v41 : (⟨S50000x128, .f32⟩ : BufTy).Contents (Elt F)) : (⟨S800000x128, .f32⟩ : BufTy).Contents (Elt F) :=
  ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (k_v44 (F := F) v10 v41) (k_v50 (F := F) v1)
def k_cst_6  : (⟨S_, .f32⟩ : BufTy).Contents (Elt F) :=
  constant S_ .f32 0x00000000#32
def k_v52  : (⟨S50000x128, .f32⟩ : BufTy).Contents (Elt F) :=
  (broadcastInDim S50000x128 ![] bcast_S_S50000x128 : (⟨S_, .f32⟩ : BufTy).Contents (Elt F) → (⟨S50000x128, .f32⟩ : BufTy).Contents (Elt F)) (k_cst_6 (F := F))
def k_v53 (v3 : (⟨S800000, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) v3
def k_v54 (v1 : (⟨S800000, .i32⟩ : BufTy).Contents (Elt F)) (v3 : (⟨S800000, .i32⟩ : BufTy).Contents (Elt F)) (v10 : (⟨S50000, .f32⟩ : BufTy).Contents (Elt F)) (v41 : (⟨S50000x128, .f32⟩ : BufTy).Contents (Elt F)) : (⟨S50000x128, .f32⟩ : BufTy).Contents (Elt F) :=
  ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (k_v52 (F := F)) (k_v53 (F := F) v3) (k_v51 (F := F) v1 v10 v41)
def k_v55 (v10 : (⟨S50000, .f32⟩ : BufTy).Contents (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) v10
def k_v56 (v10 : (⟨S50000, .f32⟩ : BufTy).Contents (Elt F)) : (⟨S50000x128, .f32⟩ : BufTy).Contents (Elt F) :=
  (broadcastInDim S50000x128 ![0, 1] bcast_S50000x1_S50000x128_0_1 : (⟨S50000x1, .f32⟩ : BufTy).Contents (Elt F) → (⟨S50000x128, .f32⟩ : BufTy).Contents (Elt F)) (k_v55 (F := F) v10)
def k_v57 (v1 : (⟨S800000, .i32⟩ : BufTy).Contents (Elt F)) (v3 : (⟨S800000, .i32⟩ : BufTy).Contents (Elt F)) (v10 : (⟨S50000, .f32⟩ : BufTy).Contents (Elt F)) (v41 : (⟨S50000x128, .f32⟩ : BufTy).Contents (Elt F)) : (⟨S50000x128, .f32⟩ : BufTy).Contents (Elt F) :=
  (mulf : (⟨S50000x128, .f32⟩ : BufTy).Contents (Elt F) → (⟨S50000x128, .f32⟩ : BufTy).Contents (Elt F) → (⟨S50000x128, .f32⟩ : BufTy).Contents (Elt F)) (k_v56 (F := F) v10) (k_v54 (F := F) v1 v3 v10 v41)
def k_v58 (v10 : (⟨S50000, .f32⟩ : BufTy).Contents (Elt F)) : (⟨S50000, .f32⟩ : BufTy).Contents (Elt F) :=
  (mulf : (⟨S50000, .f32⟩ : BufTy).Contents (Elt F) → (⟨S50000, .f32⟩ : BufTy).Contents (Elt F) → (⟨S50000, .f32⟩ : BufTy).Contents (Elt F)) v10 v10
def k_v59 (v10 : (⟨S50000, .f32⟩ : BufTy).Contents (Elt F)) : (⟨S50000x1, .f32⟩ : BufTy).Contents (Elt F) :=
  (broadcastInDim S50000x1 ![0] bcast_S50000_S50000x1_0 : (⟨S50000, .f32⟩ : BufTy).Contents (Elt F) → (⟨S50000x1, .f32⟩ : BufTy).Contents (Elt F)) (k_v58 (F := F) v10)
def k_v60 (v10 : (⟨S50000, .f32⟩ : BufTy).Contents (Elt F)) : (⟨S50000x128, .f32⟩ : BufTy).Contents (Elt F) :=
  (broadcastInDim S50000x128 ![0, 1] bcast_S50000x1_S50000x128_0_1 : (⟨S50000x1, .f32⟩ : BufTy).Contents (Elt F) → (⟨S50000x128, .f32⟩ : BufTy).Contents (Elt F)) (k_v59 (F := F) v10)
def k_v61 (v10 : (⟨S50000, .f32⟩ : BufTy).Contents (Elt F)) (v41 : (⟨S50000x128, .f32⟩ : BufTy).Contents (Elt F)) : (⟨S50000x128, .f32⟩ : BufTy).Contents (Elt F) :=
  (mulf : (⟨S50000x128, .f32⟩ : BufTy).Contents (Elt F) → (⟨S50000x128, .f32⟩ : BufTy).Contents (Elt F) → (⟨S50000x128, .f32⟩ : BufTy).Contents (Elt F)) v41 (k_v60 (F := F) v10)
def k_v62 (v1 : (⟨S800000, .i32⟩ : BufTy).Contents (Elt F)) (v3 : (⟨S800000, .i32⟩ : BufTy).Contents (Elt F)) (v10 : (⟨S50000, .f32⟩ : BufTy).Contents (Elt F)) (v41 : (⟨S50000x128, .f32⟩ : BufTy).Contents (Elt F)) : (⟨S50000x128, .f32⟩ : BufTy).Contents (Elt F) :=
  (addf : (⟨S50000x128, .f32⟩ : BufTy).Contents (Elt F) → (⟨S50000x128, .f32⟩ : BufTy).Contents (Elt F) → (⟨S50000x128, .f32⟩ : BufTy).Contents (Elt F)) (k_v57 (F := F) v1 v3 v10 v41) (k_v61 (F := F) v10 v41)
def k_v63 (x7 : (⟨S128, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) x7
def k_v64 (x7 : (⟨S128, .f32⟩ : BufTy).Contents (Elt F)) : (⟨S50000x128, .f32⟩ : BufTy).Contents (Elt F) :=
  (broadcastInDim S50000x128 ![0, 1] bcast_S1x128_S50000x128_0_1 : (⟨S1x128, .f32⟩ : BufTy).Contents (Elt F) → (⟨S50000x128, .f32⟩ : BufTy).Contents (Elt F)) (k_v63 (F := F) x7)
def k_v65 (v1 : (⟨S800000, .i32⟩ : BufTy).Contents (Elt F)) (v3 : (⟨S800000, .i32⟩ : BufTy).Contents (Elt F)) (v10 : (⟨S50000, .f32⟩ : BufTy).Contents (Elt F)) (v41 : (⟨S50000x128, .f32⟩ : BufTy).Contents (Elt F)) (x7 : (⟨S128, .f32⟩ : BufTy).Contents (Elt F)) : (⟨S50000x128, .f32⟩ : BufTy).Contents (Elt F) :=
  (addf : (⟨S50000x128, .f32⟩ : BufTy).Contents (Elt F) → (⟨S50000x128, .f32⟩ : BufTy).Contents (Elt F) → (⟨S50000x128, .f32⟩ : BufTy).Contents (Elt F)) (k_v62 (F := F) v1 v3 v10 v41) (k_v64 (F := F) x7)
def k_v66 (x10 : (⟨S194x2, .f32⟩ : BufTy).Contents (Elt F)) : (⟨S128x2, .f32⟩ : BufTy).Contents (Elt F) :=
  ((extractStridedSlice S128x2 ![0, 0] · slices_S194x2_S128x2_0_0) : (⟨S194x2, .f32⟩ : BufTy).Contents (Elt F) → (⟨S128x2, .f32⟩ : BufTy).Contents (Elt F)) x10
def k_v67 (x10 : (⟨S194x2, .f32⟩ : BufTy).Contents (Elt F)) : (⟨S2x2, .f32⟩ : BufTy).Contents (Elt F) :=
  ((extractStridedSlice S2x2 ![128, 0] · slices_S194x2_S2x2_128_0) : (⟨S194x2, .f32⟩ : BufTy).Contents (Elt F) → (⟨S2x2, .f32⟩ : BufTy).Contents (Elt F)) x10
def k_v68 (x10 : (⟨S194x2, .f32⟩ : BufTy).Contents (Elt F)) : (⟨S32x2, .f32⟩ : BufTy).Contents (Elt F) :=
  ((extractStridedSlice S32x2 ![130, 0] · slices_S194x2_S32x2_130_0) : (⟨S194x2, .f32⟩ : BufTy).Contents (Elt F) → (⟨S32x2, .f32⟩ : BufTy).Contents (Elt F)) x10
def k_v69 (x10 : (⟨S194x2, .f32⟩ : BufTy).Contents (Elt F)) : (⟨S32x2, .f32⟩ : BufTy).Contents (Elt F) :=
  ((extractStridedSlice S32x2 ![162, 0] · slices_S194x2_S32x2_162_0) : (⟨S194x2, .f32⟩ : BufTy).Contents (Elt F) → (⟨S32x2, .f32⟩ : BufTy).Contents (Elt F)) x10
def k_v70 (v65 : (⟨S50000x128, .f32⟩ : BufTy).Contents (Elt F)) (x10 : (⟨S194x2, .f32⟩ : BufTy).Contents (Elt F)) : (⟨S50000x2, .f32⟩ : BufTy).Contents (Elt F) :=
  ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)) v65 (k_v66 (F := F) x10)
def k_v71 (x3 : (⟨S800000x2, .f32⟩ : BufTy).Contents (Elt F)) (x10 : (⟨S194x2, .f32⟩ : BufTy).Contents (Elt F)) : (⟨S800000x2, .f32⟩ : BufTy).Contents (Elt F) :=
  ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)) x3 (k_v67 (F := F) x10)
def k_v72 (x8 : (⟨S20x32, .f32⟩ : BufTy).Contents (Elt F)) (x10 : (⟨S194x2, .f32⟩ : BufTy).Contents (Elt F)) : (⟨S20x2, .f32⟩ : BufTy).Contents (Elt F) :=
  ((fun l r => Host.dotGeneral dot_S20x32_S32x2_S20x2_1_0_0_1_n_n none l r) : (⟨S20x32, .f32⟩ : BufTy).Contents (Elt F) → (⟨S32x2, .f32⟩ : BufTy).Contents (Elt F) → (⟨S20x2, .f32⟩ : BufTy).Contents (Elt F)) x8 (k_v68 (F := F) x10)
def k_v73 (x9 : (⟨S20x32, .f32⟩ : BufTy).Contents (Elt F)) (x10 : (⟨S194x2, .f32⟩ : BufTy).Contents (Elt F)) : (⟨S20x2, .f32⟩ : BufTy).Contents (Elt F) :=
  ((fun l r => Host.dotGeneral dot_S20x32_S32x2_S20x2_1_0_0_1_n_n none l r) : (⟨S20x32, .f32⟩ : BufTy).Contents (Elt F) → (⟨S32x2, .f32⟩ : BufTy).Contents (Elt F) → (⟨S20x2, .f32⟩ : BufTy).Contents (Elt F)) x9 (k_v69 (F := F) x10)
def k_v74 (x2 : (⟨S800000x2, .i32⟩ : BufTy).Contents (Elt F)) : (⟨S800000x1, .i32⟩ : BufTy).Contents (Elt F) :=
  ((extractStridedSlice S800000x1 ![0, 0] · slices_S800000x2_S800000x1_0_0) : (⟨S800000x2, .i32⟩ : BufTy).Contents (Elt F) → (⟨S800000x1, .i32⟩ : BufTy).Contents (Elt F)) x2
def k_v75 (x2 : (⟨S800000x2, .i32⟩ : BufTy).Contents (Elt F)) : (⟨S800000, .i32⟩ : BufTy).Contents (Elt F) :=
  shapeCast _ (k_v74 (F := F) x2) shapeCasts_S800000x1_S800000
def k_v76 (x2 : (⟨S800000x2, .i32⟩ : BufTy).Contents (Elt F)) : (⟨S800000x1, .i32⟩ : BufTy).Contents (Elt F) :=
  ((extractStridedSlice S800000x1 ![0, 1] · slices_S800000x2_S800000x1_0_1) : (⟨S800000x2, .i32⟩ : BufTy).Contents (Elt F) → (⟨S800000x1, .i32⟩ : BufTy).Contents (Elt F)) x2
def k_v77 (x2 : (⟨S800000x2, .i32⟩ : BufTy).Contents (Elt F)) : (⟨S800000, .i32⟩ : BufTy).Contents (Elt F) :=
  shapeCast _ (k_v76 (F := F) x2) shapeCasts_S800000x1_S800000
def k_c_7  : (⟨S_, .i32⟩ : BufTy).Contents (Elt F) :=
  constantI S_ 32 0#32
def k_v78  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_7 (F := F))
def k_v79 (v1 : (⟨S800000, .i32⟩ : BufTy).Contents (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) v1 (k_v78 (F := F))
def k_c_8  : (⟨S_, .i32⟩ : BufTy).Contents (Elt F) :=
  constantI S_ 32 50000#32
def k_v80  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_8 (F := F))
def k_v81 (v1 : (⟨S800000, .i32⟩ : BufTy).Contents (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) v1 (k_v80 (F := F))
def k_v82 (v1 : (⟨S800000, .i32⟩ : BufTy).Contents (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v79 (F := F) v1) (k_v81 (F := F) v1) v1
def k_v83 (v1 : (⟨S800000, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (k_v82 (F := F) v1)
def k_v84 (v1 : (⟨S800000, .i32⟩ : BufTy).Contents (Elt F)) (v65 : (⟨S50000x128, .f32⟩ : BufTy).Contents (Elt F)) (x10 : (⟨S194x2, .f32⟩ : BufTy).Contents (Elt F)) : (⟨S800000x2, .f32⟩ : BufTy).Contents (Elt F) :=
  ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)) (k_v70 (F := F) v65 x10) (k_v83 (F := F) v1)
def k_c_9  : (⟨S_, .i32⟩ : BufTy).Contents (Elt F) :=
  constantI S_ 32 0#32
def k_v85  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_9 (F := F))
def k_v86 (v3 : (⟨S800000, .i32⟩ : BufTy).Contents (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) v3 (k_v85 (F := F))
def k_c_10  : (⟨S_, .i32⟩ : BufTy).Contents (Elt F) :=
  constantI S_ 32 50000#32
def k_v87  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_10 (F := F))
def k_v88 (v3 : (⟨S800000, .i32⟩ : BufTy).Contents (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) v3 (k_v87 (F := F))
def k_v89 (v3 : (⟨S800000, .i32⟩ : BufTy).Contents (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v86 (F := F) v3) (k_v88 (F := F) v3) v3
def k_v90 (v3 : (⟨S800000, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (k_v89 (F := F) v3)
def k_v91 (v3 : (⟨S800000, .i32⟩ : BufTy).Contents (Elt F)) (v65 : (⟨S50000x128, .f32⟩ : BufTy).Contents (Elt F)) (x10 : (⟨S194x2, .f32⟩ : BufTy).Contents (Elt F)) : (⟨S800000x2, .f32⟩ : BufTy).Contents (Elt F) :=
  ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)) (k_v70 (F := F) v65 x10) (k_v90 (F := F) v3)
def k_v92 (v1 : (⟨S800000, .i32⟩ : BufTy).Contents (Elt F)) (v3 : (⟨S800000, .i32⟩ : BufTy).Contents (Elt F)) (v65 : (⟨S50000x128, .f32⟩ : BufTy).Contents (Elt F)) (x10 : (⟨S194x2, .f32⟩ : BufTy).Contents (Elt F)) : (⟨S800000x2, .f32⟩ : BufTy).Contents (Elt F) :=
  (subf : (⟨S800000x2, .f32⟩ : BufTy).Contents (Elt F) → (⟨S800000x2, .f32⟩ : BufTy).Contents (Elt F) → (⟨S800000x2, .f32⟩ : BufTy).Contents (Elt F)) (k_v84 (F := F) v1 v65 x10) (k_v91 (F := F) v3 v65 x10)
def k_v93 (v1 : (⟨S800000, .i32⟩ : BufTy).Contents (Elt F)) (v3 : (⟨S800000, .i32⟩ : BufTy).Contents (Elt F)) (v65 : (⟨S50000x128, .f32⟩ : BufTy).Contents (Elt F)) (x3 : (⟨S800000x2, .f32⟩ : BufTy).Contents (Elt F)) (x10 : (⟨S194x2, .f32⟩ : BufTy).Contents (Elt F)) : (⟨S800000x2, .f32⟩ : BufTy).Contents (Elt F) :=
  (addf : (⟨S800000x2, .f32⟩ : BufTy).Contents (Elt F) → (⟨S800000x2, .f32⟩ : BufTy).Contents (Elt F) → (⟨S800000x2, .f32⟩ : BufTy).Contents (Elt F)) (k_v92 (F := F) v1 v3 v65 x10) (k_v71 (F := F) x3 x10)
def k_c_11  : (⟨S_, .i32⟩ : BufTy).Contents (Elt F) :=
  constantI S_ 32 0#32
def k_v94  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_11 (F := F))
def k_v95 (x2 : (⟨S800000x2, .i32⟩ : BufTy).Contents (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (k_v75 (F := F) x2) (k_v94 (F := F))
def k_c_12  : (⟨S_, .i32⟩ : BufTy).Contents (Elt F) :=
  constantI S_ 32 20#32
def k_v96  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_12 (F := F))
def k_v97 (x2 : (⟨S800000x2, .i32⟩ : BufTy).Contents (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (k_v75 (F := F) x2) (k_v96 (F := F))
def k_v98 (x2 : (⟨S800000x2, .i32⟩ : BufTy).Contents (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v95 (F := F) x2) (k_v97 (F := F) x2) (k_v75 (F := F) x2)
def k_v99 (x2 : (⟨S800000x2, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (k_v98 (F := F) x2)
def k_v100 (x2 : (⟨S800000x2, .i32⟩ : BufTy).Contents (Elt F)) (x8 : (⟨S20x32, .f32⟩ : BufTy).Contents (Elt F)) (x10 : (⟨S194x2, .f32⟩ : BufTy).Contents (Elt F)) : (⟨S800000x2, .f32⟩ : BufTy).Contents (Elt F) :=
  ((fun x i => Host.gather gather_S20x2_S800000x1_S800000x2_1_0_n_n_0_1_12 x i) : (⟨S20x2, .f32⟩ : BufTy).Contents (Elt F) → (⟨S800000x1, .i32⟩ : BufTy).Contents (Elt F) → (⟨S800000x2, .f32⟩ : BufTy).Contents (Elt F)) (k_v72 (F := F) x8 x10) (k_v99 (F := F) x2)
def k_v101 (v1 : (⟨S800000, .i32⟩ : BufTy).Contents (Elt F)) (v3 : (⟨S800000, .i32⟩ : BufTy).Contents (Elt F)) (v65 : (⟨S50000x128, .f32⟩ : BufTy).Contents (Elt F)) (x2 : (⟨S800000x2, .i32⟩ : BufTy).Contents (Elt F)) (x3 : (⟨S800000x2, .f32⟩ : BufTy).Contents (Elt F)) (x8 : (⟨S20x32, .f32⟩ : BufTy).Contents (Elt F)) (x10 : (⟨S194x2, .f32⟩ : BufTy).Contents (Elt F)) : (⟨S800000x2, .f32⟩ : BufTy).Contents (Elt F) :=
  (addf : (⟨S800000x2, .f32⟩ : BufTy).Contents (Elt F) → (⟨S800000x2, .f32⟩ : BufTy).Contents (Elt F) → (⟨S800000x2, .f32⟩ : BufTy).Contents (Elt F)) (k_v93 (F := F) v1 v3 v65 x3 x10) (k_v100 (F := F) x2 x8 x10)
def k_c_13  : (⟨S_, .i32⟩ : BufTy).Contents (Elt F) :=
  constantI S_ 32 0#32
def k_v102  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_13 (F := F))
def k_v103 (x2 : (⟨S800000x2, .i32⟩ : BufTy).Contents (Elt F)) : (⟨S800000, .i1⟩ : BufTy).Contents (Elt F) :=
  (cmpi .slt : (⟨S800000, .i32⟩ : BufTy).Contents (Elt F) → (⟨S800000, .i32⟩ : BufTy).Contents (Elt F) → (⟨S800000, .i1⟩ : BufTy).Contents (Elt F)) (k_v77 (F := F) x2) (k_v102 (F := F))
def k_c_14  : (⟨S_, .i32⟩ : BufTy).Contents (Elt F) :=
  constantI S_ 32 20#32
def k_v104  : (⟨S800000, .i32⟩ : BufTy).Contents (Elt F) :=
  (broadcastInDim S800000 ![] bcast_S_S800000 : (⟨S_, .i32⟩ : BufTy).Contents (Elt F) → (⟨S800000, .i32⟩ : BufTy).Contents (Elt F)) (k_c_14 (F := F))
def k_v105 (x2 : (⟨S800000x2, .i32⟩ : BufTy).Contents (Elt F)) : (⟨S800000, .i32⟩ : BufTy).Contents (Elt F) :=
  (addi : (⟨S800000, .i32⟩ : BufTy).Contents (Elt F) → (⟨S800000, .i32⟩ : BufTy).Contents (Elt F) → (⟨S800000, .i32⟩ : BufTy).Contents (Elt F)) (k_v77 (F := F) x2) (k_v104 (F := F))
def k_v106 (x2 : (⟨S800000x2, .i32⟩ : BufTy).Contents (Elt F)) : (⟨S800000, .i32⟩ : BufTy).Contents (Elt F) :=
  (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (k_v103 (F := F) x2) (k_v105 (F := F) x2) (k_v77 (F := F) x2)
def k_v107 (x2 : (⟨S800000x2, .i32⟩ : BufTy).Contents (Elt F)) : (⟨S800000x1, .i32⟩ : BufTy).Contents (Elt F) :=
  (broadcastInDim S800000x1 ![0] bcast_S800000_S800000x1_0 : (⟨S800000, .i32⟩ : BufTy).Contents (Elt F) → (⟨S800000x1, .i32⟩ : BufTy).Contents (Elt F)) (k_v106 (F := F) x2)
def k_v108 (x2 : (⟨S800000x2, .i32⟩ : BufTy).Contents (Elt F)) (x9 : (⟨S20x32, .f32⟩ : BufTy).Contents (Elt F)) (x10 : (⟨S194x2, .f32⟩ : BufTy).Contents (Elt F)) : (⟨S800000x2, .f32⟩ : BufTy).Contents (Elt F) :=
  ((fun x i => Host.gather gather_S20x2_S800000x1_S800000x2_1_0_n_n_0_1_12 x i) : (⟨S20x2, .f32⟩ : BufTy).Contents (Elt F) → (⟨S800000x1, .i32⟩ : BufTy).Contents (Elt F) → (⟨S800000x2, .f32⟩ : BufTy).Contents (Elt F)) (k_v73 (F := F) x9 x10) (k_v107 (F := F) x2)
def k_v109 (v1 : (⟨S800000, .i32⟩ : BufTy).Contents (Elt F)) (v3 : (⟨S800000, .i32⟩ : BufTy).Contents (Elt F)) (v65 : (⟨S50000x128, .f32⟩ : BufTy).Contents (Elt F)) (x2 : (⟨S800000x2, .i32⟩ : BufTy).Contents (Elt F)) (x3 : (⟨S800000x2, .f32⟩ : BufTy).Contents (Elt F)) (x8 : (⟨S20x32, .f32⟩ : BufTy).Contents (Elt F)) (x9 : (⟨S20x32, .f32⟩ : BufTy).Contents (Elt F)) (x10 : (⟨S194x2, .f32⟩ : BufTy).Contents (Elt F)) : (⟨S800000x2, .f32⟩ : BufTy).Contents (Elt F) :=
  (addf : (⟨S800000x2, .f32⟩ : BufTy).Contents (Elt F) → (⟨S800000x2, .f32⟩ : BufTy).Contents (Elt F) → (⟨S800000x2, .f32⟩ : BufTy).Contents (Elt F)) (k_v101 (F := F) v1 v3 v65 x2 x3 x8 x10) (k_v108 (F := F) x2 x9 x10)
def k_v110 (x11 : (⟨S2, .f32⟩ : BufTy).Contents (Elt F)) : (⟨S1x2, .f32⟩ : BufTy).Contents (Elt F) :=
  (broadcastInDim S1x2 ![1] bcast_S2_S1x2_1 : (⟨S2, .f32⟩ : BufTy).Contents (Elt F) → (⟨S1x2, .f32⟩ : BufTy).Contents (Elt F)) x11
def k_v111 (x11 : (⟨S2, .f32⟩ : BufTy).Contents (Elt F)) : (⟨S800000x2, .f32⟩ : BufTy).Contents (Elt F) :=
  (broadcastInDim S800000x2 ![0, 1] bcast_S1x2_S800000x2_0_1 : (⟨S1x2, .f32⟩ : BufTy).Contents (Elt F) → (⟨S800000x2, .f32⟩ : BufTy).Contents (Elt F)) (k_v110 (F := F) x11)
def k_v112 (v109 : (⟨S800000x2, .f32⟩ : BufTy).Contents (Elt F)) (x11 : (⟨S2, .f32⟩ : BufTy).Contents (Elt F)) : (⟨S800000x2, .f32⟩ : BufTy).Contents (Elt F) :=
  (addf : (⟨S800000x2, .f32⟩ : BufTy).Contents (Elt F) → (⟨S800000x2, .f32⟩ : BufTy).Contents (Elt F) → (⟨S800000x2, .f32⟩ : BufTy).Contents (Elt F)) v109 (k_v111 (F := F) x11)
def k_call1_cst  : (⟨S_, .f32⟩ : BufTy).Contents (Elt F) :=
  constant S_ .f32 0x00000000#32
def k_call1_v0  : (⟨S800000x2, .f32⟩ : BufTy).Contents (Elt F) :=
  (broadcastInDim S800000x2 ![] bcast_S_S800000x2 : (⟨S_, .f32⟩ : BufTy).Contents (Elt F) → (⟨S800000x2, .f32⟩ : BufTy).Contents (Elt F)) (k_call1_cst (F := F))
def k_v113 (v109 : (⟨S800000x2, .f32⟩ : BufTy).Contents (Elt F)) (x11 : (⟨S2, .f32⟩ : BufTy).Contents (Elt F)) : (⟨S800000x2, .f32⟩ : BufTy).Contents (Elt F) :=
  maximumf (k_v112 (F := F) v109 x11) (k_call1_v0 (F := F))
def k_v114 (v109 : (⟨S800000x2, .f32⟩ : BufTy).Contents (Elt F)) (x11 : (⟨S2, .f32⟩ : BufTy).Contents (Elt F)) (x12 : (⟨S2x2, .f32⟩ : BufTy).Contents (Elt F)) : (⟨S800000x2, .f32⟩ : BufTy).Contents (Elt F) :=
  ((fun l r => Host.dotGeneral dot_S800000x2_S2x2_S800000x2_1_0_0_1_n_n none l r) : (⟨S800000x2, .f32⟩ : BufTy).Contents (Elt F) → (⟨S2x2, .f32⟩ : BufTy).Contents (Elt F) → (⟨S800000x2, .f32⟩ : BufTy).Contents (Elt F)) (k_v113 (F := F) v109 x11) x12
def k_v115 (x13 : (⟨S2, .f32⟩ : BufTy).Contents (Elt F)) : (⟨S1x2, .f32⟩ : BufTy).Contents (Elt F) :=
  (broadcastInDim S1x2 ![1] bcast_S2_S1x2_1 : (⟨S2, .f32⟩ : BufTy).Contents (Elt F) → (⟨S1x2, .f32⟩ : BufTy).Contents (Elt F)) x13
def k_v116 (x13 : (⟨S2, .f32⟩ : BufTy).Contents (Elt F)) : (⟨S800000x2, .f32⟩ : BufTy).Contents (Elt F) :=
  (broadcastInDim S800000x2 ![0, 1] bcast_S1x2_S800000x2_0_1 : (⟨S1x2, .f32⟩ : BufTy).Contents (Elt F) → (⟨S800000x2, .f32⟩ : BufTy).Contents (Elt F)) (k_v115 (F := F) x13)
def k_v117 (v109 : (⟨S800000x2, .f32⟩ : BufTy).Contents (Elt F)) (x11 : (⟨S2, .f32⟩ : BufTy).Contents (Elt F)) (x12 : (⟨S2x2, .f32⟩ : BufTy).Contents (Elt F)) (x13 : (⟨S2, .f32⟩ : BufTy).Contents (Elt F)) : (⟨S800000x2, .f32⟩ : BufTy).Contents (Elt F) :=
  (addf : (⟨S800000x2, .f32⟩ : BufTy).Contents (Elt F) → (⟨S800000x2, .f32⟩ : BufTy).Contents (Elt F) → (⟨S800000x2, .f32⟩ : BufTy).Contents (Elt F)) (k_v114 (F := F) v109 x11 x12) (k_v116 (F := F) x13)

/-- The whole result from the arguments, the two matrix-product regions given as functions `R0`, `R1` of their operands. -/
def kout (R0 : (⟨S50000x256, .bf16⟩ : BufTy).Contents (Elt F) → (⟨S256x256, .bf16⟩ : BufTy).Contents (Elt F) → (⟨S50000x256, .f32⟩ : BufTy).Contents (Elt F))
    (R1 : (⟨S50000x256, .bf16⟩ : BufTy).Contents (Elt F) → (⟨S256x128, .bf16⟩ : BufTy).Contents (Elt F) → (⟨S50000x128, .f32⟩ : BufTy).Contents (Elt F))
    (x0 : (⟨S50000x256, .f32⟩ : BufTy).Contents (Elt F)) (x1 : (⟨S2x800000, .i32⟩ : BufTy).Contents (Elt F)) (x2 : (⟨S800000x2, .i32⟩ : BufTy).Contents (Elt F)) (x3 : (⟨S800000x2, .f32⟩ : BufTy).Contents (Elt F)) (x4 : (⟨S256x256, .f32⟩ : BufTy).Contents (Elt F)) (x5 : (⟨S256, .f32⟩ : BufTy).Contents (Elt F)) (x6 : (⟨S256x128, .f32⟩ : BufTy).Contents (Elt F)) (x7 : (⟨S128, .f32⟩ : BufTy).Contents (Elt F)) (x8 : (⟨S20x32, .f32⟩ : BufTy).Contents (Elt F)) (x9 : (⟨S20x32, .f32⟩ : BufTy).Contents (Elt F)) (x10 : (⟨S194x2, .f32⟩ : BufTy).Contents (Elt F)) (x11 : (⟨S2, .f32⟩ : BufTy).Contents (Elt F)) (x12 : (⟨S2x2, .f32⟩ : BufTy).Contents (Elt F)) (x13 : (⟨S2, .f32⟩ : BufTy).Contents (Elt F)) : (⟨S800000x2, .f32⟩ : BufTy).Contents (Elt F) :=
  k_v117 (F := F)
    (k_v109 (F := F) (k_v1 (F := F) x1) (k_v3 (F := F) x1)
      (k_v65 (F := F) (k_v1 (F := F) x1) (k_v3 (F := F) x1) (k_v10 (F := F) x1)
        (R1 (k_v39 (F := F) (k_v37 (F := F) (k_v1 (F := F) x1) (k_v3 (F := F) x1) (k_v10 (F := F) x1) (R0 (k_v11 (F := F) x0) (k_v12 (F := F) x4)) x5))
          (k_v40 (F := F) x6)) x7)
      x2 x3 x8 x9 x10)
    x11 x12 x13

end Cert.KernelIdeal.KStages

end
-- ==== Proof.KernelRunHost.lean ====
/-
  The idealized kernel's host operations read back, stretch by stretch, from any contents of the buffers.

  Each stretch is a list of operations, each writing one buffer from the contents of the buffers it reads. What a
  buffer holds after the stretch, started from contents W, is the composition of the operations that lead to it applied
  to W at the buffers the stretch only reads. The lemmas below state this at the buffers that matter later — the
  operands of the two matrix products, the edge list's columns and the nodes' factors, the result — with the
  compositions named operation by operation, and then compose the three stretches between the products and the three
  after the second product. Nothing here depends on what W is.
-/
import proofs.«131849_j52312701665557_2_alg».proof.Proof.KernelRunKeep
import proofs.«131849_j52312701665557_2_alg».proof.Proof.KStages

set_option maxRecDepth 16384

noncomputable section

namespace Cert.KernelIdeal.KRun

open Cert.KernelIdeal Cert.KernelIdeal.Gen Idealize.ShloMosaic Idealize.ShloMosaic.TcCoe Idealize.SL.Sem Idealize.ShloMosaic.StableHlo

variable {F : FTy → Type} [FloatOps F]

open KStages

/-! ## Each stretch of host operations read, from any contents `W`, at the buffers that later stretches, the regions
    and the result use -/

/-- Before the first product: the source column of the edge list. -/
theorem s0_v1 (W : Valuation τ sig (Elt F)) :
    StableHlo.after hostOps0 W (Proc.devRef .tc main_v1) = k_v1 (F := F) (W (Proc.devRef .tc main_arg1)) := by
  after_results; rfl
/-- Before the first product: the destination column of the edge list. -/
theorem s0_v3 (W : Valuation τ sig (Elt F)) :
    StableHlo.after hostOps0 W (Proc.devRef .tc main_v3) = k_v3 (F := F) (W (Proc.devRef .tc main_arg1)) := by
  after_results; rfl
/-- Before the first product: the nodes' factors. -/
theorem s0_v10 (W : Valuation τ sig (Elt F)) :
    StableHlo.after hostOps0 W (Proc.devRef .tc main_v10) = k_v10 (F := F) (W (Proc.devRef .tc main_arg1)) := by
  after_results; rfl
/-- Before the first product: its left operand. -/
theorem s0_v11 (W : Valuation τ sig (Elt F)) :
    StableHlo.after hostOps0 W (Proc.devRef .tc main_v11) = k_v11 (F := F) (W (Proc.devRef .tc main_arg0)) := by
  after_results; rfl
/-- Before the first product: its right operand. -/
theorem s0_v12 (W : Valuation τ sig (Elt F)) :
    StableHlo.after hostOps0 W (Proc.devRef .tc main_v12) = k_v12 (F := F) (W (Proc.devRef .tc main_arg4)) := by
  after_results; rfl

/-- Between the products: the first layer before its positive part. -/
theorem s1_v37 (W : Valuation τ sig (Elt F)) :
    StableHlo.after hostOps1 W (Proc.devRef .tc main_v37)
      = k_v37 (F := F) (W (Proc.devRef .tc main_v1)) (W (Proc.devRef .tc main_v3)) (W (Proc.devRef .tc main_v10)) (W (Proc.devRef .tc main_v13)) (W (Proc.devRef .tc main_arg5)) := by
  after_results_simp; rfl
/-- The first layer's positive part. -/
theorem s11_v38 (W : Valuation τ sig (Elt F)) :
    StableHlo.after hostOps1_1 W (Proc.devRef .tc main_v38) = k_v38 (F := F) (W (Proc.devRef .tc main_v37)) := by
  after_results; rfl
/-- The second product's left operand. -/
theorem s12_v39 (W : Valuation τ sig (Elt F)) :
    StableHlo.after hostOps1_2 W (Proc.devRef .tc main_v39)
      = ((truncf .bf16 · bitsLt_bf16_f32) : (⟨S50000x256, .f32⟩ : BufTy).Contents (Elt F) → (⟨S50000x256, .bf16⟩ : BufTy).Contents (Elt F)) (W (Proc.devRef .tc main_v38)) := by
  after_results
/-- The second product's right operand. -/
theorem s12_v40 (W : Valuation τ sig (Elt F)) :
    StableHlo.after hostOps1_2 W (Proc.devRef .tc main_v40) = k_v40 (F := F) (W (Proc.devRef .tc main_arg6)) := by
  after_results; rfl

-- eighty-two operations read back in one pass: each intermediate buffer is walked back to the operation that wrote it
set_option maxHeartbeats 32800000 in
/-- After the second product: the edge network's first layer before its positive part. -/
theorem s2_v112 (W : Valuation τ sig (Elt F)) :
    StableHlo.after hostOps2 W (Proc.devRef .tc main_v112)
      = k_v112 (F := F)
          (k_v109 (F := F) (W (Proc.devRef .tc main_v1)) (W (Proc.devRef .tc main_v3))
            (k_v65 (F := F) (W (Proc.devRef .tc main_v1)) (W (Proc.devRef .tc main_v3)) (W (Proc.devRef .tc main_v10)) (W (Proc.devRef .tc main_v41)) (W (Proc.devRef .tc main_arg7)))
            (W (Proc.devRef .tc main_arg2)) (W (Proc.devRef .tc main_arg3)) (W (Proc.devRef .tc main_arg8)) (W (Proc.devRef .tc main_arg9)) (W (Proc.devRef .tc main_arg10)))
          (W (Proc.devRef .tc main_arg11)) := by
  after_results_simp; rfl
/-- Its positive part. -/
theorem s21_v113 (W : Valuation τ sig (Elt F)) :
    StableHlo.after hostOps2_1 W (Proc.devRef .tc main_v113) = maximumf (W (Proc.devRef .tc main_v112)) (k_call1_v0 (F := F)) := by
  after_results; rfl
/-- The last affine layer. -/
theorem s22_v117 (W : Valuation τ sig (Elt F)) :
    StableHlo.after hostOps2_2 W (Proc.devRef .tc main_v117)
      = addf (Host.dotGeneral dot_S800000x2_S2x2_S800000x2_1_0_0_1_n_n none (W (Proc.devRef .tc main_v113)) (W (Proc.devRef .tc main_arg12)))
          (k_v116 (F := F) (W (Proc.devRef .tc main_arg13))) := by
  after_results; rfl

/-! ## The stretches between two regions, composed -/

/-- The three stretches between the products, at the second product's left operand. -/
theorem g1_v39 (W : Valuation τ sig (Elt F)) :
    StableHlo.after hostOps1_2 (StableHlo.after hostOps1_1 (StableHlo.after hostOps1 W)) (Proc.devRef .tc main_v39)
      = k_v39 (F := F) (k_v37 (F := F) (W (Proc.devRef .tc main_v1)) (W (Proc.devRef .tc main_v3)) (W (Proc.devRef .tc main_v10)) (W (Proc.devRef .tc main_v13)) (W (Proc.devRef .tc main_arg5))) := by
  rw [s12_v39, s11_v38, s1_v37]; rfl
/-- The three stretches between the products, at the second product's right operand. -/
theorem g1_v40 (W : Valuation τ sig (Elt F)) :
    StableHlo.after hostOps1_2 (StableHlo.after hostOps1_1 (StableHlo.after hostOps1 W)) (Proc.devRef .tc main_v40)
      = k_v40 (F := F) (W (Proc.devRef .tc main_arg6)) := by
  rw [s12_v40, keep1_1 _ (by decide), keep1 _ (by decide)]
/-- The three stretches after the second product, at the result. -/
theorem g2_v117 (W : Valuation τ sig (Elt F)) :
    StableHlo.after hostOps2_2 (StableHlo.after hostOps2_1 (StableHlo.after hostOps2 W)) (Proc.devRef .tc main_v117)
      = k_v117 (F := F)
          (k_v109 (F := F) (W (Proc.devRef .tc main_v1)) (W (Proc.devRef .tc main_v3))
            (k_v65 (F := F) (W (Proc.devRef .tc main_v1)) (W (Proc.devRef .tc main_v3)) (W (Proc.devRef .tc main_v10)) (W (Proc.devRef .tc main_v41)) (W (Proc.devRef .tc main_arg7)))
            (W (Proc.devRef .tc main_arg2)) (W (Proc.devRef .tc main_arg3)) (W (Proc.devRef .tc main_arg8)) (W (Proc.devRef .tc main_arg9)) (W (Proc.devRef .tc main_arg10)))
          (W (Proc.devRef .tc main_arg11)) (W (Proc.devRef .tc main_arg12)) (W (Proc.devRef .tc main_arg13)) := by
  rw [s22_v117, s21_v113, s2_v112, keep2_1 _ (r := main_arg12) (by decide), keep2 _ (r := main_arg12) (by decide),
    keep2_1 _ (r := main_arg13) (by decide), keep2 _ (r := main_arg13) (by decide)]
  rfl

/-! The same three, with the stretch's inputs named: the form the run instantiates. -/

theorem g1_v39' (W : Valuation τ sig (Elt F))
    (v1 : (⟨S800000, .i32⟩ : BufTy).Contents (Elt F)) (v3 : (⟨S800000, .i32⟩ : BufTy).Contents (Elt F))
    (v10 : (⟨S50000, .f32⟩ : BufTy).Contents (Elt F)) (v13 : (⟨S50000x256, .f32⟩ : BufTy).Contents (Elt F))
    (x5 : (⟨S256, .f32⟩ : BufTy).Contents (Elt F))
    (h1 : W (Proc.devRef .tc main_v1) = v1) (h3 : W (Proc.devRef .tc main_v3) = v3) (h10 : W (Proc.devRef .tc main_v10) = v10)
    (h13 : W (Proc.devRef .tc main_v13) = v13) (h5 : W (Proc.devRef .tc main_arg5) = x5) :
    StableHlo.after hostOps1_2 (StableHlo.after hostOps1_1 (StableHlo.after hostOps1 W)) (Proc.devRef .tc main_v39)
      = k_v39 (F := F) (k_v37 (F := F) v1 v3 v10 v13 x5) := by
  subst h1 h3 h10 h13 h5; exact g1_v39 W
theorem g1_v40' (W : Valuation τ sig (Elt F)) (x6 : (⟨S256x128, .f32⟩ : BufTy).Contents (Elt F))
    (h6 : W (Proc.devRef .tc main_arg6) = x6) :
    StableHlo.after hostOps1_2 (StableHlo.after hostOps1_1 (StableHlo.after hostOps1 W)) (Proc.devRef .tc main_v40)
      = k_v40 (F := F) x6 := by
  subst h6; exact g1_v40 W
theorem g2_v117' (W : Valuation τ sig (Elt F))
    (v1 : (⟨S800000, .i32⟩ : BufTy).Contents (Elt F)) (v3 : (⟨S800000, .i32⟩ : BufTy).Contents (Elt F))
    (v10 : (⟨S50000, .f32⟩ : BufTy).Contents (Elt F)) (v41 : (⟨S50000x128, .f32⟩ : BufTy).Contents (Elt F))
    (x2 : (⟨S800000x2, .i32⟩ : BufTy).Contents (Elt F)) (x3 : (⟨S800000x2, .f32⟩ : BufTy).Contents (Elt F))
    (x7 : (⟨S128, .f32⟩ : BufTy).Contents (Elt F)) (x8 : (⟨S20x32, .f32⟩ : BufTy).Contents (Elt F))
    (x9 : (⟨S20x32, .f32⟩ : BufTy).Contents (Elt F)) (x10 : (⟨S194x2, .f32⟩ : BufTy).Contents (Elt F))
    (x11 : (⟨S2, .f32⟩ : BufTy).Contents (Elt F)) (x12 : (⟨S2x2, .f32⟩ : BufTy).Contents (Elt F))
    (x13 : (⟨S2, .f32⟩ : BufTy).Contents (Elt F))
    (h1 : W (Proc.devRef .tc main_v1) = v1) (h3 : W (Proc.devRef .tc main_v3) = v3) (h10 : W (Proc.devRef .tc main_v10) = v10)
    (h41 : W (Proc.devRef .tc main_v41) = v41)
    (e2 : W (Proc.devRef .tc main_arg2) = x2) (e3 : W (Proc.devRef .tc main_arg3) = x3) (e7 : W (Proc.devRef .tc main_arg7) = x7)
    (e8 : W (Proc.devRef .tc main_arg8) = x8) (e9 : W (Proc.devRef .tc main_arg9) = x9) (e10 : W (Proc.devRef .tc main_arg10) = x10)
    (e11 : W (Proc.devRef .tc main_arg11) = x11) (e12 : W (Proc.devRef .tc main_arg12) = x12) (e13 : W (Proc.devRef .tc main_arg13) = x13) :
    StableHlo.after hostOps2_2 (StableHlo.after hostOps2_1 (StableHlo.after hostOps2 W)) (Proc.devRef .tc main_v117)
      = k_v117 (F := F) (k_v109 (F := F) v1 v3 (k_v65 (F := F) v1 v3 v10 v41 x7) x2 x3 x8 x9 x10) x11 x12 x13 := by
  subst h1 h3 h10 h41 e2 e3 e7 e8 e9 e10 e11 e12 e13; exact g2_v117 W

end Cert.KernelIdeal.KRun

end
-- ==== Proof.KernelRun.lean ====
/-
  The idealized kernel's run with its result named, and the result read back through the host operations to the
  arguments.

  The program is two matrix products among stretches of host operations. Its buffers' contents at each boundary are a
  fold from the launch memory: a stretch applies its operations in order, a product leaves its output array at what its
  blocks' write-backs amount to and every other buffer as it was. Read at the result buffer, the fold is the host
  arithmetic after the second product applied to that product's output and to buffers written before the first
  product or never (the edge list's columns, the nodes' factors, the arguments), which are carried unchanged to where
  they are read. Read at a product's operand array, it is the host arithmetic before that product.
-/
import proofs.«131849_j52312701665557_2_alg».proof.Proof.KernelRunHost

set_option maxRecDepth 16384

noncomputable section

namespace Cert.KernelIdeal.KRun

open Cert.KernelIdeal Cert.KernelIdeal.Gen Cert.KernelIdeal.KStages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundaries' contents at the buffers the stretches read

A buffer written before the first product (the edge list's two columns, the nodes' factors) or never (an argument) is
carried unchanged through every later stretch that does not write it and through both products, whose arrays it is
not. -/

/-- Through the three stretches between the products. -/
theorem W5_keep (c : Dev nD) {r : Ref sig .tc} (h1 : r ∉ wr1) (h11 : r ∉ wr1_1) (h12 : r ∉ wr1_2) :
    W5 m ρ c (Proc.devRef .tc r) = W2 m ρ c (Proc.devRef .tc r) :=
  (keep1_2 _ h12).trans ((keep1_1 _ h11).trans (keep1 _ h1))

/-- From the first product's exit to the second product's exit. -/
theorem W6_keep (c : Dev nD) {r : Ref sig .tc} (h1 : r ∉ wr1) (h11 : r ∉ wr1_1) (h12 : r ∉ wr1_2)
    (ha : ∀ w, Pipeline.arrRef spec1 w ≠ r) :
    W6 m ρ c (Proc.devRef .tc r) = W2 m ρ c (Proc.devRef .tc r) :=
  (W6_of_ne m ρ c r ha).trans (W5_keep m ρ c h1 h11 h12)

/-- An argument at the first product's exit. -/
theorem W2_arg (c : Dev nD) {r : Ref sig .tc} (h0 : r ∉ wr0) (ha : ∀ w, Pipeline.arrRef spec0 w ≠ r) :
    W2 m ρ c (Proc.devRef .tc r) = W0 m ρ c (Proc.devRef .tc r) :=
  (W2_of_ne m ρ c r ha).trans (keep0 _ h0)

/-- An argument at the second product's exit. -/
theorem W6_arg (c : Dev nD) {r : Ref sig .tc} (h0 : r ∉ wr0) (ha0 : ∀ w, Pipeline.arrRef spec0 w ≠ r)
    (h1 : r ∉ wr1) (h11 : r ∉ wr1_1) (h12 : r ∉ wr1_2) (ha1 : ∀ w, Pipeline.arrRef spec1 w ≠ r) :
    W6 m ρ c (Proc.devRef .tc r) = W0 m ρ c (Proc.devRef .tc r) :=
  (W6_keep m ρ c h1 h11 h12 ha1).trans (W2_arg m ρ c h0 ha0)

/-- The edge list's source column at the first product's exit. -/
theorem W2_v1 (c : Dev nD) : W2 m ρ c (Proc.devRef .tc main_v1) = k_v1 (F := F) (m ((c.tc : Thread nD τ).loc main_arg1)) :=
  (W2_of_ne m ρ c main_v1 (by decide)).trans (s0_v1 (W0 m ρ c))
/-- The edge list's destination column at the first product's exit. -/
theorem W2_v3 (c : Dev nD) : W2 m ρ c (Proc.devRef .tc main_v3) = k_v3 (F := F) (m ((c.tc : Thread nD τ).loc main_arg1)) :=
  (W2_of_ne m ρ c main_v3 (by decide)).trans (s0_v3 (W0 m ρ c))
/-- The nodes' factors at the first product's exit. -/
theorem W2_v10 (c : Dev nD) : W2 m ρ c (Proc.devRef .tc main_v10) = k_v10 (F := F) (m ((c.tc : Thread nD τ).loc main_arg1)) :=
  (W2_of_ne m ρ c main_v10 (by decide)).trans (s0_v10 (W0 m ρ c))
/-- The same three at the second product's exit. -/
theorem W6_v1 (c : Dev nD) : W6 m ρ c (Proc.devRef .tc main_v1) = k_v1 (F := F) (m ((c.tc : Thread nD τ).loc main_arg1)) :=
  (W6_keep m ρ c (r := main_v1) (by decide) (by decide) (by decide) (by decide)).trans (W2_v1 m ρ c)
theorem W6_v3 (c : Dev nD) : W6 m ρ c (Proc.devRef .tc main_v3) = k_v3 (F := F) (m ((c.tc : Thread nD τ).loc main_arg1)) :=
  (W6_keep m ρ c (r := main_v3) (by decide) (by decide) (by decide) (by decide)).trans (W2_v3 m ρ c)
theorem W6_v10 (c : Dev nD) : W6 m ρ c (Proc.devRef .tc main_v10) = k_v10 (F := F) (m ((c.tc : Thread nD τ).loc main_arg1)) :=
  (W6_keep m ρ c (r := main_v10) (by decide) (by decide) (by decide) (by decide)).trans (W2_v10 m ρ c)

/-! ## The products' operands, and the result -/

/-- The first product's left operand as the region finds it. -/
theorem V1_left (c : Dev nD) : V1 m ρ c (Pipeline.arrRef spec0 0) = k_v11 (F := F) (m ((c.tc : Thread nD τ).loc main_arg0)) :=
  s0_v11 (W0 m ρ c)
/-- The first product's right operand as the region finds it. -/
theorem V1_right (c : Dev nD) : V1 m ρ c (Pipeline.arrRef spec0 1) = k_v12 (F := F) (m ((c.tc : Thread nD τ).loc main_arg4)) :=
  s0_v12 (W0 m ρ c)

/-- The second product's left operand as the region finds it: the first layer's positive part, rounded, of the first
    product's result. -/
theorem V5_left (c : Dev nD) :
    V5 m ρ c (Pipeline.arrRef spec1 0)
      = k_v39 (F := F) (k_v37 (F := F) (k_v1 (F := F) (m ((c.tc : Thread nD τ).loc main_arg1))) (k_v3 (F := F) (m ((c.tc : Thread nD τ).loc main_arg1))) (k_v10 (F := F) (m ((c.tc : Thread nD τ).loc main_arg1)))
          ((dat0 (V1 m ρ) c).arrAt 2 cfg0.N) (m ((c.tc : Thread nD τ).loc main_arg5))) :=
  g1_v39' (W2 m ρ c) _ _ _ _ _ (W2_v1 m ρ c) (W2_v3 m ρ c) (W2_v10 m ρ c) (W2_arr m ρ c 2)
    (W2_arg m ρ c (r := main_arg5) (by decide) (by decide))
/-- The second product's right operand as the region finds it. -/
theorem V5_right (c : Dev nD) : V5 m ρ c (Pipeline.arrRef spec1 1) = k_v40 (F := F) (m ((c.tc : Thread nD τ).loc main_arg6)) :=
  g1_v40' (W2 m ρ c) _ (W2_arg m ρ c (r := main_arg6) (by decide) (by decide))

/-- The result buffer at the end: the stretches after the second product applied to that product's result. -/
theorem W9_result (c : Dev nD) :
    W9 m ρ c (Proc.devRef .tc main_v117)
      = k_v117 (F := F)
          (k_v109 (F := F) (k_v1 (F := F) (m ((c.tc : Thread nD τ).loc main_arg1))) (k_v3 (F := F) (m ((c.tc : Thread nD τ).loc main_arg1)))
            (k_v65 (F := F) (k_v1 (F := F) (m ((c.tc : Thread nD τ).loc main_arg1))) (k_v3 (F := F) (m ((c.tc : Thread nD τ).loc main_arg1))) (k_v10 (F := F) (m ((c.tc : Thread nD τ).loc main_arg1)))
              ((dat1 (V5 m ρ) c).arrAt 2 cfg1.N) (m ((c.tc : Thread nD τ).loc main_arg7)))
            (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)))
          (m ((c.tc : Thread nD τ).loc main_arg11)) (m ((c.tc : Thread nD τ).loc main_arg12)) (m ((c.tc : Thread nD τ).loc main_arg13)) :=
  g2_v117' (W6 m ρ c) _ _ _ _ _ _ _ _ _ _ _ _ _ (W6_v1 m ρ c) (W6_v3 m ρ c) (W6_v10 m ρ c) (W6_arr m ρ c 2)
    (W6_arg m ρ c (r := main_arg2) (by decide) (by decide) (by decide) (by decide) (by decide) (by decide))
    (W6_arg m ρ c (r := main_arg3) (by decide) (by decide) (by decide) (by decide) (by decide) (by decide))
    (W6_arg m ρ c (r := main_arg7) (by decide) (by decide) (by decide) (by decide) (by decide) (by decide))
    (W6_arg m ρ c (r := main_arg8) (by decide) (by decide) (by decide) (by decide) (by decide) (by decide))
    (W6_arg m ρ c (r := main_arg9) (by decide) (by decide) (by decide) (by decide) (by decide) (by decide))
    (W6_arg m ρ c (r := main_arg10) (by decide) (by decide) (by decide) (by decide) (by decide) (by decide))
    (W6_arg m ρ c (r := main_arg11) (by decide) (by decide) (by decide) (by decide) (by decide) (by decide))
    (W6_arg m ρ c (r := main_arg12) (by decide) (by decide) (by decide) (by decide) (by decide) (by decide))
    (W6_arg m ρ c (r := main_arg13) (by decide) (by decide) (by decide) (by decide) (by decide) (by decide))

/-! ## The run -/

-- the launch theorem's implicit arguments are found by unifying its conclusion with this one, which takes unfolding
-- plain definitions in a metavariable's type
set_option backward.isDefEq.respectTransparency.types false in
/-- At the compiled mesh, from any memory with zero counters, every weakly fair execution of the program on the cores
    terminates, nothing faulting, and in every final state each core's result buffer holds the host arithmetic after
    the second matrix product applied to that product's result, the edge list's columns, the nodes' factors and the
    arguments — and the fourteen argument arrays are as launched. -/
theorem run : θ_run defs (onTc (τ := τ) (main (F := F))) ⟨m, fun _ => 0, ρ⟩ (fun r => ∀ c : Dev nD,
      r.2.mem ((c.tc : Thread nD τ).loc main_v117)
        = k_v117 (F := F)
            (k_v109 (F := F) (k_v1 (F := F) (m ((c.tc : Thread nD τ).loc main_arg1))) (k_v3 (F := F) (m ((c.tc : Thread nD τ).loc main_arg1)))
              (k_v65 (F := F) (k_v1 (F := F) (m ((c.tc : Thread nD τ).loc main_arg1))) (k_v3 (F := F) (m ((c.tc : Thread nD τ).loc main_arg1))) (k_v10 (F := F) (m ((c.tc : Thread nD τ).loc main_arg1)))
                ((dat1 (V5 m ρ) c).arrAt 2 cfg1.N) (m ((c.tc : Thread nD τ).loc main_arg7)))
              (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)))
            (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v117 (by decide))).trans (W9_result m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.KRun

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.RegionValue.lean ====
/-
  What each of the idealized kernel's two pipelined regions leaves in its output array, as one whole-array
  function at exact arithmetic: the matrix product of the region's two input arrays as the region finds them.
  Each region tiles the rows of its left factor into five blocks of 10000 rows, multiplies each block by the whole
  right factor into a zero accumulator, and writes the product back to the same rows of the output; so the output
  array ends holding, at row r and column q, the sum over k of left[r,k] * right[k,q].
-/
import proofs.«131849_j52312701665557_2_alg».proof.Proof.Gen.KernelIdeal.Frame
import proofs.«131849_j52312701665557_2_alg».proof.Proof.LibMatmulIdx
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when a region is entered, at exact arithmetic
variable (V : (c : Dev nD) → (b : Ref sig .tc) → Buf (Elt Ideal) ((c : Thread nD τ).loc b))

theorem hz : (![0, 0] : Fin 2 → Nat) = fun _ => 0 := funext fun a => by fin_cases a <;> rfl

/-! # Region 0: a [50000,256] array times a [256,256] array -/

/-- The product of a [50000,256] array by a [256,256] array, entry by entry. -/
def mm0 (x : S50000x256.Idx → EReal) (w : S256x256.Idx → EReal) : S50000x256.Idx → EReal :=
  fun i => ∑ k : Fin 256, x (ix2 (n0 := 50000) (n1 := 256) (i 0) k) * w (ix2 (n0 := 256) (n1 := 256) k (i 1))

/-! ## The body's product at an entry -/

/-- The contraction's left index: the result's row, -/
theorem lhs0_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
/-- and the contracted position; -/
theorem lhs0_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
/-- its right index: the contracted position, -/
theorem rhs0_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
/-- and the result's column. -/
theorem rhs0_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- What the body stores at entry (p, q) of its output block: the sum over k of left[p,k] * right[k,q]. -/
theorem pay0_apply (x0 : Vec Ideal S10000x256 .bf16) (x1 : Vec Ideal S256x256 .bf16) (p : Fin 10000) (q : Fin 256) :
    k0_pay1 (F := Ideal) x0 x1 (ix2 p q) = ∑ k : Fin 256, x0 (ix2 p k) * x1 (ix2 k q) := by
  unfold k0_pay1
  simp only [shapeCast_self]
  exact LibMatmulIdx.matmul2_apply dot_S10000x256_S256x256_S10000x256_1_0_0_1_n_n rfl rfl
    (fun j k => lhs0_0 j k) (fun j k => lhs0_1 j k) (fun j k => rhs0_0 j k) (fun j k => rhs0_1 j k) none x0 x1 (ix2 p q)

/-! ## From blocks to the array -/

/-- The windows' index maps over the grid: the left factor's and the output's blocks are the point's row block,
    the right factor's is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point `t` is rows `10000 t … 10000 t + 9999` of the array. -/
theorem left0_apply (c : Dev nD) (t : Fin cfg0.N) (y : S10000x256.Idx) (i : S50000x256.Idx)
    (h0 : (i 0).val = t.val * 10000 + (y 0).val) (h1 : (i 1).val = (y 1).val) :
    (iblk0 (F := Ideal) V c 0 t : Vec Ideal S10000x256 .bf16) y = (V c main_v11 : S50000x256.Idx → EReal) i := by
  obtain ⟨e0, e1, -⟩ := idx_facts0 t
  unfold iblk0
  rw [View.read_apply]
  show V c main_v11 _ = V c main_v11 _
  congr 1
  funext a
  apply Fin.ext
  match a with
  | ⟨0, _⟩ => show win0_0.index t 0 * 10000 + 1 * (y 0).val = (i 0).val; rw [e0, h0]; omega
  | ⟨1, _⟩ => show win0_0.index t 1 * 256 + 1 * (y 1).val = (i 1).val; rw [e1, h1]; omega

/-- The right factor's block at every point is the whole array. -/
theorem right0_apply (c : Dev nD) (t : Fin cfg0.N) (y : S256x256.Idx) :
    (iblk0 (F := Ideal) V c 1 t : Vec Ideal S256x256 .bf16) y = (V c main_v12 : S256x256.Idx → EReal) y := by
  obtain ⟨-, -, e2, e3, -⟩ := idx_facts0 t
  unfold iblk0
  rw [View.read_apply]
  show V c main_v12 _ = V c main_v12 _
  congr 1
  funext a
  apply Fin.ext
  match a with
  | ⟨0, _⟩ => show win0_1.index t 0 * 256 + 1 * (y 0).val = (y 0).val; rw [e2]; omega
  | ⟨1, _⟩ => show win0_1.index t 1 * 256 + 1 * (y 1).val = (y 1).val; rw [e3]; omega

/-- What point `t` writes back is block `t` of the product of the two arrays as the region finds them. -/
theorem flushed0_eq (c : Dev nD) (t : Fin cfg0.N) :
    (dat0 (F := Ideal) V c).flushed 2 t
      = ((cfg0.win 2).blk t).view.read (Elt Ideal) (mm0 (V c main_v11) (V c main_v12)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x256) hz]
  obtain ⟨-, -, -, -, e4, e5⟩ := idx_facts0 t
  funext j
  rw [View.read_apply]
  show k0_pay1 (iblk0 V c 0 t) (iblk0 V c 1 t) (ix2 (n0 := 10000) (n1 := 256) (j 0) (j 1)) = mm0 (V c main_v11) (V c main_v12) (((cfg0.win 2).blk t).view.emb j)
  refine (pay0_apply (iblk0 V c 0 t) (iblk0 V c 1 t) (j 0) (j 1)).trans ?_
  unfold mm0
  refine Finset.sum_congr rfl fun k _ => ?_
  congr 1
  · refine left0_apply V c t _ _ ?_ rfl
    show win0_2.index t 0 * 10000 + 1 * (j 0).val = t.val * 10000 + (j 0).val
    rw [e4]; omega
  · refine (right0_apply V c t _).trans ?_
    congr 1
    funext a
    apply Fin.ext
    match a with
    | ⟨0, _⟩ => rfl
    | ⟨1, _⟩ => show (j 1).val = win0_2.index t 1 * 256 + 1 * (j 1).val; rw [e5]; omega

/-- An index of the array is in point `t`'s block iff each coordinate is in the block's range on its axis. -/
theorem mem_blk0 (t : Fin cfg0.N) (i : S50000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v13).slice (win0_2.rect t)).set ↔ _
  rw [View.set_slice_whole, Rect.mem_set_unit]
  exact Iff.rfl

/-- Row `r` of the output is covered by the point `r / 10000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 5 := N_0
  let t : Fin cfg0.N := ⟨(i 0).val / 10000, by rw [hN]; omega⟩
  obtain ⟨-, -, -, -, e4, e5⟩ := idx_facts0 t
  refine ⟨t, flush0_2 t, ?_⟩
  rw [mem_blk0]
  intro a
  match a with
  | ⟨0, _⟩ =>
    show win0_2.index t 0 * 10000 ≤ (i 0).val ∧ (i 0).val < win0_2.index t 0 * 10000 + 10000
    rw [e4]; show (i 0).val / 10000 * 10000 ≤ (i 0).val ∧ (i 0).val < (i 0).val / 10000 * 10000 + 10000; omega
  | ⟨1, _⟩ =>
    show win0_2.index t 1 * 256 ≤ (i 1).val ∧ (i 1).val < win0_2.index t 1 * 256 + 256
    rw [e5]; omega

/-- The output array after region 0: the product of the region's two input arrays as it finds them. -/
theorem region0 (c : Dev nD) :
    (dat0 (F := Ideal) V c).arrAt 2 cfg0.N = mm0 (V c main_v11) (V c main_v12) :=
  (dat0 V c).arrAt_eq_of_cover 2 (mm0 (V c main_v11) (V c main_v12)) (fun t _ => flushed0_eq V c t) cover0

/-! # Region 1: a [50000,256] array times a [256,128] array -/

/-- The product of a [50000,256] array by a [256,128] array, entry by entry. -/
def mm1 (x : S50000x256.Idx → EReal) (w : S256x128.Idx → EReal) : S50000x128.Idx → EReal :=
  fun i => ∑ k : Fin 256, x (ix2 (n0 := 50000) (n1 := 256) (i 0) k) * w (ix2 (n0 := 256) (n1 := 128) k (i 1))

/-! ## The body's product at an entry -/

/-- The contraction's left index: the result's row, -/
theorem lhs1_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
/-- and the contracted position; -/
theorem lhs1_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
/-- its right index: the contracted position, -/
theorem rhs1_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
/-- and the result's column. -/
theorem rhs1_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- What the body stores at entry (p, q) of its output block: the sum over k of left[p,k] * right[k,q]. -/
theorem pay1_apply (x0 : Vec Ideal S10000x256 .bf16) (x1 : Vec Ideal S256x128 .bf16) (p : Fin 10000) (q : Fin 128) :
    k1_pay1 (F := Ideal) x0 x1 (ix2 p q) = ∑ k : Fin 256, x0 (ix2 p k) * x1 (ix2 k q) := by
  unfold k1_pay1
  simp only [shapeCast_self]
  exact LibMatmulIdx.matmul2_apply dot_S10000x256_S256x128_S10000x128_1_0_0_1_n_n rfl rfl
    (fun j k => lhs1_0 j k) (fun j k => lhs1_1 j k) (fun j k => rhs1_0 j k) (fun j k => rhs1_1 j k) none x0 x1 (ix2 p q)

/-! ## From blocks to the array -/

/-- The windows' index maps over the grid: the left factor's and the output's blocks are the point's row block,
    the right factor's is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left factor's block at point `t` is rows `10000 t … 10000 t + 9999` of the array. -/
theorem left1_apply (c : Dev nD) (t : Fin cfg1.N) (y : S10000x256.Idx) (i : S50000x256.Idx)
    (h0 : (i 0).val = t.val * 10000 + (y 0).val) (h1 : (i 1).val = (y 1).val) :
    (iblk1 (F := Ideal) V c 0 t : Vec Ideal S10000x256 .bf16) y = (V c main_v39 : S50000x256.Idx → EReal) i := by
  obtain ⟨e0, e1, -⟩ := idx_facts1 t
  unfold iblk1
  rw [View.read_apply]
  show V c main_v39 _ = V c main_v39 _
  congr 1
  funext a
  apply Fin.ext
  match a with
  | ⟨0, _⟩ => show win1_0.index t 0 * 10000 + 1 * (y 0).val = (i 0).val; rw [e0, h0]; omega
  | ⟨1, _⟩ => show win1_0.index t 1 * 256 + 1 * (y 1).val = (i 1).val; rw [e1, h1]; omega

/-- The right factor's block at every point is the whole array. -/
theorem right1_apply (c : Dev nD) (t : Fin cfg1.N) (y : S256x128.Idx) :
    (iblk1 (F := Ideal) V c 1 t : Vec Ideal S256x128 .bf16) y = (V c main_v40 : S256x128.Idx → EReal) y := by
  obtain ⟨-, -, e2, e3, -⟩ := idx_facts1 t
  unfold iblk1
  rw [View.read_apply]
  show V c main_v40 _ = V c main_v40 _
  congr 1
  funext a
  apply Fin.ext
  match a with
  | ⟨0, _⟩ => show win1_1.index t 0 * 256 + 1 * (y 0).val = (y 0).val; rw [e2]; omega
  | ⟨1, _⟩ => show win1_1.index t 1 * 128 + 1 * (y 1).val = (y 1).val; rw [e3]; omega

/-- What point `t` writes back is block `t` of the product of the two arrays as the region finds them. -/
theorem flushed1_eq (c : Dev nD) (t : Fin cfg1.N) :
    (dat1 (F := Ideal) V c).flushed 2 t
      = ((cfg1.win 2).blk t).view.read (Elt Ideal) (mm1 (V c main_v39) (V c main_v40)) := by
  show (cfg1.win 2).cut (grid1.coords t) ((dat1 V c).after 2 t) = _
  rw [after1_2]
  unfold out1_2
  rw [View.canon_unit_zero hz]
  simp only [View.ld_unit_zero (S := S10000x256) hz, View.ld_unit_zero (S := S256x128) hz]
  obtain ⟨-, -, -, -, e4, e5⟩ := idx_facts1 t
  funext j
  rw [View.read_apply]
  show k1_pay1 (iblk1 V c 0 t) (iblk1 V c 1 t) (ix2 (n0 := 10000) (n1 := 128) (j 0) (j 1)) = mm1 (V c main_v39) (V c main_v40) (((cfg1.win 2).blk t).view.emb j)
  refine (pay1_apply (iblk1 V c 0 t) (iblk1 V c 1 t) (j 0) (j 1)).trans ?_
  unfold mm1
  refine Finset.sum_congr rfl fun k _ => ?_
  congr 1
  · refine left1_apply V c t _ _ ?_ rfl
    show win1_2.index t 0 * 10000 + 1 * (j 0).val = t.val * 10000 + (j 0).val
    rw [e4]; omega
  · refine (right1_apply V c t _).trans ?_
    congr 1
    funext a
    apply Fin.ext
    match a with
    | ⟨0, _⟩ => rfl
    | ⟨1, _⟩ => show (j 1).val = win1_2.index t 1 * 128 + 1 * (j 1).val; rw [e5]; omega

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- Row `r` of the output is covered by the point `r / 10000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, e4, e5⟩ := idx_facts1 t
  refine ⟨t, flush1_2 t, ?_⟩
  rw [mem_blk1]
  intro a
  match a with
  | ⟨0, _⟩ =>
    show win1_2.index t 0 * 10000 ≤ (i 0).val ∧ (i 0).val < win1_2.index t 0 * 10000 + 10000
    rw [e4]; show (i 0).val / 10000 * 10000 ≤ (i 0).val ∧ (i 0).val < (i 0).val / 10000 * 10000 + 10000; omega
  | ⟨1, _⟩ =>
    show win1_2.index t 1 * 128 ≤ (i 1).val ∧ (i 1).val < win1_2.index t 1 * 128 + 128
    rw [e5]; omega

/-- The output array after region 1: the product of the region's two input arrays as it finds them. -/
theorem region1 (c : Dev nD) :
    (dat1 (F := Ideal) V c).arrAt 2 cfg1.N = mm1 (V c main_v39) (V c main_v40) :=
  (dat1 V c).arrAt_eq_of_cover 2 (mm1 (V c main_v39) (V c main_v40)) (fun t _ => flushed1_eq V c t) cover1

end Cert.KernelIdeal.RegionValue

end
-- ==== Proof.KernelValue.lean ====
/-
  The idealized kernel's run, its result named as one function of the arguments.

  The run of the two-region program leaves in the result buffer the last stretch's host arithmetic applied to the
  second region's output array; that array is the whole-array matrix product of the region's two operands as the region
  finds them; the left operand is the middle stretch's arithmetic applied to the first region's output array, which is
  the product of the first region's operands; and those are the first stretch's arithmetic applied to the arguments.
  Composed, the result is the function `kout` of the arguments with both regions read as matrix products.
-/
import proofs.«131849_j52312701665557_2_alg».proof.Proof.KernelRun
import proofs.«131849_j52312701665557_2_alg».proof.Proof.RegionValue
import proofs.«131849_j52312701665557_2_alg».proof.Proof.KStages

noncomputable section

namespace Cert.KernelIdeal.KValue

open Cert.KernelIdeal Cert.KernelIdeal.Gen Idealize.ShloMosaic Idealize.ShloMosaic.TcCoe Idealize.SL.Sem
open Cert.KernelIdeal.KStages

variable (m : (ℓ : Loc nD τ sig) → Buf (Elt Ideal) ℓ) (ρ : Dev nD → PrngReg)

/-- The result the run names is `kout` of the arguments, each region a whole-array matrix product. -/
theorem result_eq (c : Dev nD) :
    k_v117 (F := Ideal)
        (k_v109 (F := Ideal) (k_v1 (F := Ideal) (m ((c.tc : Thread nD τ).loc main_arg1))) (k_v3 (F := Ideal) (m ((c.tc : Thread nD τ).loc main_arg1)))
          (k_v65 (F := Ideal) (k_v1 (F := Ideal) (m ((c.tc : Thread nD τ).loc main_arg1))) (k_v3 (F := Ideal) (m ((c.tc : Thread nD τ).loc main_arg1))) (k_v10 (F := Ideal) (m ((c.tc : Thread nD τ).loc main_arg1)))
            ((dat1 (F := Ideal) (V5 m ρ) c).arrAt 2 cfg1.N) (m ((c.tc : Thread nD τ).loc main_arg7)))
          (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)))
        (m ((c.tc : Thread nD τ).loc main_arg11)) (m ((c.tc : Thread nD τ).loc main_arg12)) (m ((c.tc : Thread nD τ).loc main_arg13))
      = kout (F := Ideal) RegionValue.mm0 RegionValue.mm1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  have e39 : V5 (F := Ideal) m ρ c main_v39 = k_v39 (F := Ideal) (k_v37 (F := Ideal) (k_v1 (F := Ideal) (m ((c.tc : Thread nD τ).loc main_arg1))) (k_v3 (F := Ideal) (m ((c.tc : Thread nD τ).loc main_arg1))) (k_v10 (F := Ideal) (m ((c.tc : Thread nD τ).loc main_arg1)))
      ((dat0 (F := Ideal) (V1 m ρ) c).arrAt 2 cfg0.N) (m ((c.tc : Thread nD τ).loc main_arg5))) := KRun.V5_left m ρ c
  have e40 : V5 (F := Ideal) m ρ c main_v40 = k_v40 (F := Ideal) (m ((c.tc : Thread nD τ).loc main_arg6)) := KRun.V5_right m ρ c
  have e11 : V1 (F := Ideal) m ρ c main_v11 = k_v11 (F := Ideal) (m ((c.tc : Thread nD τ).loc main_arg0)) := KRun.V1_left m ρ c
  have e12 : V1 (F := Ideal) m ρ c main_v12 = k_v12 (F := Ideal) (m ((c.tc : Thread nD τ).loc main_arg4)) := KRun.V1_right m ρ c
  unfold kout
  rw [RegionValue.region1 (V5 m ρ) c, e39, e40, RegionValue.region0 (V1 m ρ) c, e11, e12]

/-- THE RUN: every weakly fair execution terminates with the result at `kout` of the arguments, the arguments unchanged. -/
theorem run : θ_run defs (onTc (τ := τ) (main (F := Ideal))) ⟨m, fun _ => 0, ρ⟩ (fun r => ∀ c : Dev nD,
      r.2.mem ((c.tc : Thread nD τ).loc main_v117)
        = kout (F := Ideal) RegionValue.mm0 RegionValue.mm1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩) (KRun.run (F := Ideal) m ρ)

end Cert.KernelIdeal.KValue

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.LibSegmentIdx.lean ====
/-
  Gathers and accumulating scatters along the leading axis, read at an index.

  Indexing a table by an integer column, `x[idx]`, and summing update rows into the rows an integer column names
  (a segment sum) are the two halves of message passing on a graph. With the index column of shape [E, 1]:

  * a gather from a vector x : [N], or from a one-column matrix x : [N, 1], reads at position e the entry of x at
    the e-th index, read as a signed integer and clamped into [0, N − 1];
  * an accumulating scatter into a vector [N], or into a one-column matrix [N, 1], lands update e on row i exactly
    when the e-th index, read as a signed integer and NOT clamped, equals i; an index outside [0, N) lands nowhere;
  * hence, at exact arithmetic, row i of the scattered sum is the operand's row i plus the sum over all e of
    "update e if the e-th index equals i, else 0".
-/
import Idealize.ShloMosaic.Lib.ValueIdx
import Idealize.ShloMosaic.PureOps.Ideal.Laws

noncomputable section

open scoped BigOperators

namespace LibSegmentIdx

open Idealize.ShloMosaic Idealize.ShloMosaic.ValueIdx

/-! ## Gathers -/

section Gather
variable {α : Type}

/-- The dimension numbers of `x[idx]` for a vector `x : [N]` and an index column `idx : [E, 1]`, result `[E]`. -/
abbrev takeVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of `x[idx]` is `x` at the `e`-th index, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (takeVecDims N E wf) x idx j
      = x (ix1 ⟨min (idx (ix2 (j 0) (0 : Fin 1))).toInt.toNat (N - 1), by omega⟩) := by
  unfold Host.gather
  congr 1
  funext a
  obtain rfl : a = 0 := Subsingleton.elim _ _
  refine Fin.ext ?_
  show (takeVecDims N E wf).start j idx 0 + (takeVecDims N E wf).batchCoord j 0 + (takeVecDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeVecDims N E wf).startIndexMap from List.mem_singleton.mpr rfl)]
  have hsi : (takeVecDims N E wf).siIdx j ⟨List.idxOf (0 : Fin 1) (takeVecDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The dimension numbers of `x[idx]` for a one-column matrix `x : [N, 1]` and `idx : [E, 1]`, result `[E, 1]`. -/
abbrev takeRowDims (N E : Nat) (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- Row `e` of `x[idx]` is the row of `x` at the `e`-th index, read signed and clamped into `[0, N − 1]`. -/
theorem gather_row_apply {N E w : Nat} (hN : 0 < N)
    (wf : GatherDims.WF ⟨2, ![N, 1]⟩ ⟨2, ![E, 1]⟩ ⟨2, ![E, 1]⟩ [1] [0] [] [0] [] 1 ![1, 1])
    (x : (⟨2, ![N, 1]⟩ : Shape).Idx → α) (idx : IVec ⟨2, ![E, 1]⟩ w) (j : (⟨2, ![E, 1]⟩ : Shape).Idx) :
    Host.gather (takeRowDims N E wf) x idx j
      = x (ix2 ⟨min (idx (ix2 (j 0) (0 : Fin 1))).toInt.toNat (N - 1), by omega⟩ (0 : Fin 1)) := by
  unfold Host.gather
  congr 1
  funext a
  refine Fin.ext ?_
  match a with
  | ⟨0, _⟩ =>
    show (takeRowDims N E wf).start j idx 0 + (takeRowDims N E wf).batchCoord j 0 + (takeRowDims N E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowDims N E wf).startIndexMap from List.mem_singleton.mpr rfl)]
    have hsi : (takeRowDims N E wf).siIdx j ⟨List.idxOf (0 : Fin 2) (takeRowDims N E wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    have h1 := (takeRowDims N E wf).lt j idx 1
    have : (⟨2, ![N, 1]⟩ : Shape).size 1 = 1 := rfl
    show (takeRowDims N E wf).start j idx 1 + (takeRowDims N E wf).batchCoord j 1 + (takeRowDims N E wf).offCoord j 1 = 0
    omega

end Gather

/-! ## Accumulating scatters -/

section Scatter

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- A column's index set `[n, 1]` is its row coordinate's range. -/
def idxEquivCol {n : Nat} : (⟨2, ![n, 1]⟩ : Shape).Idx ≃ Fin n where
  toFun i := i 0
  invFun e := ix2 e (0 : Fin 1)
  left_inv i := funext fun a => match a with
    | ⟨0, _⟩ => rfl
    | ⟨1, _⟩ => Fin.ext (by have := idx2_lt1 i; show (0 : ℕ) = (i 1).val; omega)
  right_inv _ := rfl

/-- The dimension numbers of a segment sum into a vector `[N]`: updates `[E]`, index column `[E, 1]`. -/
abbrev addVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `i` exactly when the `e`-th index, read signed, is `i`. -/
theorem resultIdx?_vec_iff {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (addVecDims N E wf).resultIdx? j idx = some i ↔ (idx (ix2 (j 0) (0 : Fin 1))).toInt = ((i 0).val : ℤ) := by
  have hi : (i 0).val < N := (i 0).isLt
  have hstart : (addVecDims N E wf).start j idx 0 = (idx (ix2 (j 0) (0 : Fin 1))).toInt := by
    unfold ScatterDims.start
    rw [dif_pos (show (0 : Fin 1) ∈ (addVecDims N E wf).scatterDimsToOperandDims from List.mem_singleton.mpr rfl)]
    have hsi : (addVecDims N E wf).siIdx j ⟨List.idxOf (0 : Fin 1) (addVecDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (addVecDims N E wf).window j 0 = 0 := by
    unfold ScatterDims.window
    rw [dif_neg (by simp [ScatterDims.sKept, Shape.kept])]
  unfold ScatterDims.resultIdx?
  split
  · rename_i h
    rw [Option.some_inj]
    constructor
    · intro he
      have h0 := congrArg (fun f => (f 0).val) he
      have hh := h 0
      simp only [hstart, hwin] at h0 hh
      omega
    · intro he
      funext a
      obtain rfl : a = 0 := Subsingleton.elim _ _
      refine Fin.ext ?_
      show ((addVecDims N E wf).start j idx 0 + ((addVecDims N E wf).window j 0 : ℕ)).toNat = (i 0).val
      rw [hstart, hwin]
      omega
  · rename_i h
    constructor
    · intro he; exact absurd he (by simp)
    · intro he
      exfalso
      apply h
      intro a
      obtain rfl : a = 0 := Subsingleton.elim _ _
      rw [hstart, hwin]
      have : (⟨1, ![N]⟩ : Shape).size 0 = N := rfl
      omega

/-- At exact arithmetic, entry `i` of the segment sum into a vector is the operand's entry plus the sum over all
    `e` of "update `e` if the `e`-th index is `i`, else 0". -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (i : (⟨1, ![N]⟩ : Shape).Idx) :
    Host.scatterAdd (addVecDims N E wf) x idx upd i
      = x i + ∑ e : Fin E, if (idx (ix2 e (0 : Fin 1))).toInt = ((i 0).val : ℤ) then upd (ix1 e) else 0 := by
  show Ideal.hostScatterAdd (addVecDims N E wf) x idx upd i = _
  unfold Ideal.hostScatterAdd
  congr 1
  rw [Finset.sum_filter]
  refine Fintype.sum_equiv idxEquiv1 _ _ (fun j => ?_)
  obtain ⟨e, rfl⟩ : ∃ e, j = ix1 e := ⟨j 0, eq_ix1 j⟩
  exact if_congr (resultIdx?_vec_iff wf idx (ix1 e) i) rfl rfl

/-- The dimension numbers of a segment sum into a one-column matrix `[N, 1]`: updates `[E, 1]`, index column `[E, 1]`. -/
abbrev addRowDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Update row `e` lands on row `i` exactly when the `e`-th index, read signed, is `i`'s row. -/
theorem resultIdx?_row_iff {N E w : Nat} (wf : ScatterDims.WF ⟨2, ![N, 1]⟩ ⟨2, ![E, 1]⟩ ⟨2, ![E, 1]⟩ [1] [0] [0] 1)
    (idx : IVec ⟨2, ![E, 1]⟩ w) (j : (⟨2, ![E, 1]⟩ : Shape).Idx) (i : (⟨2, ![N, 1]⟩ : Shape).Idx) :
    (addRowDims N E wf).resultIdx? j idx = some i ↔ (idx (ix2 (j 0) (0 : Fin 1))).toInt = ((i 0).val : ℤ) := by
  have hi0 : (i 0).val < N := idx2_lt0 i
  have hi1 : (i 1).val < 1 := idx2_lt1 i
  have hj1 : (j 1).val < 1 := idx2_lt1 j
  have hstart0 : (addRowDims N E wf).start j idx 0 = (idx (ix2 (j 0) (0 : Fin 1))).toInt := by
    unfold ScatterDims.start
    rw [dif_pos (show (0 : Fin 2) ∈ (addRowDims N E wf).scatterDimsToOperandDims from List.mem_singleton.mpr rfl)]
    have hsi : (addRowDims N E wf).siIdx j ⟨List.idxOf (0 : Fin 2) (addRowDims N E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowDims N E wf).window j 0 = 0 := by
    unfold ScatterDims.window
    rw [dif_neg (by simp [ScatterDims.sKept, Shape.kept])]
  have hstart1 : (addRowDims N E wf).start j idx 1 = 0 := by
    unfold ScatterDims.start
    rw [dif_neg (by simp [ScatterDims.sKept, Shape.kept])]
  have hwin1 : (addRowDims N E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have hh := h 0
      simp only [hstart0, hwin0] at h0 hh
      omega
    · intro he
      funext a
      refine Fin.ext ?_
      match a with
      | ⟨0, _⟩ =>
        show ((addRowDims N E wf).start j idx 0 + ((addRowDims N E wf).window j 0 : ℕ)).toNat = (i 0).val
        rw [hstart0, hwin0]
        omega
      | ⟨1, _⟩ =>
        show ((addRowDims N E wf).start j idx 1 + ((addRowDims N E wf).window j 1 : ℕ)).toNat = (i 1).val
        rw [hstart1, hwin1]
        omega
  · rename_i h
    constructor
    · intro he; exact absurd he (by simp)
    · intro he
      exfalso
      apply h
      intro a
      match a with
      | ⟨0, _⟩ =>
        show 0 ≤ (addRowDims N E wf).start j idx 0 + ((addRowDims N E wf).window j 0 : ℕ)
          ∧ (addRowDims N E wf).start j idx 0 + ((addRowDims N E wf).window j 0 : ℕ) < (N : ℤ)
        rw [hstart0, hwin0]
        omega
      | ⟨1, _⟩ =>
        show 0 ≤ (addRowDims N E wf).start j idx 1 + ((addRowDims N E wf).window j 1 : ℕ)
          ∧ (addRowDims N E wf).start j idx 1 + ((addRowDims N E wf).window j 1 : ℕ) < ((1 : ℕ) : ℤ)
        rw [hstart1, hwin1]
        omega

/-- At exact arithmetic, row `i` of the segment sum into a one-column matrix is the operand's row plus the sum over
    all `e` of "update row `e` if the `e`-th index is `i`'s row, else 0". -/
theorem scatterAdd_row_apply {N E w : Nat} {φ : FTy} (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ)
    (i : (⟨2, ![N, 1]⟩ : Shape).Idx) :
    Host.scatterAdd (addRowDims N E wf) x idx upd i
      = x i + ∑ e : Fin E, if (idx (ix2 e (0 : Fin 1))).toInt = ((i 0).val : ℤ) then upd (ix2 e (0 : Fin 1)) else 0 := by
  show Ideal.hostScatterAdd (addRowDims N E wf) x idx upd i = _
  unfold Ideal.hostScatterAdd
  congr 1
  rw [Finset.sum_filter]
  refine Fintype.sum_equiv idxEquivCol _ _ (fun j => ?_)
  obtain ⟨e, rfl⟩ : ∃ e, j = ix2 e (0 : Fin 1) := ⟨j 0, funext fun a => match a with
    | ⟨0, _⟩ => rfl
    | ⟨1, _⟩ => Fin.ext (by have := idx2_lt1 j; show (j 1).val = 0; omega)⟩
  exact if_congr (resultIdx?_row_iff wf idx (ix2 e (0 : Fin 1)) i) rfl rfl

end Scatter

end LibSegmentIdx

end
-- ==== Proof.LibMaskSums.lean ====
/-
  Sums over a finite index set restricted by a mask, as a pairwise ranking loss needs them.

  * A double sum of products u i · v j over the pairs with p i and q j factors into the product of the two
    masked single sums (any commutative semiring): this is what turns a sum over all (positive, negative)
    pairs into a product of two row sums.
  * On the extended reals, multiplying a finite sum by a non-negative REAL constant distributes over the sum,
    whatever the summands (infinite ones included).
  * A one-bit word is 0 or 1; widened to 32 bits it is the natural number 0 or 1, and a natural number below
    2^31 read back from its 32-bit word as a signed integer is itself: so a wrapping 32-bit count of at most
    2^31 - 1 mask bits is the true count.
-/
import Mathlib.Data.EReal.Operations
import Mathlib.Data.BitVec
import Mathlib.Algebra.BigOperators.Ring.Finset
import Mathlib.Algebra.Order.BigOperators.Group.Finset

namespace LibMaskSums

open Finset

/-- The sum of u i · v j over the pairs (i, j) with p i and q j is the product of the sum of the u i with p i
    and the sum of the v j with q j. -/
theorem sum_mask_mul {R : Type*} [CommSemiring R] {ι κ : Type*} [Fintype ι] [Fintype κ] (p : ι → Prop) (q : κ → Prop)
    [DecidablePred p] [DecidablePred q] (u : ι → R) (v : κ → R) :
    ∑ i, ∑ j, (if p i ∧ q j then u i * v j else 0) = (∑ i, if p i then u i else 0) * (∑ j, if q j then v j else 0) := by
  rw [Finset.sum_mul_sum]
  refine Finset.sum_congr rfl fun i _ => Finset.sum_congr rfl fun j _ => ?_
  by_cases hp : p i <;> by_cases hq : q j <;> simp [hp, hq]

/-- A non-negative real factor distributes over a finite sum of extended reals. -/
theorem sum_mul_coe_of_nonneg {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A one-bit word is 0 or 1. -/
theorem bit_cases (c : BitVec 1) : c = 0#1 ∨ c = 1#1 := by
  by_cases h : c = 1#1
  · exact Or.inr h
  · left
    have := c.isLt
    apply BitVec.eq_of_toNat_eq
    have h' : c.toNat ≠ 1 := fun e => h (BitVec.eq_of_toNat_eq (by simpa using e))
    simp; omega

/-- Flipping a bit (exclusive or with 1) sets it exactly when it was clear. -/
theorem xor_one_eq_one_iff (c : BitVec 1) : c ^^^ 1#1 = 1#1 ↔ ¬ c = 1#1 := by
  rcases bit_cases c with rfl | rfl <;> decide

/-- The complement of a bit is set exactly when the bit was clear. -/
theorem not_eq_one_iff (c : BitVec 1) : ~~~c = 1#1 ↔ ¬ c = 1#1 := by
  rcases bit_cases c with rfl | rfl <;> decide

/-- The conjunction of two bits is set exactly when both are. -/
theorem and_eq_one_iff (c d : BitVec 1) : c &&& d = 1#1 ↔ c = 1#1 ∧ d = 1#1 := by
  rcases bit_cases c with rfl | rfl <;> rcases bit_cases d with rfl | rfl <;> decide

/-- A bit widened to 32 bits is the natural number 0 or 1 as a word. -/
theorem setWidth_bit (c : BitVec 1) : c.setWidth 32 = ((if c = 1#1 then 1 else 0 : ℕ) : BitVec 32) := by
  rcases bit_cases c with rfl | rfl <;> decide

/-- A bit widened to 32 bits and read as a signed integer is 0 or 1. -/
theorem toInt_setWidth_bit (c : BitVec 1) : (c.setWidth 32).toInt = if c = 1#1 then 1 else 0 := by
  rcases bit_cases c with rfl | rfl <;> decide

/-- A natural number below 2^31, stored in a 32-bit word and read back signed, is itself. -/
theorem toInt_natCast_of_lt (n : ℕ) (h : n < 2 ^ 31) : ((n : BitVec 32)).toInt = (n : ℤ) := by
  have hn : ((n : BitVec 32)).toNat = n := by
    rw [BitVec.natCast_eq_ofNat, BitVec.toNat_ofNat]; omega
  rw [BitVec.toInt_eq_toNat_of_lt (by rw [hn]; omega), hn]

/-- The wrapping 32-bit sum, from zero, of the words 0 or 1 marking the pairs (i, j) with p i and q j, read back
    signed, is the number of marked i times the number of marked j, provided the index sets together hold fewer
    than 2^31 pairs. -/
theorem toInt_pair_count {ι κ : Type*} [Fintype ι] [Fintype κ] (p : ι → Prop) (q : κ → Prop)
    [DecidablePred p] [DecidablePred q] (hcard : Fintype.card ι * Fintype.card κ < 2 ^ 31) :
    ((0#32 + ∑ i, ∑ j, ((if p i ∧ q j then 1 else 0 : ℕ) : BitVec 32)).toInt : ℝ)
      = (∑ i, if p i then (1 : ℝ) else 0) * (∑ j, if q j then (1 : ℝ) else 0) := by
  have hb : ∑ i : ι, ∑ j : κ, (if p i ∧ q j then 1 else 0 : ℕ) < 2 ^ 31 := by
    refine lt_of_le_of_lt ?_ hcard
    calc ∑ i : ι, ∑ j : κ, (if p i ∧ q j then 1 else 0 : ℕ)
        ≤ ∑ _i : ι, ∑ _j : κ, 1 :=
          Finset.sum_le_sum fun i _ => Finset.sum_le_sum fun j _ => by split <;> omega
      _ = Fintype.card ι * Fintype.card κ := by simp
  have hw : (0#32 + ∑ i, ∑ j, ((if p i ∧ q j then 1 else 0 : ℕ) : BitVec 32))
      = ((∑ i : ι, ∑ j : κ, (if p i ∧ q j then 1 else 0 : ℕ) : ℕ) : BitVec 32) := by
    rw [show (0#32 : BitVec 32) = 0 from rfl, zero_add]
    push_cast
    rfl
  rw [hw, toInt_natCast_of_lt _ hb]
  have := sum_mask_mul (R := ℝ) p q (fun _ => 1) (fun _ => 1)
  simp only [mul_one] at this
  rw [← this]
  push_cast
  rfl

end LibMaskSums
-- ==== Proof.LibGcnLaw.lean ====
/-
  The algebra of a graph-convolution layer with symmetric degree normalisation, on the extended reals.

  A layer sends node features h to  out[i] = Σ_{e : dst e = i} h[src e] · (s[src e] · s[dst e]) + b,  where s[i] is the
  reciprocal square root of the in-degree of node i. Because every edge summed into row i has dst e = i, the factor
  s[dst e] is the same number t = s[i] for all of them, and it can be taken out of the sum:
      Σ_e a_e · (u_e · t) = (Σ_e a_e · u_e) · t.
  On the extended reals this needs t to be a non-negative REAL (a product with +∞ does not distribute over a sum of mixed
  signs), and nothing of the summands: they may be infinite. When no edge enters row i both sums are empty and both
  sides are 0, whatever t is. When some edge enters row i the degree is a count that is at least 1, and its reciprocal
  square root is a positive real.
-/
import Mathlib.Data.EReal.Operations
import Idealize.ShloMosaic.PureOps.Ideal.Laws
import proofs.«131849_j52312701665557_2_alg».proof.Proof.LibMaskSums

noncomputable section

namespace GcnLaw

open Idealize.ShloMosaic

/-- A sum of ones over the entries that satisfy `P` is a real number, non-negative, and at least 1 as soon as one entry
    satisfies `P`. -/
theorem count_real {ι : Type*} (s : Finset ι) (P : ι → Prop) [DecidablePred P] :
    ∃ r : ℝ, (∑ e ∈ s, if P e then (1 : EReal) else 0) = (r : EReal) ∧ 0 ≤ r ∧ ((∃ e ∈ s, P e) → 1 ≤ r) := by
  classical
  induction s using Finset.induction_on with
  | empty => exact ⟨0, by simp, le_refl _, fun ⟨e, he, _⟩ => absurd he (Finset.notMem_empty e)⟩
  | insert a s ha ih =>
    obtain ⟨r, hr, hr0, hr1⟩ := ih
    rw [Finset.sum_insert ha, hr]
    by_cases hp : P a
    · refine ⟨1 + r, ?_, by linarith, fun _ => by linarith⟩
      rw [if_pos hp, EReal.coe_add, EReal.coe_one]
    · refine ⟨r, ?_, hr0, fun ⟨e, he, hpe⟩ => ?_⟩
      · rw [if_neg hp, zero_add]
      · rcases Finset.mem_insert.mp he with rfl | hs
        · exact absurd hpe hp
        · exact hr1 ⟨e, hs, hpe⟩

/-- The reciprocal square root of a degree that counts at least one edge is a non-negative real. -/
theorem rsqrt_count {ι : Type*} [Fintype ι] (P : ι → Prop) [DecidablePred P] (hex : ∃ e, P e) :
    ∃ c : ℝ, 0 ≤ c ∧ Ideal.rsqrt (0 + ∑ e, if P e then (1 : EReal) else 0) = (c : EReal) := by
  obtain ⟨r, hr, _, hr1⟩ := count_real Finset.univ P
  obtain ⟨e, he⟩ := hex
  have h1 : 1 ≤ r := hr1 ⟨e, Finset.mem_univ e, he⟩
  refine ⟨(Real.sqrt r)⁻¹, inv_nonneg.mpr (Real.sqrt_nonneg r), ?_⟩
  rw [hr, zero_add, Ideal.rsqrt_coe, if_neg (by linarith), if_neg (by linarith)]

/-- THE LAYER LAW. The common factor `t` of the edges summed into one row comes out of the sum: it is a non-negative
    real as soon as the sum has a term, and an empty sum is 0 on both sides. -/
theorem layer_law {ι : Type*} [Fintype ι] (P : ι → Prop) [DecidablePred P] (a u v : ι → EReal) (t b : EReal)
    (hv : ∀ e, P e → v e = t) (ht : (∃ e, P e) → ∃ c : ℝ, 0 ≤ c ∧ t = (c : EReal)) :
    (0 + ∑ e, if P e then a e * u e else 0) * t + b = (0 + ∑ e, if P e then a e * (u e * v e) else 0) + b := by
  congr 1
  rw [zero_add, zero_add]
  by_cases hex : ∃ e, P e
  · obtain ⟨c, hc, rfl⟩ := ht hex
    rw [← LibMaskSums.sum_mul_coe_of_nonneg _ _ c hc]
    refine Finset.sum_congr rfl fun e _ => ?_
    by_cases hp : P e
    · rw [if_pos hp, if_pos hp, hv e hp, mul_assoc]
    · rw [if_neg hp, if_neg hp, zero_mul]
  · have h0 : ∀ e, ¬ P e := fun e hp => hex ⟨e, hp⟩
    rw [Finset.sum_eq_zero (fun e _ => if_neg (h0 e)), Finset.sum_eq_zero (fun e _ => if_neg (h0 e)), zero_mul]

end GcnLaw

end
-- ==== Proof.LibGcnLayer.lean ====
/-
  One graph-convolution layer, in the two arrangements a program may spell it, as functions of whole arrays over any
  extents: N nodes, D features, E edges (self loops included).

  Both take the projected features, gather the row of each edge's source node, and sum the gathered rows into the row of
  the edge's destination node; s is the vector of reciprocal square roots of the in-degrees.
    * the edge-scaled form multiplies each gathered row by the edge's own norm s[src e] · s[dst e] before the sum;
    * the node-scaled form takes features that were already multiplied, row by row, by s (the prescale), sums the
      gathered rows with no per-edge factor, and multiplies row i of the sum by s[i] afterwards (the postscale).
  They agree entry by entry by the layer law (GcnLaw.layer_law): every edge summed into row i has destination i, so the
  destination's factor is the common factor s[i], a non-negative real whenever row i receives an edge at all.
  What the law asks about the index columns and about s is stated as two hypotheses, which a program's own index
  arithmetic and degree computation discharge.
-/
import Idealize.ShloMosaic.Lib.ValueIdx
import Idealize.ShloMosaic.Lib.Pipeline.Value
import Idealize.ShloMosaic.PureOps.Ideal.Laws
import proofs.«131849_j52312701665557_2_alg».proof.Proof.LibRowGather
import proofs.«131849_j52312701665557_2_alg».proof.Proof.LibRowScatter
import proofs.«131849_j52312701665557_2_alg».proof.Proof.LibSegmentIdx
import proofs.«131849_j52312701665557_2_alg».proof.Proof.LibGcnLaw

noncomputable section

namespace GcnLayer

open Idealize.ShloMosaic Idealize.ShloMosaic.ValueIdx

/-! ## Broadcasts along named axes, read at an entry -/

section Layouts

variable {α : Type}

/-- A vector of length n placed as the [n, 1] column reads, at (e, 0), the vector at e. -/
theorem col_of_vec_apply {n : ℕ} (h : (⟨1, ![n]⟩ : Shape).BroadcastsInDim ⟨2, ![n, 1]⟩ (![0] : Fin 1 → Fin 2))
    (x : (⟨1, ![n]⟩ : Shape).Idx → α) (e : Fin n) (z : Fin 1) :
    broadcastInDim ⟨2, ![n, 1]⟩ (![0] : Fin 1 → Fin 2) h x (ix2 e z) = x (ix1 e) := by
  refine broadcastInDim_apply _ h x _ _ fun a => ?_
  match a with
  | ⟨0, _⟩ =>
    show e.val = if n = 1 then 0 else e.val
    split
    · have := e.isLt; omega
    · rfl

/-- An [a, 1] column stretched to [a, b] reads, at (p, q), the column at p. -/
theorem mat_of_col_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

/-- A vector of length b placed as the [1, b] row reads, at (0, q), the vector at q. -/
theorem row_of_vec_apply {b : ℕ} (h : (⟨1, ![b]⟩ : Shape).BroadcastsInDim ⟨2, ![1, b]⟩ (![1] : Fin 1 → Fin 2))
    (x : (⟨1, ![b]⟩ : Shape).Idx → α) (z : Fin 1) (q : Fin b) :
    broadcastInDim ⟨2, ![1, b]⟩ (![1] : Fin 1 → Fin 2) h x (ix2 z q) = x (ix1 q) := by
  refine broadcastInDim_apply _ h x _ _ fun a => ?_
  match a with
  | ⟨0, _⟩ =>
    show q.val = if b = 1 then 0 else q.val
    split
    · have := q.isLt; omega
    · rfl

/-- A [1, b] row stretched to [a, b] reads, at (p, q), the row at q. -/
theorem mat_of_row_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ (![0, 1] : Fin 2 → Fin 2) h x (ix2 p q) = x (ix2 (0 : Fin 1) q) := by
  refine broadcastInDim_apply _ h x _ _ fun ax => ?_
  match ax with
  | ⟨0, _⟩ => rfl
  | ⟨1, _⟩ =>
    show q.val = if b = 1 then 0 else q.val
    split
    · have := q.isLt; omega
    · rfl

/-- A scalar stretched to any shape reads the scalar everywhere. -/
theorem splat_apply {t : Shape} (h : (⟨0, ![]⟩ : Shape).BroadcastsInDim t (![] : Fin 0 → Fin t.rank))
    (x : (⟨0, ![]⟩ : Shape).Idx → α) (j : t.Idx) :
    broadcastInDim t (![] : Fin 0 → Fin t.rank) h x j = x (fun a => a.elim0) :=
  broadcastInDim_apply _ h x j _ fun a => a.elim0

end Layouts

/-! ## The two arrangements of a layer -/

/-- The shape relations the operations of a layer ask of its extents. -/
structure Extents (N D E : ℕ) : Prop where
  hN : 0 < N
  wfG : GatherDims.WF ⟨2, ![N, D]⟩ ⟨2, ![E, 1]⟩ ⟨2, ![E, D]⟩ [1] [0] [] [0] [] 1 ![1, D]
  wfS : ScatterDims.WF ⟨2, ![N, D]⟩ ⟨2, ![E, 1]⟩ ⟨2, ![E, D]⟩ [1] [0] [0] 1
  wfV : GatherDims.WF ⟨1, ![N]⟩ ⟨2, ![E, 1]⟩ ⟨1, ![E]⟩ [] [0] [] [0] [] 1 ![1]
  b0 : (⟨0, ![]⟩ : Shape).BroadcastsInDim ⟨2, ![N, D]⟩ (![] : Fin 0 → Fin 2)
  bNcol : (⟨1, ![N]⟩ : Shape).BroadcastsInDim ⟨2, ![N, 1]⟩ (![0] : Fin 1 → Fin 2)
  bNmat : (⟨2, ![N, 1]⟩ : Shape).BroadcastsInDim ⟨2, ![N, D]⟩ (![0, 1] : Fin 2 → Fin 2)
  bEcol : (⟨1, ![E]⟩ : Shape).BroadcastsInDim ⟨2, ![E, 1]⟩ (![0] : Fin 1 → Fin 2)
  bEmat : (⟨2, ![E, 1]⟩ : Shape).BroadcastsInDim ⟨2, ![E, D]⟩ (![0, 1] : Fin 2 → Fin 2)
  bDrow : (⟨1, ![D]⟩ : Shape).BroadcastsInDim ⟨2, ![1, D]⟩ (![1] : Fin 1 → Fin 2)
  bDmat : (⟨2, ![1, D]⟩ : Shape).BroadcastsInDim ⟨2, ![N, D]⟩ (![0, 1] : Fin 2 → Fin 2)

variable {N D E : ℕ}

/-- The bias vector as the [N, D] matrix of its copies. -/
def biasMat (f : Extents N D E) (b : FVec Ideal ⟨1, ![D]⟩ .f32) : FVec Ideal ⟨2, ![N, D]⟩ .f32 :=
  broadcastInDim ⟨2, ![N, D]⟩ (![0, 1] : Fin 2 → Fin 2) f.bDmat (broadcastInDim ⟨2, ![1, D]⟩ (![1] : Fin 1 → Fin 2) f.bDrow b)

/-- The zero matrix the segment sum starts from. -/
def zeroMat (f : Extents N D E) : FVec Ideal ⟨2, ![N, D]⟩ .f32 :=
  broadcastInDim ⟨2, ![N, D]⟩ (![] : Fin 0 → Fin 2) f.b0 (constant (F := Ideal) ⟨0, ![]⟩ .f32 0x00000000#32)

/-- THE NODE-SCALED FORM: prescaled features `hs`, gathered by source, summed by destination, then each row times s. -/
def nodeScaled (f : Extents N D E) (hs : FVec Ideal ⟨2, ![N, D]⟩ .f32) (sv : FVec Ideal ⟨1, ![N]⟩ .f32)
    (idxS idxD : IVec ⟨2, ![E, 1]⟩ 32) (b : FVec Ideal ⟨1, ![D]⟩ .f32) : FVec Ideal ⟨2, ![N, D]⟩ .f32 :=
  addf (mulf (Host.scatterAdd (LibRowScatter.addRowsDims N D E f.wfS) (zeroMat f) idxD
        (Host.gather (LibRowGather.rowDims N D E f.wfG) hs idxS))
      (broadcastInDim ⟨2, ![N, D]⟩ (![0, 1] : Fin 2 → Fin 2) f.bNmat
        (broadcastInDim ⟨2, ![N, 1]⟩ (![0] : Fin 1 → Fin 2) f.bNcol sv)))
    (biasMat f b)

/-- THE EDGE-SCALED FORM: features `h`, gathered by source, each gathered row times its edge's norm
    s[src e] · s[dst e], summed by destination. -/
def edgeScaled (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) : FVec Ideal ⟨2, ![N, D]⟩ .f32 :=
  addf (Host.scatterAdd (LibRowScatter.addRowsDims N D E f.wfS) (zeroMat f) idxD
      (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))))
    (biasMat f b)

/-- THE TWO FORMS AGREE, given that the prescaled features are the features times s row by row (`hhs`), that an edge
    summed into row i gathers its destination's factor at row i (`hA`: the index column the sum reads and the one the
    factor is gathered by name the same node), and that s at a row receiving an edge is a non-negative real (`hB`). -/
theorem nodeScaled_eq_edgeScaled (f : Extents N D E) (h hs : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hhs : ∀ (i : Fin N) (j : Fin D), hs (ix2 i j) = h (ix2 i j) * sv (ix1 i))
    (hA : ∀ (e : Fin E) (i : Fin N), (idxD (ix2 e (0 : Fin 1))).toInt = ((i : ℕ) : ℤ) →
      LibRowGather.clampRow N f.hN (idxND (ix2 e (0 : Fin 1))) = i)
    (hB : ∀ i : Fin N, (∃ e : Fin E, (idxD (ix2 e (0 : Fin 1))).toInt = ((i : ℕ) : ℤ)) →
      ∃ c : ℝ, 0 ≤ c ∧ sv (ix1 i) = (c : EReal)) :
    nodeScaled f hs sv idxS idxD b = edgeScaled f h sv idxS idxD idxND b := by
  funext idx
  obtain ⟨i, j, rfl⟩ : ∃ (i : Fin N) (j : Fin D), idx = ix2 i j := ⟨idx 0, idx 1, eq_ix2 idx⟩
  unfold nodeScaled edgeScaled
  rw [addf_apply, addf_apply, mulf_apply, LibRowScatter.scatterAdd_rows_apply, LibRowScatter.scatterAdd_rows_apply,
    mat_of_col_apply, col_of_vec_apply]
  have hz : zeroMat f (ix2 i j) = 0 := by
    unfold zeroMat
    rw [splat_apply, constant_apply, Ideal.ofBits_zero_f32]
  have hL : ∀ e : Fin E, Host.gather (LibRowGather.rowDims N D E f.wfG) hs idxS (ix2 e j)
      = h (ix2 (LibRowGather.clampRow N f.hN (idxS (ix2 e (0 : Fin 1)))) j)
        * sv (ix1 (LibRowGather.clampRow N f.hN (idxS (ix2 e (0 : Fin 1))))) := fun e => by
    rw [LibRowGather.gather_rows_apply f.hN, hhs]
  have hR : ∀ e : Fin E, (mulf (Host.gather (LibRowGather.rowDims N D E f.wfG) h idxS)
        (broadcastInDim ⟨2, ![E, D]⟩ (![0, 1] : Fin 2 → Fin 2) f.bEmat
          (broadcastInDim ⟨2, ![E, 1]⟩ (![0] : Fin 1 → Fin 2) f.bEcol
            (mulf (Host.gather (LibSegmentIdx.takeVecDims N E f.wfV) sv idxS)
              (Host.gather (LibSegmentIdx.takeVecDims N E f.wfV) sv idxND))))) (ix2 e j)
      = h (ix2 (LibRowGather.clampRow N f.hN (idxS (ix2 e (0 : Fin 1)))) j)
        * (sv (ix1 (LibRowGather.clampRow N f.hN (idxS (ix2 e (0 : Fin 1)))))
          * sv (ix1 (LibRowGather.clampRow N f.hN (idxND (ix2 e (0 : Fin 1)))))) := fun e => by
    rw [mulf_apply, LibRowGather.gather_rows_apply f.hN, mat_of_col_apply, col_of_vec_apply, mulf_apply,
      LibSegmentIdx.gather_vec_apply f.hN, LibSegmentIdx.gather_vec_apply f.hN]
    rfl
  rw [hz]
  simp only [hL, hR]
  exact GcnLaw.layer_law (fun e : Fin E => (idxD (ix2 e (0 : Fin 1))).toInt = ((i : ℕ) : ℤ))
    (fun e => h (ix2 (LibRowGather.clampRow N f.hN (idxS (ix2 e (0 : Fin 1)))) j))
    (fun e => sv (ix1 (LibRowGather.clampRow N f.hN (idxS (ix2 e (0 : Fin 1))))))
    (fun e => sv (ix1 (LibRowGather.clampRow N f.hN (idxND (ix2 e (0 : Fin 1))))))
    (sv (ix1 i)) (biasMat f b (ix2 i j))
    (fun e he => by rw [hA e i he]) (hB i)

end GcnLayer

end
-- ==== Proof.LibRealEntries.lean ====
/-
  Extended reals that are real numbers.

  At exact arithmetic a float is an extended real. Distributing a factor over a difference, or a difference over a sum,
  is sound only where no infinity meets its opposite, so a value proof that rearranges such terms first shows that the
  numbers involved are images of real numbers. The images of the reals are closed under sums, products, differences,
  maxima, choices and finite sums; and on them a weighted sum of differences is the difference of the weighted sums.
-/
import Mathlib.Data.EReal.Operations
import Mathlib.Algebra.BigOperators.Ring.Finset

noncomputable section

namespace RealEntries

/-- An extended real that is the image of a real number. -/
def IsR (x : EReal) : Prop := ∃ r : ℝ, x = (r : EReal)

theorem isR_coe (r : ℝ) : IsR (r : EReal) := ⟨r, rfl⟩
theorem isR_zero : IsR 0 := ⟨0, EReal.coe_zero.symm⟩
theorem isR_one : IsR 1 := ⟨1, EReal.coe_one.symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.sub {x y : EReal} (hx : IsR x) (hy : IsR y) : IsR (x - y) := by
  obtain ⟨a, rfl⟩ := hx; obtain ⟨b, rfl⟩ := hy
  exact ⟨a - b, (EReal.coe_sub a b).symm⟩

theorem IsR.max {x y : EReal} (hx : IsR x) (hy : IsR y) : IsR (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem IsR.ite {p : Prop} [Decidable p] {x y : EReal} (hx : IsR x) (hy : IsR y) : IsR (if p then x else y) := by
  split
  · exact hx
  · exact hy

theorem IsR.sum {ι : Type*} (s : Finset ι) (f : ι → EReal) (h : ∀ i ∈ s, IsR (f i)) : IsR (∑ i ∈ s, f i) := by
  classical
  induction s using Finset.induction_on with
  | empty => rw [Finset.sum_empty]; exact isR_zero
  | insert a s ha ih =>
    rw [Finset.sum_insert ha]
    exact (h a (Finset.mem_insert_self a s)).add (ih fun i hi => h i (Finset.mem_insert_of_mem hi))

/-- A finite sum of images of reals is the image of the sum. -/
theorem coe_sum {ι : Type*} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- On real entries, a weighted sum of differences is the difference of the two weighted sums. -/
theorem sum_sub_mul {ι : Type*} [Fintype ι] (a b w : ι → EReal) (ha : ∀ k, IsR (a k)) (hb : ∀ k, IsR (b k))
    (hw : ∀ k, IsR (w k)) : ∑ k, (a k - b k) * w k = ∑ k, a k * w k - ∑ k, b k * w k := by
  choose a' ha' using ha
  choose b' hb' using hb
  choose w' hw' using hw
  simp only [ha', hb', hw', ← EReal.coe_sub, ← EReal.coe_mul, coe_sum]
  rw [← Finset.sum_sub_distrib]
  congr 1
  exact Finset.sum_congr rfl fun k _ => sub_mul _ _ _

end RealEntries

end
-- ==== Proof.LibGcnSelf.lean ====
/-
  A graph-convolution layer with self loops, in the two arrangements a program may spell it, over any extents:
  N nodes, D features, E edges.

  With s the vector of the nodes' factors (the reciprocal square roots of the degrees, self loop counted), both send
  projected features h to
      out[i, j] = Σ_{e : dst e = i} h[src e, j] · s[src e] · s[dst e]  +  h[i, j] · s[i]²  +  b[j].
    * The edge-scaled form gathers rows of h by source, multiplies each gathered row by the edge's own norm
      s[src e] · s[dst e], and sums the rows by destination.
    * The node-scaled form first multiplies h, row by row, by s, gathers and sums with no per-edge factor, and
      multiplies row i of the sum by s[i] afterwards.
  They agree entry by entry: every edge summed into row i has destination i, so the destination's factor is the common
  factor s[i], which comes out of the sum because it is a non-negative real (the layer law); the summands may be anything.
  When moreover h, s and b have real entries, so has the layer's result.
-/
import Idealize.ShloMosaic.Lib.ValueIdx
import Idealize.ShloMosaic.Lib.Pipeline.Value
import Idealize.ShloMosaic.PureOps.Ideal.Laws
import proofs.«131849_j52312701665557_2_alg».proof.Proof.LibRowGather
import proofs.«131849_j52312701665557_2_alg».proof.Proof.LibRowScatter
import proofs.«131849_j52312701665557_2_alg».proof.Proof.LibSegmentIdx
import proofs.«131849_j52312701665557_2_alg».proof.Proof.LibGcnLaw
import proofs.«131849_j52312701665557_2_alg».proof.Proof.LibGcnLayer
import proofs.«131849_j52312701665557_2_alg».proof.Proof.LibRealEntries

noncomputable section

namespace GcnSelf

open Idealize.ShloMosaic Idealize.ShloMosaic.ValueIdx GcnLayer RealEntries

variable {N D E : ℕ}

/-- A vector over the nodes as the [N, D] matrix whose row i is D copies of its entry i. -/
def rowsOf (f : Extents N D E) (sv : FVec Ideal ⟨1, ![N]⟩ .f32) : FVec Ideal ⟨2, ![N, D]⟩ .f32 :=
  broadcastInDim ⟨2, ![N, D]⟩ (![0, 1] : Fin 2 → Fin 2) f.bNmat (broadcastInDim ⟨2, ![N, 1]⟩ (![0] : Fin 1 → Fin 2) f.bNcol sv)

theorem rowsOf_apply (f : Extents N D E) (sv : FVec Ideal ⟨1, ![N]⟩ .f32) (i : Fin N) (j : Fin D) :
    rowsOf f sv (ix2 i j) = sv (ix1 i) := by
  unfold rowsOf
  rw [mat_of_col_apply, col_of_vec_apply]

theorem biasMat_apply (f : Extents N D E) (b : FVec Ideal ⟨1, ![D]⟩ .f32) (i : Fin N) (j : Fin D) :
    biasMat f b (ix2 i j) = b (ix1 j) := by
  unfold biasMat
  rw [mat_of_row_apply, row_of_vec_apply]

theorem zeroMat_apply (f : Extents N D E) (i : Fin N) (j : Fin D) : zeroMat f (ix2 i j) = 0 := by
  unfold zeroMat
  rw [splat_apply, constant_apply, Ideal.ofBits_zero_f32]

/-- THE NODE-SCALED FORM with the self-loop term. -/
def nodeSelf (f : Extents N D E) (h : FVec Ideal ⟨2, ![N, D]⟩ .f32) (sv : FVec Ideal ⟨1, ![N]⟩ .f32)
    (idxS idxD : IVec ⟨2, ![E, 1]⟩ 32) (b : FVec Ideal ⟨1, ![D]⟩ .f32) : FVec Ideal ⟨2, ![N, D]⟩ .f32 :=
  addf (addf (mulf (rowsOf f sv)
        (Host.scatterAdd (LibRowScatter.addRowsDims N D E f.wfS) (zeroMat f) idxD
          (Host.gather (LibRowGather.rowDims N D E f.wfG) (mulf h (rowsOf f sv)) idxS)))
      (mulf h (rowsOf f (mulf sv sv))))
    (biasMat f b)

/-- THE EDGE-SCALED FORM with the self-loop term. -/
def edgeSelf (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) : FVec Ideal ⟨2, ![N, D]⟩ .f32 :=
  addf (addf (Host.scatterAdd (LibRowScatter.addRowsDims N D E f.wfS) (zeroMat f) idxD
        (mulf (Host.gather (LibRowGather.rowDims N D E f.wfG) h idxS)
          (broadcastInDim ⟨2, ![E, D]⟩ (![0, 1] : Fin 2 → Fin 2) f.bEmat
            (broadcastInDim ⟨2, ![E, 1]⟩ (![0] : Fin 1 → Fin 2) f.bEcol
              (mulf (Host.gather (LibSegmentIdx.takeVecDims N E f.wfV) sv idxS)
                (Host.gather (LibSegmentIdx.takeVecDims N E f.wfV) sv idxND))))))
      (mulf h (rowsOf f (mulf sv sv))))
    (biasMat f b)

/-- The row an edge's index column selects. -/
abbrev rowAt (f : Extents N D E) (idx : IVec ⟨2, ![E, 1]⟩ 32) (e : Fin E) : Fin N :=
  LibRowGather.clampRow N f.hN (idx (ix2 e (0 : Fin 1)))

/-- The node-scaled form at an entry. -/
theorem nodeSelf_apply (f : Extents N D E) (h : FVec Ideal ⟨2, ![N, D]⟩ .f32) (sv : FVec Ideal ⟨1, ![N]⟩ .f32)
    (idxS idxD : IVec ⟨2, ![E, 1]⟩ 32) (b : FVec Ideal ⟨1, ![D]⟩ .f32) (i : Fin N) (j : Fin D) :
    nodeSelf f h sv idxS idxD b (ix2 i j)
      = sv (ix1 i) * (0 + ∑ e : Fin E, if (idxD (ix2 e (0 : Fin 1))).toInt = ((i : ℕ) : ℤ)
            then h (ix2 (rowAt f idxS e) j) * sv (ix1 (rowAt f idxS e)) else 0)
        + h (ix2 i j) * (sv (ix1 i) * sv (ix1 i)) + b (ix1 j) := by
  unfold nodeSelf
  rw [addf_apply, addf_apply, mulf_apply, mulf_apply, rowsOf_apply, rowsOf_apply, biasMat_apply,
    LibRowScatter.scatterAdd_rows_apply, zeroMat_apply, mulf_apply]
  congr 3
  refine congrArg (fun t => (0 : EReal) + t) (Finset.sum_congr rfl fun e _ => ?_)
  rw [LibRowGather.gather_rows_apply f.hN, mulf_apply, rowsOf_apply]

/-- The edge-scaled form at an entry. -/
theorem edgeSelf_apply (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32) (i : Fin N) (j : Fin D) :
    edgeSelf f h sv idxS idxD idxND b (ix2 i j)
      = (0 + ∑ e : Fin E, if (idxD (ix2 e (0 : Fin 1))).toInt = ((i : ℕ) : ℤ)
            then h (ix2 (rowAt f idxS e) j) * (sv (ix1 (rowAt f idxS e)) * sv (ix1 (rowAt f idxND e))) else 0)
        + h (ix2 i j) * (sv (ix1 i) * sv (ix1 i)) + b (ix1 j) := by
  unfold edgeSelf
  rw [addf_apply, addf_apply, mulf_apply, rowsOf_apply, biasMat_apply,
    LibRowScatter.scatterAdd_rows_apply, zeroMat_apply, mulf_apply]
  congr 3
  refine Finset.sum_congr rfl fun e _ => if_congr Iff.rfl ?_ rfl
  rw [mulf_apply, LibRowGather.gather_rows_apply f.hN, mat_of_col_apply, col_of_vec_apply, mulf_apply,
    LibSegmentIdx.gather_vec_apply f.hN, LibSegmentIdx.gather_vec_apply f.hN]
  rfl

/-- THE TWO FORMS AGREE, given that an edge summed into row i gathers its destination's factor at row i (`hA`) and that
    every node's factor is a non-negative real (`hB`). -/
theorem nodeSelf_eq_edgeSelf (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hA : ∀ (e : Fin E) (i : Fin N), (idxD (ix2 e (0 : Fin 1))).toInt = ((i : ℕ) : ℤ) → rowAt f idxND e = i)
    (hB : ∀ i : Fin N, ∃ c : ℝ, 0 ≤ c ∧ sv (ix1 i) = (c : EReal)) :
    nodeSelf f h sv idxS idxD b = edgeSelf f h sv idxS idxD idxND b := by
  funext idx
  obtain ⟨i, j, rfl⟩ : ∃ (i : Fin N) (j : Fin D), idx = ix2 i j := ⟨idx 0, idx 1, eq_ix2 idx⟩
  rw [nodeSelf_apply, edgeSelf_apply]
  congr 2
  have key := GcnLaw.layer_law (fun e : Fin E => (idxD (ix2 e (0 : Fin 1))).toInt = ((i : ℕ) : ℤ))
    (fun e => h (ix2 (rowAt f idxS e) j)) (fun e => sv (ix1 (rowAt f idxS e))) (fun e => sv (ix1 (rowAt f idxND e)))
    (sv (ix1 i)) 0 (fun e he => by rw [hA e i he]) (fun _ => hB i)
  rw [add_zero, add_zero] at key
  rw [mul_comm]
  exact key

/-- With real entries in, the edge-scaled form has real entries. -/
theorem edgeSelf_isR (f : Extents N D E) (h : FVec Ideal ⟨2, ![N, D]⟩ .f32) (sv : FVec Ideal ⟨1, ![N]⟩ .f32)
    (idxS idxD idxND : IVec ⟨2, ![E, 1]⟩ 32) (b : FVec Ideal ⟨1, ![D]⟩ .f32)
    (hh : ∀ idx, IsR (h idx)) (hs : ∀ idx, IsR (sv idx)) (hb : ∀ idx, IsR (b idx)) (idx : (⟨2, ![N, D]⟩ : Shape).Idx) :
    IsR (edgeSelf f h sv idxS idxD idxND b idx) := by
  obtain ⟨i, j, rfl⟩ : ∃ (i : Fin N) (j : Fin D), idx = ix2 i j := ⟨idx 0, idx 1, eq_ix2 idx⟩
  rw [edgeSelf_apply]
  refine ((isR_zero.add (IsR.sum _ _ fun e _ => IsR.ite ((hh _).mul ((hs _).mul (hs _))) isR_zero)).add
    ((hh _).mul ((hs _).mul (hs _)))).add (hb _)

end GcnSelf

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.LibGcnIndex.lean ====
/-
  The graph's index columns and degrees, over any extents: N nodes, E edges (self loops included).

  A program spells a node index three ways: the raw signed word the segment sum reads (a word outside [0, N) lands
  nowhere), the word with a negative value wrapped by + N, and that word clamped into [0, N − 1] by the gather. For an
  edge that the segment sum adds into row i the raw word IS i, with 0 ≤ i < N, so the wrap leaves it alone and the clamp
  leaves it alone: the gathered factor of the edge's destination is the factor of row i.

  The in-degree of node i is the segment sum of ones over the destination column, a count of edges, and the node's
  factor is its reciprocal square root. At a node that some edge enters the count is at least 1 and the factor is a
  non-negative real number.
-/
import Idealize.ShloMosaic.Lib.ValueIdx
import Idealize.ShloMosaic.Lib.Pipeline.Value
import Idealize.ShloMosaic.PureOps.Ideal.Laws
import proofs.«131849_j52312701665557_2_alg».proof.Proof.LibRowGather
import proofs.«131849_j52312701665557_2_alg».proof.Proof.LibSegmentIdx
import proofs.«131849_j52312701665557_2_alg».proof.Proof.LibReciprocalScale
import proofs.«131849_j52312701665557_2_alg».proof.Proof.LibGcnLaw
import proofs.«131849_j52312701665557_2_alg».proof.Proof.LibGcnLayer

noncomputable section

namespace GcnIndex

open Idealize.ShloMosaic Idealize.ShloMosaic.ValueIdx

/-- The shape relations the index and degree operations ask of the extents. -/
structure Extents (N E : ℕ) : Prop where
  hN : 0 < N
  bE0 : (⟨0, ![]⟩ : Shape).BroadcastsInDim ⟨1, ![E]⟩ (![] : Fin 0 → Fin 1)
  bN0 : (⟨0, ![]⟩ : Shape).BroadcastsInDim ⟨1, ![N]⟩ (![] : Fin 0 → Fin 1)
  bEcol : (⟨1, ![E]⟩ : Shape).BroadcastsInDim ⟨2, ![E, 1]⟩ (![0] : Fin 1 → Fin 2)
  wfSV : ScatterDims.WF ⟨1, ![N]⟩ ⟨2, ![E, 1]⟩ ⟨1, ![E]⟩ [] [0] [0] 1

variable {N E : ℕ}

/-- A vector of node indices as the [E, 1] index column. -/
def col (f : Extents N E) (v : IVec ⟨1, ![E]⟩ 32) : IVec ⟨2, ![E, 1]⟩ 32 :=
  broadcastInDim ⟨2, ![E, 1]⟩ (![0] : Fin 1 → Fin 2) f.bEcol v

/-- A vector of node indices with negative entries wrapped by adding the word `nw` (the node count). -/
def wrap (f : Extents N E) (nw : BitVec 32) (v : IVec ⟨1, ![E]⟩ 32) : IVec ⟨1, ![E]⟩ 32 :=
  select (cmpi .slt v (broadcastInDim ⟨1, ![E]⟩ (![] : Fin 0 → Fin 1) f.bE0 (constantI ⟨0, ![]⟩ 32 0#32)))
    (addi v (broadcastInDim ⟨1, ![E]⟩ (![] : Fin 0 → Fin 1) f.bE0 (constantI ⟨0, ![]⟩ 32 nw))) v

/-- The in-degrees: the segment sum of ones over the destination column, from zero. -/
def deg (f : Extents N E) (d : IVec ⟨1, ![E]⟩ 32) : FVec Ideal ⟨1, ![N]⟩ .f32 :=
  Host.scatterAdd (F := Ideal) (LibSegmentIdx.addVecDims N E f.wfSV)
    (broadcastInDim ⟨1, ![N]⟩ (![] : Fin 0 → Fin 1) f.bN0 (constant (F := Ideal) ⟨0, ![]⟩ .f32 0x00000000#32))
    (col f d)
    (broadcastInDim ⟨1, ![E]⟩ (![] : Fin 0 → Fin 1) f.bE0 (constant (F := Ideal) ⟨0, ![]⟩ .f32 0x3F800000#32))

/-- The nodes' factors: the reciprocal square roots of the in-degrees. -/
def invSqrtDeg (f : Extents N E) (d : IVec ⟨1, ![E]⟩ 32) : FVec Ideal ⟨1, ![N]⟩ .f32 :=
  Host.rsqrt (F := Ideal) (deg f d)

/-- A word whose signed value is not negative is left alone by the wrap. -/
theorem wrap_apply_of_nonneg (f : Extents N E) (nw : BitVec 32) (d : IVec ⟨1, ![E]⟩ 32) (e : Fin E)
    (h : 0 ≤ (d (ix1 e)).toInt) : wrap f nw d (ix1 e) = d (ix1 e) := by
  unfold wrap
  show Scalar.select (IntOp.cmpi .slt (d (ix1 e))
      (broadcastInDim ⟨1, ![E]⟩ (![] : Fin 0 → Fin 1) f.bE0 (constantI ⟨0, ![]⟩ 32 0#32) (ix1 e))) _ (d (ix1 e)) = d (ix1 e)
  rw [GcnLayer.splat_apply]
  show Scalar.select (BitVec.ofBool ((d (ix1 e)).slt 0#32)) _ (d (ix1 e)) = d (ix1 e)
  have hs : (d (ix1 e)).slt 0#32 = false := by
    unfold BitVec.slt
    simp only [BitVec.toInt_zero, decide_eq_false_iff_not, not_lt]
    exact h
  rw [hs]
  rfl

/-- THE DESTINATION'S ROW: for an edge the segment sum adds into row i, the wrapped and clamped destination is i. -/
theorem wrap_clamp (f : Extents N E) (nw : BitVec 32) (d : IVec ⟨1, ![E]⟩ 32) (e : Fin E) (i : Fin N)
    (h : (col f d (ix2 e (0 : Fin 1))).toInt = ((i : ℕ) : ℤ)) :
    LibRowGather.clampRow N f.hN (col f (wrap f nw d) (ix2 e (0 : Fin 1))) = i := by
  unfold col at h ⊢
  rw [GcnLayer.col_of_vec_apply] at h ⊢
  rw [wrap_apply_of_nonneg f nw d e (by rw [h]; exact Int.natCast_nonneg _)]
  apply Fin.ext
  show min (d (ix1 e)).toInt.toNat (N - 1) = i.val
  rw [h, Int.toNat_natCast]
  have := i.isLt
  omega

/-- THE FACTOR IS REAL at a node that some edge enters. -/
theorem invSqrtDeg_real (f : Extents N E) (d : IVec ⟨1, ![E]⟩ 32) (i : Fin N)
    (hex : ∃ e : Fin E, (col f d (ix2 e (0 : Fin 1))).toInt = ((i : ℕ) : ℤ)) :
    ∃ c : ℝ, 0 ≤ c ∧ invSqrtDeg f d (ix1 i) = (c : EReal) := by
  obtain ⟨c, hc, hcv⟩ := GcnLaw.rsqrt_count (fun e : Fin E => (col f d (ix2 e (0 : Fin 1))).toInt = ((i : ℕ) : ℤ)) hex
  refine ⟨c, hc, ?_⟩
  rw [← hcv]
  show Ideal.rsqrt (deg f d (ix1 i)) = _
  congr 1
  unfold deg
  rw [LibSegmentIdx.scatterAdd_vec_apply, GcnLayer.splat_apply, constant_apply, Ideal.ofBits_zero_f32]
  congr 1
  refine Finset.sum_congr rfl fun e _ => ?_
  rw [GcnLayer.splat_apply, constant_apply, LibReciprocalScale.ofBits_one_f32]
  rfl

end GcnIndex

end
-- ==== Proof.LayerBridge.lean ====
/-
  The two graph-convolution layers of the kernel against the reference's, at exact arithmetic.

  The kernel spells each layer in the node-scaled arrangement, the reference in the edge-scaled one, over the same
  source and destination columns and the same factors s = (in-degree + 1)^(-1/2). The degree is a count plus one, so
  every factor is a positive real and the layer law applies at every row; the destination column the segment sum reads
  and the wrapped, clamped column the reference gathers the destination's factor by name the same node on every edge
  that is summed at all. Each kernel layer therefore equals the reference's as whole arrays, once their projected
  features agree; the kernel's matrix products of operands passed through a change of float format are the
  reference's products; and with real arguments every entry of both layers is a real number.
-/
import proofs.«131849_j52312701665557_2_alg».proof.Proof.Gen.ReferenceIdeal.Read
import proofs.«131849_j52312701665557_2_alg».proof.Proof.KStages
import proofs.«131849_j52312701665557_2_alg».proof.Proof.RegionValue
import proofs.«131849_j52312701665557_2_alg».proof.Proof.LibGcnSelf
import proofs.«131849_j52312701665557_2_alg».proof.Proof.LibGcnIndex
import proofs.«131849_j52312701665557_2_alg».proof.Proof.LibRealEntries

noncomputable section

namespace Cert.Proof.LayerBridge

open Cert.ReferenceIdeal Cert.ReferenceIdeal.Gen Idealize.ShloMosaic Idealize.ShloMosaic.TcCoe Idealize.SL.Sem Idealize.ShloMosaic.StableHlo
open Idealize.ShloMosaic.ValueIdx RealEntries
open Cert.ReferenceIdeal.Read Cert.KernelIdeal.KStages

/-- The extents of the first layer: 50000 nodes, 256 features, 800000 edges. -/
theorem ext256 : GcnLayer.Extents 50000 256 800000 where
  hN := by decide
  wfG := gather_S50000x256_S800000x1_S800000x256_1_0_n_n_0_1_1256_wf
  wfS := scatter_S50000x256_S800000x1_S800000x256_1_0_0_1_wf
  wfV := gather_S50000_S800000x1_S800000_n_0_n_n_0_1_1_wf
  b0 := bcast_S_S50000x256
  bNcol := bcast_S50000_S50000x1_0
  bNmat := bcast_S50000x1_S50000x256_0_1
  bEcol := bcast_S800000_S800000x1_0
  bEmat := bcast_S800000x1_S800000x256_0_1
  bDrow := bcast_S256_S1x256_1
  bDmat := bcast_S1x256_S50000x256_0_1

/-- The extents of the second layer: 128 features. -/
theorem ext128 : GcnLayer.Extents 50000 128 800000 where
  hN := by decide
  wfG := gather_S50000x128_S800000x1_S800000x128_1_0_n_n_0_1_1128_wf
  wfS := scatter_S50000x128_S800000x1_S800000x128_1_0_0_1_wf
  wfV := gather_S50000_S800000x1_S800000_n_0_n_n_0_1_1_wf
  b0 := bcast_S_S50000x128
  bNcol := bcast_S50000_S50000x1_0
  bNmat := bcast_S50000x1_S50000x128_0_1
  bEcol := bcast_S800000_S800000x1_0
  bEmat := bcast_S800000x1_S800000x128_0_1
  bDrow := bcast_S128_S1x128_1
  bDmat := bcast_S1x128_S50000x128_0_1

/-- The extents of the index columns and the degrees. -/
theorem extIdx : GcnIndex.Extents 50000 800000 where
  hN := by decide
  bE0 := bcast_S_S800000
  bN0 := bcast_S_S50000
  bEcol := bcast_S800000_S800000x1_0
  wfSV := scatter_S50000_S800000x1_S800000_n_0_0_1_wf

variable (x0 : (⟨S50000x256, .f32⟩ : BufTy).Contents (Elt Ideal)) (x1 : (⟨S2x800000, .i32⟩ : BufTy).Contents (Elt Ideal)) (x4 : (⟨S256x256, .f32⟩ : BufTy).Contents (Elt Ideal))
  (x5 : (⟨S256, .f32⟩ : BufTy).Contents (Elt Ideal)) (x6 : (⟨S256x128, .f32⟩ : BufTy).Contents (Elt Ideal)) (x7 : (⟨S128, .f32⟩ : BufTy).Contents (Elt Ideal))

/-! ## The index columns and the factors are the same terms -/

theorem k_v1_eq : k_v1 (F := Ideal) x1 = val_main_v1 x1 := rfl
theorem k_v3_eq : k_v3 (F := Ideal) x1 = val_main_v3 x1 := rfl
theorem k_v10_eq : k_v10 (F := Ideal) x1 = val_main_v11 x1 := rfl
/-- The reference computes the factors once per layer: the same term twice. -/
theorem v56_eq : val_main_v56 (F := Ideal) x1 = val_main_v11 x1 := rfl

/-! ## Every factor is a positive real -/

theorem factor_real (i : Fin 50000) : ∃ c : ℝ, 0 ≤ c ∧ val_main_v11 (F := Ideal) x1 (ix1 i) = (c : EReal) := by
  obtain ⟨r, hr, hr0, _⟩ := GcnLaw.count_real (Finset.univ : Finset (Fin 800000))
    (fun e => (GcnIndex.col extIdx (val_main_v3 (F := Ideal) x1) (ix2 e (0 : Fin 1))).toInt = ((i : ℕ) : ℤ))
  refine ⟨(Real.sqrt (r + 1))⁻¹, inv_nonneg.mpr (Real.sqrt_nonneg _), ?_⟩
  have hdeg : val_main_v8 (F := Ideal) x1 (ix1 i) = (r : EReal) := by
    show GcnIndex.deg extIdx (val_main_v3 (F := Ideal) x1) (ix1 i) = _
    unfold GcnIndex.deg
    rw [LibSegmentIdx.scatterAdd_vec_apply, GcnLayer.splat_apply, constant_apply, Ideal.ofBits_zero_f32, zero_add, ← hr]
    refine Finset.sum_congr rfl fun e _ => ?_
    rw [GcnLayer.splat_apply, constant_apply, LibReciprocalScale.ofBits_one_f32]
  have hone : val_main_v9 (F := Ideal) (ix1 i) = 1 := by
    show broadcastInDim S50000 ![] bcast_S_S50000 (constant (F := Ideal) S_ .f32 0x3F800000#32) (ix1 i) = 1
    rw [GcnLayer.splat_apply, constant_apply, LibReciprocalScale.ofBits_one_f32]
  rw [val_main_v11_apply, Ideal.hostUnary_rsqrt_def, val_main_v10_apply, Ideal.addf_def, hdeg, hone, ← EReal.coe_one, ← EReal.coe_add, Ideal.rsqrt_coe, if_neg (by linarith), if_neg (by linarith)]

theorem factor_isR (idx : S50000.Idx) : IsR (val_main_v11 (F := Ideal) x1 idx) := by
  obtain ⟨i, rfl⟩ : ∃ i : Fin 50000, idx = ix1 i := ⟨idx 0, eq_ix1 idx⟩
  obtain ⟨c, _, hc⟩ := factor_real x1 i
  exact ⟨c, hc⟩

/-! ## The layers -/

/-- The destination an edge is summed at is the row its wrapped, clamped destination selects. -/
theorem dst_row (e : Fin 800000) (i : Fin 50000)
    (h : (GcnIndex.col extIdx (val_main_v3 (F := Ideal) x1) (ix2 e (0 : Fin 1))).toInt = ((i : ℕ) : ℤ)) :
    LibRowGather.clampRow 50000 (by decide) (GcnIndex.col extIdx (GcnIndex.wrap extIdx 50000#32 (val_main_v3 (F := Ideal) x1)) (ix2 e (0 : Fin 1))) = i :=
  GcnIndex.wrap_clamp extIdx 50000#32 _ e i h

/-- LAYER 1: on the reference's projected features the kernel's arrangement is the reference's layer. -/
theorem layer1 : k_v37 (F := Ideal) (val_main_v1 x1) (val_main_v3 x1) (val_main_v11 x1) (val_main_v4 x0 x4) x5
    = val_main_v47 x0 x1 x4 x5 := by
  show GcnSelf.nodeSelf ext256 (val_main_v4 x0 x4) (val_main_v11 x1)
      (GcnIndex.col extIdx (GcnIndex.wrap extIdx 50000#32 (val_main_v1 x1))) (GcnIndex.col extIdx (val_main_v3 x1)) x5
    = GcnSelf.edgeSelf ext256 (val_main_v4 x0 x4) (val_main_v11 x1)
      (GcnIndex.col extIdx (GcnIndex.wrap extIdx 50000#32 (val_main_v1 x1))) (GcnIndex.col extIdx (val_main_v3 x1))
      (GcnIndex.col extIdx (GcnIndex.wrap extIdx 50000#32 (val_main_v3 x1))) x5
  exact GcnSelf.nodeSelf_eq_edgeSelf ext256 _ _ _ _ _ _ (fun e i h => dst_row x1 e i h) (factor_real x1)

/-- LAYER 2, on the reference's second projection. -/
theorem layer2 : k_v65 (F := Ideal) (val_main_v1 x1) (val_main_v3 x1) (val_main_v11 x1) (val_main_v49 x0 x1 x4 x5 x6) x7
    = val_main_v92 x0 x1 x4 x5 x6 x7 := by
  show GcnSelf.nodeSelf ext128 (val_main_v49 x0 x1 x4 x5 x6) (val_main_v11 x1)
      (GcnIndex.col extIdx (GcnIndex.wrap extIdx 50000#32 (val_main_v1 x1))) (GcnIndex.col extIdx (val_main_v3 x1)) x7
    = GcnSelf.edgeSelf ext128 (val_main_v49 x0 x1 x4 x5 x6) (val_main_v11 x1)
      (GcnIndex.col extIdx (GcnIndex.wrap extIdx 50000#32 (val_main_v1 x1))) (GcnIndex.col extIdx (val_main_v3 x1))
      (GcnIndex.col extIdx (GcnIndex.wrap extIdx 50000#32 (val_main_v3 x1))) x7
  exact GcnSelf.nodeSelf_eq_edgeSelf ext128 _ _ _ _ _ _ (fun e i h => dst_row x1 e i h) (factor_real x1)

end Cert.Proof.LayerBridge

end
-- ==== Proof.LayerReal.lean ====
/-
  With real arguments, the second layer's result has real entries.

  A product of two real matrices is real entry by entry (a finite sum of products of reals); every node's factor is a
  real; a layer's entry is a finite sum of products of features and factors, plus a product, plus a bias entry; and the
  positive part of a real is a real. So from real node features, weights and biases the first layer, its positive
  part, the second product and the second layer are real at every entry.
-/
import proofs.«131849_j52312701665557_2_alg».proof.Proof.LayerBridge

noncomputable section

namespace Cert.Proof.LayerReal

open Cert.ReferenceIdeal Cert.ReferenceIdeal.Gen Idealize.ShloMosaic Idealize.ShloMosaic.TcCoe Idealize.SL.Sem Idealize.ShloMosaic.StableHlo
open Idealize.ShloMosaic.ValueIdx RealEntries
open Cert.ReferenceIdeal.Read Cert.Proof.LayerBridge

variable (x0 : (⟨S50000x256, .f32⟩ : BufTy).Contents (Elt Ideal)) (x1 : (⟨S2x800000, .i32⟩ : BufTy).Contents (Elt Ideal)) (x4 : (⟨S256x256, .f32⟩ : BufTy).Contents (Elt Ideal))
  (x5 : (⟨S256, .f32⟩ : BufTy).Contents (Elt Ideal)) (x6 : (⟨S256x128, .f32⟩ : BufTy).Contents (Elt Ideal)) (x7 : (⟨S128, .f32⟩ : BufTy).Contents (Elt Ideal))
  (r0 : ∀ i, IsR (x0 i)) (r4 : ∀ i, IsR (x4 i)) (r5 : ∀ i, IsR (x5 i)) (r6 : ∀ i, IsR (x6 i)) (r7 : ∀ i, IsR (x7 i))

include r0 r4 in
theorem v4_isR (i : S50000x256.Idx) : IsR (val_main_v4 (F := Ideal) x0 x4 i) := by
  rw [val_main_v4_apply]
  exact IsR.sum _ _ fun k _ => (r0 _).mul (r4 _)

include r0 r4 r5 in
theorem v47_isR (i : S50000x256.Idx) : IsR (val_main_v47 (F := Ideal) x0 x1 x4 x5 i) := by
  have e : val_main_v47 (F := Ideal) x0 x1 x4 x5 = GcnSelf.edgeSelf ext256 (val_main_v4 x0 x4) (val_main_v11 x1)
      (GcnIndex.col extIdx (GcnIndex.wrap extIdx 50000#32 (val_main_v1 x1))) (GcnIndex.col extIdx (val_main_v3 x1))
      (GcnIndex.col extIdx (GcnIndex.wrap extIdx 50000#32 (val_main_v3 x1))) x5 := rfl
  rw [e]
  exact GcnSelf.edgeSelf_isR ext256 _ _ _ _ _ _ (v4_isR x0 x4 r0 r4) (factor_isR x1) r5 i

theorem relu_zero (i : S50000x256.Idx) : val_main_call0_v0 (F := Ideal) i = 0 := by
  show broadcastInDim S50000x256 ![] bcast_S_S50000x256 (constant (F := Ideal) S_ .f32 0x00000000#32) i = 0
  rw [GcnLayer.splat_apply, constant_apply, Ideal.ofBits_zero_f32]

include r0 r4 r5 in
theorem v48_isR (i : S50000x256.Idx) : IsR (val_main_v48 (F := Ideal) x0 x1 x4 x5 i) := by
  rw [val_main_v48_apply, Ideal.maximumf_def, relu_zero]
  exact (v47_isR x0 x1 x4 x5 r0 r4 r5 i).max isR_zero

include r0 r4 r5 r6 in
theorem v49_isR (i : S50000x128.Idx) : IsR (val_main_v49 (F := Ideal) x0 x1 x4 x5 x6 i) := by
  rw [val_main_v49_apply]
  exact IsR.sum _ _ fun k _ => (v48_isR x0 x1 x4 x5 r0 r4 r5 _).mul (r6 _)

include r0 r4 r5 r6 r7 in
/-- THE SECOND LAYER IS REAL at every entry. -/
theorem v92_isR (i : S50000x128.Idx) : IsR (val_main_v92 (F := Ideal) x0 x1 x4 x5 x6 x7 i) := by
  have e : val_main_v92 (F := Ideal) x0 x1 x4 x5 x6 x7 = GcnSelf.edgeSelf ext128 (val_main_v49 x0 x1 x4 x5 x6) (val_main_v11 x1)
      (GcnIndex.col extIdx (GcnIndex.wrap extIdx 50000#32 (val_main_v1 x1))) (GcnIndex.col extIdx (val_main_v3 x1))
      (GcnIndex.col extIdx (GcnIndex.wrap extIdx 50000#32 (val_main_v3 x1))) x7 := rfl
  rw [e]
  exact GcnSelf.edgeSelf_isR ext128 _ _ _ _ _ _ (v49_isR x0 x1 x4 x5 x6 r0 r4 r5 r6) (factor_isR x1) r7 i

end Cert.Proof.LayerReal

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.TailK.lean ====
/-
  The kernel's edge projections, read at an entry.

  For edge e and output column q the kernel adds five numbers: the projection of the source node's features less that
  of the destination node's (each a sum over the 128 features against the first 128 rows of the weights, taken on the
  node table before the gather), the projection of the edge's 2 values against rows 128–129, and the projections of
  its two embedding rows against rows 130–161 and 162–193 (each taken on the 20-row embedding table before the gather).
  A gather of whole rows reads the table at the clamped index; a product of two matrices reads as the sum over the
  contracted axis; a slice of the weight matrix reads the matrix at the offset row.
-/
import proofs.«131849_j52312701665557_2_alg».proof.Proof.Gen.KernelIdeal
import proofs.«131849_j52312701665557_2_alg».proof.Proof.KStages
import proofs.«131849_j52312701665557_2_alg».proof.Proof.LibRowGather
import proofs.«131849_j52312701665557_2_alg».proof.Proof.LibMatIdx
import Idealize.ShloMosaic.Lib.Pipeline.Value
import Idealize.ShloMosaic.Lib.ValueIdx

noncomputable section

namespace Cert.KernelIdeal.TailK

open Cert.KernelIdeal Cert.KernelIdeal.Gen Idealize.ShloMosaic Idealize.ShloMosaic.TcCoe Idealize.SL.Sem Idealize.ShloMosaic.StableHlo
open Idealize.ShloMosaic.ValueIdx Cert.KernelIdeal.KStages

/-! ## The gathers are gathers of whole rows -/

theorem gatherN_eq : gather_S50000x2_S800000x1_S800000x2_1_0_n_n_0_1_12
    = LibRowGather.rowDims 50000 2 800000 gather_S50000x2_S800000x1_S800000x2_1_0_n_n_0_1_12_wf := rfl
theorem gatherC_eq : gather_S20x2_S800000x1_S800000x2_1_0_n_n_0_1_12
    = LibRowGather.rowDims 20 2 800000 gather_S20x2_S800000x1_S800000x2_1_0_n_n_0_1_12_wf := rfl

/-- The node an index column selects for edge e. -/
abbrev rowN (idx : (⟨S800000x1, .i32⟩ : BufTy).Contents (Elt Ideal)) (e : Fin 800000) : Fin 50000 :=
  LibRowGather.clampRow 50000 (by decide) (idx (ix2 e (0 : Fin 1)))
/-- The embedding row an index column selects for edge e. -/
abbrev rowC (idx : (⟨S800000x1, .i32⟩ : BufTy).Contents (Elt Ideal)) (e : Fin 800000) : Fin 20 :=
  LibRowGather.clampRow 20 (by decide) (idx (ix2 e (0 : Fin 1)))

/-! ### The product `dot_S50000x128_S128x2_S50000x2_1_0_0_1_n_n` at an entry -/

theorem dN_l0 (i : S50000x2.Idx) (q : dot_S50000x128_S128x2_S50000x2_1_0_0_1_n_n.contr.Idx) : (dot_S50000x128_S128x2_S50000x2_1_0_0_1_n_n.lhsIdx i q 0).val = (i 0).val := by
  unfold DotDims.lhsIdx
  rw [dif_neg (show ¬(0 : Fin S50000x128.rank) ∈ dot_S50000x128_S128x2_S50000x2_1_0_0_1_n_n.lhsBatch by decide), dif_pos (show (0 : Fin S50000x128.rank) ∈ dot_S50000x128_S128x2_S50000x2_1_0_0_1_n_n.lhsNonContracting by decide)]
  rfl
theorem dN_l1 (i : S50000x2.Idx) (q : dot_S50000x128_S128x2_S50000x2_1_0_0_1_n_n.contr.Idx) : (dot_S50000x128_S128x2_S50000x2_1_0_0_1_n_n.lhsIdx i q 1).val = (q ⟨0, by decide⟩).val :=
  dot_S50000x128_S128x2_S50000x2_1_0_0_1_n_n.lhsIdx_val_of_single rfl i q
theorem dN_r0 (i : S50000x2.Idx) (q : dot_S50000x128_S128x2_S50000x2_1_0_0_1_n_n.contr.Idx) : (dot_S50000x128_S128x2_S50000x2_1_0_0_1_n_n.rhsIdx i q 0).val = (q ⟨0, by decide⟩).val :=
  dot_S50000x128_S128x2_S50000x2_1_0_0_1_n_n.rhsIdx_val_of_single rfl i q
theorem dN_r1 (i : S50000x2.Idx) (q : dot_S50000x128_S128x2_S50000x2_1_0_0_1_n_n.contr.Idx) : (dot_S50000x128_S128x2_S50000x2_1_0_0_1_n_n.rhsIdx i q 1).val = (i 1).val := by
  unfold DotDims.rhsIdx
  rw [dif_neg (show ¬(1 : Fin S128x2.rank) ∈ dot_S50000x128_S128x2_S50000x2_1_0_0_1_n_n.rhsBatch by decide), dif_pos (show (1 : Fin S128x2.rank) ∈ dot_S50000x128_S128x2_S50000x2_1_0_0_1_n_n.rhsNonContracting by decide)]
  rfl
theorem dN_apply (l : FVec Ideal S50000x128 .f32) (r : FVec Ideal S128x2 .f32) (p : Fin 50000) (q : Fin 2) :
    Host.dotGeneral (F := Ideal) dot_S50000x128_S128x2_S50000x2_1_0_0_1_n_n none l r (ix2 p q) = ∑ k : Fin 128, l (ix2 p k) * r (ix2 k q) :=
  LibMatIdx.dot2_apply dot_S50000x128_S128x2_S50000x2_1_0_0_1_n_n rfl rfl dN_l0 dN_l1 dN_r0 dN_r1 none l r (ix2 p q)

/-! ### The product `dot_S800000x2_S2x2_S800000x2_1_0_0_1_n_n` at an entry -/

theorem dV_l0 (i : S800000x2.Idx) (q : dot_S800000x2_S2x2_S800000x2_1_0_0_1_n_n.contr.Idx) : (dot_S800000x2_S2x2_S800000x2_1_0_0_1_n_n.lhsIdx i q 0).val = (i 0).val := by
  unfold DotDims.lhsIdx
  rw [dif_neg (show ¬(0 : Fin S800000x2.rank) ∈ dot_S800000x2_S2x2_S800000x2_1_0_0_1_n_n.lhsBatch by decide), dif_pos (show (0 : Fin S800000x2.rank) ∈ dot_S800000x2_S2x2_S800000x2_1_0_0_1_n_n.lhsNonContracting by decide)]
  rfl
theorem dV_l1 (i : S800000x2.Idx) (q : dot_S800000x2_S2x2_S800000x2_1_0_0_1_n_n.contr.Idx) : (dot_S800000x2_S2x2_S800000x2_1_0_0_1_n_n.lhsIdx i q 1).val = (q ⟨0, by decide⟩).val :=
  dot_S800000x2_S2x2_S800000x2_1_0_0_1_n_n.lhsIdx_val_of_single rfl i q
theorem dV_r0 (i : S800000x2.Idx) (q : dot_S800000x2_S2x2_S800000x2_1_0_0_1_n_n.contr.Idx) : (dot_S800000x2_S2x2_S800000x2_1_0_0_1_n_n.rhsIdx i q 0).val = (q ⟨0, by decide⟩).val :=
  dot_S800000x2_S2x2_S800000x2_1_0_0_1_n_n.rhsIdx_val_of_single rfl i q
theorem dV_r1 (i : S800000x2.Idx) (q : dot_S800000x2_S2x2_S800000x2_1_0_0_1_n_n.contr.Idx) : (dot_S800000x2_S2x2_S800000x2_1_0_0_1_n_n.rhsIdx i q 1).val = (i 1).val := by
  unfold DotDims.rhsIdx
  rw [dif_neg (show ¬(1 : Fin S2x2.rank) ∈ dot_S800000x2_S2x2_S800000x2_1_0_0_1_n_n.rhsBatch by decide), dif_pos (show (1 : Fin S2x2.rank) ∈ dot_S800000x2_S2x2_S800000x2_1_0_0_1_n_n.rhsNonContracting by decide)]
  rfl
theorem dV_apply (l : FVec Ideal S800000x2 .f32) (r : FVec Ideal S2x2 .f32) (p : Fin 800000) (q : Fin 2) :
    Host.dotGeneral (F := Ideal) dot_S800000x2_S2x2_S800000x2_1_0_0_1_n_n none l r (ix2 p q) = ∑ k : Fin 2, l (ix2 p k) * r (ix2 k q) :=
  LibMatIdx.dot2_apply dot_S800000x2_S2x2_S800000x2_1_0_0_1_n_n rfl rfl dV_l0 dV_l1 dV_r0 dV_r1 none l r (ix2 p q)

/-! ### The product `dot_S20x32_S32x2_S20x2_1_0_0_1_n_n` at an entry -/

theorem dC_l0 (i : S20x2.Idx) (q : dot_S20x32_S32x2_S20x2_1_0_0_1_n_n.contr.Idx) : (dot_S20x32_S32x2_S20x2_1_0_0_1_n_n.lhsIdx i q 0).val = (i 0).val := by
  unfold DotDims.lhsIdx
  rw [dif_neg (show ¬(0 : Fin S20x32.rank) ∈ dot_S20x32_S32x2_S20x2_1_0_0_1_n_n.lhsBatch by decide), dif_pos (show (0 : Fin S20x32.rank) ∈ dot_S20x32_S32x2_S20x2_1_0_0_1_n_n.lhsNonContracting by decide)]
  rfl
theorem dC_l1 (i : S20x2.Idx) (q : dot_S20x32_S32x2_S20x2_1_0_0_1_n_n.contr.Idx) : (dot_S20x32_S32x2_S20x2_1_0_0_1_n_n.lhsIdx i q 1).val = (q ⟨0, by decide⟩).val :=
  dot_S20x32_S32x2_S20x2_1_0_0_1_n_n.lhsIdx_val_of_single rfl i q
theorem dC_r0 (i : S20x2.Idx) (q : dot_S20x32_S32x2_S20x2_1_0_0_1_n_n.contr.Idx) : (dot_S20x32_S32x2_S20x2_1_0_0_1_n_n.rhsIdx i q 0).val = (q ⟨0, by decide⟩).val :=
  dot_S20x32_S32x2_S20x2_1_0_0_1_n_n.rhsIdx_val_of_single rfl i q
theorem dC_r1 (i : S20x2.Idx) (q : dot_S20x32_S32x2_S20x2_1_0_0_1_n_n.contr.Idx) : (dot_S20x32_S32x2_S20x2_1_0_0_1_n_n.rhsIdx i q 1).val = (i 1).val := by
  unfold DotDims.rhsIdx
  rw [dif_neg (show ¬(1 : Fin S32x2.rank) ∈ dot_S20x32_S32x2_S20x2_1_0_0_1_n_n.rhsBatch by decide), dif_pos (show (1 : Fin S32x2.rank) ∈ dot_S20x32_S32x2_S20x2_1_0_0_1_n_n.rhsNonContracting by decide)]
  rfl
theorem dC_apply (l : FVec Ideal S20x32 .f32) (r : FVec Ideal S32x2 .f32) (p : Fin 20) (q : Fin 2) :
    Host.dotGeneral (F := Ideal) dot_S20x32_S32x2_S20x2_1_0_0_1_n_n none l r (ix2 p q) = ∑ k : Fin 32, l (ix2 p k) * r (ix2 k q) :=
  LibMatIdx.dot2_apply dot_S20x32_S32x2_S20x2_1_0_0_1_n_n rfl rfl dC_l0 dC_l1 dC_r0 dC_r1 none l r (ix2 p q)

/-! ## The four slices of the weight matrix -/

variable (x10 : (⟨S194x2, .f32⟩ : BufTy).Contents (Elt Ideal))

theorem w_node (k : Fin 128) (q : Fin 2) : k_v66 (F := Ideal) x10 (ix2 k q) = x10 (ix2 (⟨k.val, by omega⟩ : Fin 194) q) := by
  unfold k_v66
  exact extractStridedSlice_apply ![0, 0] x10 slices_S194x2_S128x2_0_0 (ix2 k q) (ix2 (⟨k.val, by omega⟩ : Fin 194) q) (fun a => match a with
    | ⟨0, _⟩ => by show k.val = 0 + k.val; omega
    | ⟨1, _⟩ => by show q.val = 0 + q.val; omega)
theorem w_val (k : Fin 2) (q : Fin 2) : k_v67 (F := Ideal) x10 (ix2 k q) = x10 (ix2 (⟨128 + k.val, by omega⟩ : Fin 194) q) := by
  unfold k_v67
  exact extractStridedSlice_apply ![128, 0] x10 slices_S194x2_S2x2_128_0 (ix2 k q) (ix2 (⟨128 + k.val, by omega⟩ : Fin 194) q) (fun a => match a with
    | ⟨0, _⟩ => by show 128 + k.val = 128 + k.val; rfl
    | ⟨1, _⟩ => by show q.val = 0 + q.val; omega)
theorem w_emb0 (k : Fin 32) (q : Fin 2) : k_v68 (F := Ideal) x10 (ix2 k q) = x10 (ix2 (⟨130 + k.val, by omega⟩ : Fin 194) q) := by
  unfold k_v68
  exact extractStridedSlice_apply ![130, 0] x10 slices_S194x2_S32x2_130_0 (ix2 k q) (ix2 (⟨130 + k.val, by omega⟩ : Fin 194) q) (fun a => match a with
    | ⟨0, _⟩ => by show 130 + k.val = 130 + k.val; rfl
    | ⟨1, _⟩ => by show q.val = 0 + q.val; omega)
theorem w_emb1 (k : Fin 32) (q : Fin 2) : k_v69 (F := Ideal) x10 (ix2 k q) = x10 (ix2 (⟨162 + k.val, by omega⟩ : Fin 194) q) := by
  unfold k_v69
  exact extractStridedSlice_apply ![162, 0] x10 slices_S194x2_S32x2_162_0 (ix2 k q) (ix2 (⟨162 + k.val, by omega⟩ : Fin 194) q) (fun a => match a with
    | ⟨0, _⟩ => by show 162 + k.val = 162 + k.val; rfl
    | ⟨1, _⟩ => by show q.val = 0 + q.val; omega)

/-! ## The five summands -/

variable (v1 v3 : (⟨S800000, .i32⟩ : BufTy).Contents (Elt Ideal)) (H : (⟨S50000x128, .f32⟩ : BufTy).Contents (Elt Ideal)) (x2 : (⟨S800000x2, .i32⟩ : BufTy).Contents (Elt Ideal))
  (x3 : (⟨S800000x2, .f32⟩ : BufTy).Contents (Elt Ideal)) (x8 x9 : (⟨S20x32, .f32⟩ : BufTy).Contents (Elt Ideal))

/-- The node table's projection, gathered by an index column. -/
theorem node_proj (idx : (⟨S800000x1, .i32⟩ : BufTy).Contents (Elt Ideal)) (e : Fin 800000) (q : Fin 2) :
    Host.gather gather_S50000x2_S800000x1_S800000x2_1_0_n_n_0_1_12 (k_v70 (F := Ideal) H x10) idx (ix2 e q)
      = ∑ k : Fin 128, H (ix2 (rowN idx e) k) * x10 (ix2 (⟨k.val, by omega⟩ : Fin 194) q) := by
  rw [gatherN_eq, LibRowGather.gather_rows_apply (by decide)]
  unfold k_v70
  beta_reduce
  rw [dN_apply]
  exact Finset.sum_congr rfl fun k _ => by rw [w_node]

/-- An embedding table's projection, gathered by an index column. -/
theorem emb0_proj (idx : (⟨S800000x1, .i32⟩ : BufTy).Contents (Elt Ideal)) (e : Fin 800000) (q : Fin 2) :
    Host.gather gather_S20x2_S800000x1_S800000x2_1_0_n_n_0_1_12 (k_v72 (F := Ideal) x8 x10) idx (ix2 e q)
      = ∑ k : Fin 32, x8 (ix2 (rowC idx e) k) * x10 (ix2 (⟨130 + k.val, by omega⟩ : Fin 194) q) := by
  rw [gatherC_eq, LibRowGather.gather_rows_apply (by decide)]
  unfold k_v72
  beta_reduce
  rw [dC_apply]
  exact Finset.sum_congr rfl fun k _ => by rw [w_emb0]

theorem emb1_proj (idx : (⟨S800000x1, .i32⟩ : BufTy).Contents (Elt Ideal)) (e : Fin 800000) (q : Fin 2) :
    Host.gather gather_S20x2_S800000x1_S800000x2_1_0_n_n_0_1_12 (k_v73 (F := Ideal) x9 x10) idx (ix2 e q)
      = ∑ k : Fin 32, x9 (ix2 (rowC idx e) k) * x10 (ix2 (⟨162 + k.val, by omega⟩ : Fin 194) q) := by
  rw [gatherC_eq, LibRowGather.gather_rows_apply (by decide)]
  unfold k_v73
  beta_reduce
  rw [dC_apply]
  exact Finset.sum_congr rfl fun k _ => by rw [w_emb1]

theorem val_proj (e : Fin 800000) (q : Fin 2) :
    k_v71 (F := Ideal) x3 x10 (ix2 e q) = ∑ k : Fin 2, x3 (ix2 e k) * x10 (ix2 (⟨128 + k.val, by omega⟩ : Fin 194) q) := by
  unfold k_v71
  beta_reduce
  rw [dV_apply]
  exact Finset.sum_congr rfl fun k _ => by rw [w_val]

/-- THE KERNEL'S SUM OF PROJECTIONS at edge e, column q. -/
theorem k_v109_apply (e : Fin 800000) (q : Fin 2) :
    k_v109 (F := Ideal) v1 v3 H x2 x3 x8 x9 x10 (ix2 e q)
      = ((((∑ k : Fin 128, H (ix2 (rowN (k_v83 v1) e) k) * x10 (ix2 (⟨k.val, by omega⟩ : Fin 194) q))
            - (∑ k : Fin 128, H (ix2 (rowN (k_v90 v3) e) k) * x10 (ix2 (⟨k.val, by omega⟩ : Fin 194) q)))
          + ∑ k : Fin 2, x3 (ix2 e k) * x10 (ix2 (⟨128 + k.val, by omega⟩ : Fin 194) q))
          + ∑ k : Fin 32, x8 (ix2 (rowC (k_v99 x2) e) k) * x10 (ix2 (⟨130 + k.val, by omega⟩ : Fin 194) q))
          + ∑ k : Fin 32, x9 (ix2 (rowC (k_v107 x2) e) k) * x10 (ix2 (⟨162 + k.val, by omega⟩ : Fin 194) q) := by
  unfold k_v109 k_v101 k_v93 k_v92
  rw [addf_apply, addf_apply, addf_apply, subf_apply]
  unfold k_v84 k_v91 k_v100 k_v108
  beta_reduce
  rw [node_proj, node_proj, val_proj, emb0_proj, emb1_proj]

end Cert.KernelIdeal.TailK

end
-- ==== Proof.TailSpec.lean ====
/-
  A product with a concatenated row, piece by piece.

  The edge network's first layer multiplies, for each edge, a row of 194 entries by a [194, 2] weight matrix. The row
  is a concatenation of four pieces: 128 differences A k − B k (the features of the edge's source node less those of
  its destination), 2 edge values, and two embedding rows of 32 entries each. The sum over the 194 positions is the sum
  over the four pieces, each against its own rows of the weights; and on real entries the first piece's weighted sum of
  differences is the difference of the two weighted sums. So the product of the concatenated row is what one gets by
  projecting each piece separately and adding the projections — which is how the kernel computes it.
-/
import Mathlib.Data.EReal.Operations
import Mathlib.Algebra.BigOperators.Fin
import proofs.«131849_j52312701665557_2_alg».proof.Proof.LibRealEntries

noncomputable section

namespace TailSpec

open RealEntries

/-- A sum over n = a + b consecutive positions: the lower a positions, then the upper b. -/
theorem sum_fin_split {M : Type*} [AddCommMonoid M] (n a b : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- Entry k of the concatenated row: the 128 differences, the 2 values, the two embedding rows. -/
def piece (A B : Fin 128 → EReal) (V : Fin 2 → EReal) (P Q : Fin 32 → EReal) (k : Fin 194) : EReal :=
  if h : k.val < 128 then A ⟨k.val, h⟩ - B ⟨k.val, h⟩
  else if h2 : k.val < 130 then V ⟨k.val - 128, by omega⟩
  else if h3 : k.val < 162 then P ⟨k.val - 130, by omega⟩
  else Q ⟨k.val - 162, by omega⟩

theorem piece_node (A B : Fin 128 → EReal) (V : Fin 2 → EReal) (P Q : Fin 32 → EReal) (k : Fin 128) :
    piece A B V P Q ⟨k.val, by omega⟩ = A k - B k := by
  unfold piece
  rw [dif_pos k.isLt]

theorem piece_val (A B : Fin 128 → EReal) (V : Fin 2 → EReal) (P Q : Fin 32 → EReal) (k : Fin 2) :
    piece A B V P Q ⟨128 + k.val, by omega⟩ = V k := by
  unfold piece
  rw [dif_neg (by simp), dif_pos (by have := k.isLt; simp; omega)]
  congr 1
  exact Fin.ext (by simp)

theorem piece_emb0 (A B : Fin 128 → EReal) (V : Fin 2 → EReal) (P Q : Fin 32 → EReal) (k : Fin 32) :
    piece A B V P Q ⟨130 + k.val, by omega⟩ = P k := by
  unfold piece
  rw [dif_neg (by simp; omega), dif_neg (by simp), dif_pos (by have := k.isLt; simp; omega)]
  congr 1
  exact Fin.ext (by simp)

theorem piece_emb1 (A B : Fin 128 → EReal) (V : Fin 2 → EReal) (P Q : Fin 32 → EReal) (k : Fin 32) :
    piece A B V P Q ⟨162 + k.val, by omega⟩ = Q k := by
  unfold piece
  rw [dif_neg (by simp; omega), dif_neg (by simp; omega), dif_neg (by simp)]
  congr 1
  exact Fin.ext (by simp)

/-- THE PRODUCT OF THE CONCATENATED ROW is the sum of the pieces' projections, the first piece's being the difference
    of the two nodes' projections when the features and the first 128 weight rows are real. -/
theorem dot_split (A B : Fin 128 → EReal) (V : Fin 2 → EReal) (P Q : Fin 32 → EReal) (w : Fin 194 → EReal)
    (hA : ∀ k, IsR (A k)) (hB : ∀ k, IsR (B k)) (hw : ∀ k : Fin 128, IsR (w ⟨k.val, by omega⟩)) :
    ∑ k : Fin 194, piece A B V P Q k * w k
      = ((((∑ k : Fin 128, A k * w ⟨k.val, by omega⟩) - (∑ k : Fin 128, B k * w ⟨k.val, by omega⟩))
          + ∑ k : Fin 2, V k * w ⟨128 + k.val, by omega⟩)
          + ∑ k : Fin 32, P k * w ⟨130 + k.val, by omega⟩)
          + ∑ k : Fin 32, Q k * w ⟨162 + k.val, by omega⟩ := by
  rw [sum_fin_split 194 128 66 rfl, sum_fin_split 66 2 64 rfl, sum_fin_split 64 32 32 rfl]
  have e1 : ∑ k : Fin 128, piece A B V P Q ⟨k.val, by omega⟩ * w ⟨k.val, by omega⟩
      = (∑ k : Fin 128, A k * w ⟨k.val, by omega⟩) - (∑ k : Fin 128, B k * w ⟨k.val, by omega⟩) := by
    rw [← sum_sub_mul A B (fun k : Fin 128 => w ⟨k.val, by omega⟩) hA hB hw]
    exact Finset.sum_congr rfl fun k _ => by rw [piece_node]
  have e2 : ∑ k : Fin 2, piece A B V P Q ⟨128 + (⟨k.val, by omega⟩ : Fin 66).val, by omega⟩ * w ⟨128 + (⟨k.val, by omega⟩ : Fin 66).val, by omega⟩
      = ∑ k : Fin 2, V k * w ⟨128 + k.val, by omega⟩ :=
    Finset.sum_congr rfl fun k _ => by rw [show (⟨128 + (⟨k.val, by omega⟩ : Fin 66).val, by omega⟩ : Fin 194) = ⟨128 + k.val, by omega⟩ from rfl, piece_val]
  have e3 : ∑ k : Fin 32, piece A B V P Q ⟨128 + (⟨2 + (⟨k.val, by omega⟩ : Fin 64).val, by omega⟩ : Fin 66).val, by omega⟩
        * w ⟨128 + (⟨2 + (⟨k.val, by omega⟩ : Fin 64).val, by omega⟩ : Fin 66).val, by omega⟩
      = ∑ k : Fin 32, P k * w ⟨130 + k.val, by omega⟩ :=
    Finset.sum_congr rfl fun k _ => by
      rw [show (⟨128 + (⟨2 + (⟨k.val, by omega⟩ : Fin 64).val, by omega⟩ : Fin 66).val, by omega⟩ : Fin 194) = ⟨130 + k.val, by omega⟩ from Fin.ext (by simp; omega), piece_emb0]
  have e4 : ∑ k : Fin 32, piece A B V P Q ⟨128 + (⟨2 + (⟨32 + k.val, by omega⟩ : Fin 64).val, by omega⟩ : Fin 66).val, by omega⟩
        * w ⟨128 + (⟨2 + (⟨32 + k.val, by omega⟩ : Fin 64).val, by omega⟩ : Fin 66).val, by omega⟩
      = ∑ k : Fin 32, Q k * w ⟨162 + k.val, by omega⟩ :=
    Finset.sum_congr rfl fun k _ => by
      rw [show (⟨128 + (⟨2 + (⟨32 + k.val, by omega⟩ : Fin 64).val, by omega⟩ : Fin 66).val, by omega⟩ : Fin 194) = ⟨162 + k.val, by omega⟩ from Fin.ext (by simp; omega), piece_emb1]
  rw [e1, e2, e3, e4, ← add_assoc, ← add_assoc]

end TailSpec

end
-- ==== Proof.TailR.lean ====
/-
  The reference's edge network, first layer, read at an entry.

  For edge e the reference builds a row of 194 entries — the 128 features of the source node less those of the
  destination node, the edge's 2 values, and the two embedding rows of 32 entries its categories select — and
  multiplies it by the [194, 2] weight matrix. Position k of a concatenation along the columns reads the piece whose
  span holds k, at k less the extents of the pieces before it; a gather of whole rows reads the table at the clamped
  index. So entry (e, q) of the product is the sum over the 194 positions of the piecewise row against column q.
-/
import proofs.«131849_j52312701665557_2_alg».proof.Proof.Gen.ReferenceIdeal.Read
import proofs.«131849_j52312701665557_2_alg».proof.Proof.LibRowGather
import proofs.«131849_j52312701665557_2_alg».proof.Proof.TailSpec
import Idealize.ShloMosaic.Lib.Pipeline.Value
import Idealize.ShloMosaic.Lib.ValueIdx

noncomputable section

namespace Cert.ReferenceIdeal.TailR

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

theorem gatherH_eq : gather_S50000x128_S800000x1_S800000x128_1_0_n_n_0_1_1128
    = LibRowGather.rowDims 50000 128 800000 gather_S50000x128_S800000x1_S800000x128_1_0_n_n_0_1_1128_wf := rfl
theorem gatherE_eq : gather_S20x32_S800000x1_S800000x32_1_0_n_n_0_1_132
    = LibRowGather.rowDims 20 32 800000 gather_S20x32_S800000x1_S800000x32_1_0_n_n_0_1_132_wf := rfl

/-- The node an index column selects for edge e. -/
abbrev rowN (idx : (⟨S800000x1, .i32⟩ : BufTy).Contents (Elt Ideal)) (e : Fin 800000) : Fin 50000 :=
  LibRowGather.clampRow 50000 (by decide) (idx (ix2 e (0 : Fin 1)))
/-- The embedding row an index column selects for edge e. -/
abbrev rowC (idx : (⟨S800000x1, .i32⟩ : BufTy).Contents (Elt Ideal)) (e : Fin 800000) : Fin 20 :=
  LibRowGather.clampRow 20 (by decide) (idx (ix2 e (0 : Fin 1)))

variable (x0 : (⟨S50000x256, .f32⟩ : BufTy).Contents (Elt Ideal)) (x1 : (⟨S2x800000, .i32⟩ : BufTy).Contents (Elt Ideal)) (x2 : (⟨S800000x2, .i32⟩ : BufTy).Contents (Elt Ideal))
  (x3 : (⟨S800000x2, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal))
  (x7 : (⟨S128, .f32⟩ : BufTy).Contents (Elt Ideal)) (x8 x9 : (⟨S20x32, .f32⟩ : BufTy).Contents (Elt Ideal)) (x10 : (⟨S194x2, .f32⟩ : BufTy).Contents (Elt Ideal))

/-- The row the reference multiplies by the weights, for edge e, as the piecewise row over the second layer's result. -/
abbrev rowOf (e : Fin 800000) : Fin 194 → EReal :=
  TailSpec.piece (fun k => val_main_v92 (F := Ideal) x0 x1 x4 x5 x6 x7 (ix2 (rowN (val_main_v98 x1) e) k))
    (fun k => val_main_v92 (F := Ideal) x0 x1 x4 x5 x6 x7 (ix2 (rowN (val_main_v105 x1) e) k))
    (fun k => x3 (ix2 e k)) (fun k => x8 (ix2 (rowC (val_main_v115 x2) e) k)) (fun k => x9 (ix2 (rowC (val_main_v124 x2) e) k))

/-- The difference of the two gathered feature rows at (e, k). -/
theorem node_diff (e : Fin 800000) (k : Fin 128) :
    val_main_v107 (F := Ideal) x0 x1 x4 x5 x6 x7 (ix2 e k)
      = val_main_v92 (F := Ideal) x0 x1 x4 x5 x6 x7 (ix2 (rowN (val_main_v98 x1) e) k)
        - val_main_v92 (F := Ideal) x0 x1 x4 x5 x6 x7 (ix2 (rowN (val_main_v105 x1) e) k) := by
  rw [val_main_v107_apply, Ideal.subf_def]
  unfold val_main_v99 val_main_v106
  rw [gatherH_eq, LibRowGather.gather_rows_apply (by decide), LibRowGather.gather_rows_apply (by decide)]

theorem emb0_row (e : Fin 800000) (k : Fin 32) :
    val_main_v116 (F := Ideal) x2 x8 (ix2 e k) = x8 (ix2 (rowC (val_main_v115 x2) e) k) := by
  unfold val_main_v116
  rw [gatherE_eq, LibRowGather.gather_rows_apply (by decide)]

theorem emb1_row (e : Fin 800000) (k : Fin 32) :
    val_main_v125 (F := Ideal) x2 x9 (ix2 e k) = x9 (ix2 (rowC (val_main_v124 x2) e) k) := by
  unfold val_main_v125
  rw [gatherE_eq, LibRowGather.gather_rows_apply (by decide)]

/-- The edge's own 66 entries: its values, then its two embedding rows. -/
theorem own_apply (e : Fin 800000) (k : Fin 66) :
    val_main_v126 (F := Ideal) x2 x3 x8 x9 (ix2 e k)
      = if h2 : k.val < 2 then x3 (ix2 e (⟨k.val, h2⟩ : Fin 2))
        else if h3 : k.val < 34 then x8 (ix2 (rowC (val_main_v115 x2) e) (⟨k.val - 2, by omega⟩ : Fin 32))
        else x9 (ix2 (rowC (val_main_v124 x2) e) (⟨k.val - 34, by omega⟩ : Fin 32)) := by
  unfold val_main_v126
  split_ifs with h2 h3
  · exact concatenate_apply_piece (α := EReal) (t := S800000x66) (1 : Fin 2) [⟨S800000x2, x3⟩, ⟨S800000x32, val_main_v116 (F := Ideal) x2 x8⟩, ⟨S800000x32, val_main_v125 (F := Ideal) x2 x9⟩]
      concatenates_S800000x2_S800000x32_S800000x32_S800000x66_d1 (ix2 e k)
      0 (by show (0 : ℕ) < 3; omega) S800000x2 x3 rfl rfl 0 rfl (ix2 (n0 := 800000) (n1 := 2) e (⟨k.val, h2⟩ : Fin 2))
      (fun b hb => match b with | ⟨0, _⟩ => rfl | ⟨1, _⟩ => absurd rfl hb) (by show 0 + k.val = k.val; omega)
  · refine (concatenate_apply_piece (α := EReal) (t := S800000x66) (1 : Fin 2) [⟨S800000x2, x3⟩, ⟨S800000x32, val_main_v116 (F := Ideal) x2 x8⟩, ⟨S800000x32, val_main_v125 (F := Ideal) x2 x9⟩]
      concatenates_S800000x2_S800000x32_S800000x32_S800000x66_d1 (ix2 e k)
      1 (by show (1 : ℕ) < 3; omega) S800000x32 (val_main_v116 (F := Ideal) x2 x8) rfl rfl 2 rfl (ix2 (n0 := 800000) (n1 := 32) e (⟨k.val - 2, by omega⟩ : Fin 32))
      (fun b hb => match b with | ⟨0, _⟩ => rfl | ⟨1, _⟩ => absurd rfl hb) (by show 2 + (k.val - 2) = k.val; omega)).trans ?_
    exact emb0_row x2 x8 e _
  · refine (concatenate_apply_piece (α := EReal) (t := S800000x66) (1 : Fin 2) [⟨S800000x2, x3⟩, ⟨S800000x32, val_main_v116 (F := Ideal) x2 x8⟩, ⟨S800000x32, val_main_v125 (F := Ideal) x2 x9⟩]
      concatenates_S800000x2_S800000x32_S800000x32_S800000x66_d1 (ix2 e k)
      2 (by show (2 : ℕ) < 3; omega) S800000x32 (val_main_v125 (F := Ideal) x2 x9) rfl rfl 34 rfl (ix2 (n0 := 800000) (n1 := 32) e (⟨k.val - 34, by omega⟩ : Fin 32))
      (fun b hb => match b with | ⟨0, _⟩ => rfl | ⟨1, _⟩ => absurd rfl hb) (by show 34 + (k.val - 34) = k.val; omega)).trans ?_
    exact emb1_row x2 x9 e _

/-- THE CONCATENATED ROW at position k. -/
theorem row_apply (e : Fin 800000) (k : Fin 194) :
    val_main_v127 (F := Ideal) x0 x1 x2 x3 x4 x5 x6 x7 x8 x9 (ix2 e k) = rowOf x0 x1 x2 x3 x4 x5 x6 x7 x8 x9 e k := by
  unfold rowOf TailSpec.piece val_main_v127
  by_cases h1 : k.val < 128
  · rw [dif_pos h1]
    refine (concatenate_pair_apply_left (α := EReal) (t := S800000x194) (s₁ := S800000x128) (s₂ := S800000x66) (1 : Fin 2)
      (val_main_v107 (F := Ideal) x0 x1 x4 x5 x6 x7) (val_main_v126 (F := Ideal) x2 x3 x8 x9)
      concatenates_S800000x128_S800000x66_S800000x194_d1 (ix2 e k) rfl
      (ix2 (n0 := 800000) (n1 := 128) e (⟨k.val, h1⟩ : Fin 128)) (fun b => match b with | ⟨0, _⟩ => rfl | ⟨1, _⟩ => rfl)).trans ?_
    exact node_diff x0 x1 x4 x5 x6 x7 e _
  · rw [dif_neg h1]
    refine (concatenate_pair_apply_right (α := EReal) (t := S800000x194) (s₁ := S800000x128) (s₂ := S800000x66) (1 : Fin 2)
      (val_main_v107 (F := Ideal) x0 x1 x4 x5 x6 x7) (val_main_v126 (F := Ideal) x2 x3 x8 x9)
      concatenates_S800000x128_S800000x66_S800000x194_d1 (ix2 e k) rfl rfl
      (ix2 (n0 := 800000) (n1 := 66) e (⟨k.val - 128, by have := k.isLt; omega⟩ : Fin 66))
      (fun b hb => match b with | ⟨0, _⟩ => rfl | ⟨1, _⟩ => absurd rfl hb)
      (by show (k.val - 128) + 128 = k.val; omega)).trans ?_
    rw [own_apply]
    by_cases h2 : k.val < 130
    · rw [dif_pos (show k.val - 128 < 2 by omega), dif_pos h2]
    · rw [dif_neg (show ¬ k.val - 128 < 2 by omega), dif_neg h2]
      by_cases h3 : k.val < 162
      · rw [dif_pos (show k.val - 128 < 34 by omega), dif_pos h3]
        exact congrArg (fun j : Fin 32 => x8 (ix2 (rowC (val_main_v115 x2) e) j))
          (Fin.ext (by show k.val - 128 - 2 = k.val - 130; omega))
      · rw [dif_neg (show ¬ k.val - 128 < 34 by omega), dif_neg h3]
        exact congrArg (fun j : Fin 32 => x9 (ix2 (rowC (val_main_v124 x2) e) j))
          (Fin.ext (by show k.val - 128 - 34 = k.val - 162; omega))

/-- THE FIRST LAYER'S PRODUCT at edge e, column q. -/
theorem v128_apply (e : Fin 800000) (q : Fin 2) :
    val_main_v128 (F := Ideal) x0 x1 x2 x3 x4 x5 x6 x7 x8 x9 x10 (ix2 e q)
      = ∑ k : Fin 194, rowOf x0 x1 x2 x3 x4 x5 x6 x7 x8 x9 e k * x10 (ix2 k q) := by
  rw [val_main_v128_apply]
  refine Finset.sum_congr rfl fun k _ => ?_
  have e1 : lidx_main_v128 (ix2 e q) k = ix2 e k := funext fun a => Fin.ext (by
    match a with
    | ⟨0, _⟩ => rfl
    | ⟨1, _⟩ => rfl)
  have e2 : ridx_main_v128 (ix2 e q) k = ix2 k q := funext fun a => Fin.ext (by
    match a with
    | ⟨0, _⟩ => rfl
    | ⟨1, _⟩ => rfl)
  rw [e1, e2, row_apply]

end Cert.ReferenceIdeal.TailR

end
-- ==== Proof.ValueBridge.lean ====
/-
  The kernel's result is the reference's, as functions of the arguments, at exact arithmetic and for real arguments.

  Stage by stage: the kernel's first matrix product, of operands passed through a change of float format (the identity
  on extended reals), is the reference's product; on it the kernel's first layer is the reference's (the layer law);
  so are their positive parts, the second products and the second layers. For the edge network the kernel projects the
  node table, the edge values and the two embedding tables through their own rows of the weights before gathering, and
  adds; the reference gathers, concatenates and multiplies once. The two agree because a product with a concatenated
  row is the sum of the pieces' products, and — the second layer and the weights being real — a weighted sum of
  differences of features is the difference of the weighted sums. The remaining bias, positive part and last affine
  layer are the same operations on both sides.
-/
import proofs.«131849_j52312701665557_2_alg».proof.Proof.LayerBridge
import proofs.«131849_j52312701665557_2_alg».proof.Proof.LayerReal
import proofs.«131849_j52312701665557_2_alg».proof.Proof.TailK
import proofs.«131849_j52312701665557_2_alg».proof.Proof.TailR
import proofs.«131849_j52312701665557_2_alg».proof.Proof.TailSpec
import proofs.«131849_j52312701665557_2_alg».proof.Proof.RegionValue

noncomputable section

namespace Cert.Proof.ValueBridge

open Cert.ReferenceIdeal Cert.ReferenceIdeal.Gen Idealize.ShloMosaic Idealize.ShloMosaic.TcCoe Idealize.SL.Sem Idealize.ShloMosaic.StableHlo
open Idealize.ShloMosaic.ValueIdx RealEntries
open Cert.ReferenceIdeal.Read Cert.KernelIdeal.KStages Cert.Proof.LayerBridge

variable (x0 : (⟨S50000x256, .f32⟩ : BufTy).Contents (Elt Ideal)) (x1 : (⟨S2x800000, .i32⟩ : BufTy).Contents (Elt Ideal)) (x2 : (⟨S800000x2, .i32⟩ : BufTy).Contents (Elt Ideal))
  (x3 : (⟨S800000x2, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal))
  (x7 : (⟨S128, .f32⟩ : BufTy).Contents (Elt Ideal)) (x8 x9 : (⟨S20x32, .f32⟩ : BufTy).Contents (Elt Ideal)) (x10 : (⟨S194x2, .f32⟩ : BufTy).Contents (Elt Ideal)) (x11 : (⟨S2, .f32⟩ : BufTy).Contents (Elt Ideal))
  (x12 : (⟨S2x2, .f32⟩ : BufTy).Contents (Elt Ideal)) (x13 : (⟨S2, .f32⟩ : BufTy).Contents (Elt Ideal))

/-! ## The two matrix products -/

theorem mm0_eq : Cert.KernelIdeal.RegionValue.mm0 (k_v11 (F := Ideal) x0) (k_v12 (F := Ideal) x4) = val_main_v4 x0 x4 := by
  funext i
  rw [val_main_v4_apply]
  show ∑ k : Fin 256, x0 (ix2 (i 0) k) * x4 (ix2 k (i 1)) = _
  refine Finset.sum_congr rfl fun k _ => ?_
  exact congrArg₂ (· * ·)
    (congrArg x0 (funext fun a => Fin.ext (by
      match a with
      | ⟨0, _⟩ => rfl
      | ⟨1, _⟩ => rfl)))
    (congrArg x4 (funext fun a => Fin.ext (by
      match a with
      | ⟨0, _⟩ => rfl
      | ⟨1, _⟩ => rfl)))

theorem mm1_eq : Cert.KernelIdeal.RegionValue.mm1 (k_v39 (F := Ideal) (val_main_v47 x0 x1 x4 x5)) (k_v40 (F := Ideal) x6)
    = val_main_v49 x0 x1 x4 x5 x6 := by
  funext i
  rw [val_main_v49_apply]
  show ∑ k : Fin 256, val_main_v48 (F := Ideal) x0 x1 x4 x5 (ix2 (i 0) k) * x6 (ix2 k (i 1)) = _
  refine Finset.sum_congr rfl fun k _ => ?_
  exact congrArg₂ (· * ·)
    (congrArg (val_main_v48 (F := Ideal) x0 x1 x4 x5) (funext fun a => Fin.ext (by
      match a with
      | ⟨0, _⟩ => rfl
      | ⟨1, _⟩ => rfl)))
    (congrArg x6 (funext fun a => Fin.ext (by
      match a with
      | ⟨0, _⟩ => rfl
      | ⟨1, _⟩ => rfl)))

/-! ## The edge network's first layer -/

theorem tail_eq (r0 : ∀ i, IsR (x0 i)) (r4 : ∀ i, IsR (x4 i)) (r5 : ∀ i, IsR (x5 i)) (r6 : ∀ i, IsR (x6 i))
    (r7 : ∀ i, IsR (x7 i)) (r10 : ∀ i, IsR (x10 i)) :
    k_v109 (F := Ideal) (val_main_v1 x1) (val_main_v3 x1) (val_main_v92 x0 x1 x4 x5 x6 x7) x2 x3 x8 x9 x10
      = val_main_v128 x0 x1 x2 x3 x4 x5 x6 x7 x8 x9 x10 := by
  funext idx
  obtain ⟨e, q, rfl⟩ : ∃ (e : Fin 800000) (q : Fin 2), idx = ix2 e q := ⟨idx 0, idx 1, eq_ix2 idx⟩
  rw [Cert.KernelIdeal.TailK.k_v109_apply, Cert.ReferenceIdeal.TailR.v128_apply]
  unfold Cert.ReferenceIdeal.TailR.rowOf
  rw [TailSpec.dot_split _ _ _ _ _ (fun k => x10 (ix2 k q))
    (fun k => Cert.Proof.LayerReal.v92_isR x0 x1 x4 x5 x6 x7 r0 r4 r5 r6 r7 _)
    (fun k => Cert.Proof.LayerReal.v92_isR x0 x1 x4 x5 x6 x7 r0 r4 r5 r6 r7 _) (fun k => r10 _)]
  rfl

/-! ## The whole result -/

/-- THE KERNEL'S RESULT IS THE REFERENCE'S. -/
theorem kout_eq (r0 : ∀ i, IsR (x0 i)) (r4 : ∀ i, IsR (x4 i)) (r5 : ∀ i, IsR (x5 i)) (r6 : ∀ i, IsR (x6 i))
    (r7 : ∀ i, IsR (x7 i)) (r10 : ∀ i, IsR (x10 i)) :
    kout (F := Ideal) Cert.KernelIdeal.RegionValue.mm0 Cert.KernelIdeal.RegionValue.mm1 x0 x1 x2 x3 x4 x5 x6 x7 x8 x9 x10 x11 x12 x13
      = val_main_v136 x0 x1 x2 x3 x4 x5 x6 x7 x8 x9 x10 x11 x12 x13 := by
  unfold kout
  rw [k_v1_eq, k_v3_eq, k_v10_eq, mm0_eq, layer1, mm1_eq, layer2, tail_eq x0 x1 x2 x3 x4 x5 x6 x7 x8 x9 x10 r0 r4 r5 r6 r7 r10]
  rfl

end Cert.Proof.ValueBridge

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.FiniteArgs.lean ====
/-
  From the precondition to real entries, at exact arithmetic.

  The precondition is the conjunction, over the float arguments, of "every entry's absolute value is below +∞" (each a
  reduction by "and" of one-bit comparisons against an array that reads the word of +∞ everywhere, being the broadcast of
  that constant). An extended real whose absolute value is below +∞ is the image of a real number, so the precondition
  holding says that every entry of every float argument is a real number.
-/
import proofs.«131849_j52312701665557_2_alg».proof.Pre_finite_inputs
import proofs.«131849_j52312701665557_2_alg».proof.Proof.LibFiniteEntries
import Idealize.ShloMosaic.Lib.IdealHost

noncomputable section

namespace Cert.Proof.FiniteArgs

open Idealize.ShloMosaic Cert.Pre_finite_inputs

/-- One conjunct: if the conjunction over all entries of "|x_i| < +∞" is 1, the bound being the broadcast of the
    constant +∞, then every entry of x is a real number. -/
theorem real_of_conjunct {s : Shape} {axes : List (Fin s.rank)} (x : FVec Ideal s .f32)
    (hb : S_.BroadcastsInDim s (![] : Fin 0 → Fin s.rank)) (init : S_.Idx → BitVec 1) (h : s.ReducesTo axes S_)
    (hu : 0 < S_.numel) (j : S_.Idx)
    (e : Host.reduce IntOp.andi
      (cmpf .olt (Host.absf x) (broadcastInDim s ![] hb (constant (F := Ideal) S_ .f32 0x7F800000#32))) init h hu j = 1#1) :
    ∀ i, ∃ r : ℝ, x i = (r : EReal) := by
  intro i
  have hx := LibFiniteEntries.real_of_all_abs_lt x _
    (fun k => by rw [ValueIdx.broadcastInDim_scalar_apply, ValueIdx.constant_apply]) init h hu j e
  exact ⟨(x i).toReal, congrFun hx i⟩

/-- The precondition holding, every entry of each float argument is a real number. -/
theorem of_pre [Cert.Pre_finite_inputs.Facts] (x0 : FVec Ideal S50000x256 .f32) (x1 : IVec S2x800000 32)
    (x2 : IVec S800000x2 32) (x3 : FVec Ideal S800000x2 .f32) (x4 : FVec Ideal S256x256 .f32) (x5 : FVec Ideal S256 .f32)
    (x6 : FVec Ideal S256x128 .f32) (x7 : FVec Ideal S128 .f32) (x8 x9 : FVec Ideal S20x32 .f32)
    (x10 : FVec Ideal S194x2 .f32) (x11 : FVec Ideal S2 .f32) (x12 : FVec Ideal S2x2 .f32) (x13 : FVec Ideal S2 .f32)
    (h : Cert.Pre_finite_inputs.fn (F := Ideal) x0 x1 x2 x3 x4 x5 x6 x7 x8 x9 x10 x11 x12 x13 = fun _ => 1#1) :
    (∀ i, ∃ r : ℝ, x0 i = (r : EReal)) ∧ (∀ i, ∃ r : ℝ, x4 i = (r : EReal)) ∧ (∀ i, ∃ r : ℝ, x5 i = (r : EReal)) ∧
    (∀ i, ∃ r : ℝ, x6 i = (r : EReal)) ∧ (∀ i, ∃ r : ℝ, x7 i = (r : EReal)) ∧ (∀ i, ∃ r : ℝ, x10 i = (r : EReal)) ∧
    (∀ i, ∃ r : ℝ, x3 i = (r : EReal)) ∧ (∀ i, ∃ r : ℝ, x8 i = (r : EReal)) ∧ (∀ i, ∃ r : ℝ, x9 i = (r : EReal)) ∧
    (∀ i, ∃ r : ℝ, x11 i = (r : EReal)) ∧ (∀ i, ∃ r : ℝ, x12 i = (r : EReal)) ∧ (∀ i, ∃ r : ℝ, x13 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨e0, e3⟩, e4⟩, e5⟩, e6⟩, e7⟩, e8⟩, e9⟩, e10⟩, e11⟩, e12⟩, e13⟩ := h0
  exact ⟨real_of_conjunct x0 _ _ _ _ _ e0, real_of_conjunct x4 _ _ _ _ _ e4, real_of_conjunct x5 _ _ _ _ _ e5,
    real_of_conjunct x6 _ _ _ _ _ e6, real_of_conjunct x7 _ _ _ _ _ e7, real_of_conjunct x10 _ _ _ _ _ e10,
    real_of_conjunct x3 _ _ _ _ _ e3, real_of_conjunct x8 _ _ _ _ _ e8, real_of_conjunct x9 _ _ _ _ _ e9,
    real_of_conjunct x11 _ _ _ _ _ e11, real_of_conjunct x12 _ _ _ _ _ e12, real_of_conjunct x13 _ _ _ _ _ e13⟩

end Cert.Proof.FiniteArgs

end
-- ==== Proof.lean ====
/-
  The certificate: the kernel — a two-layer graph convolution with self loops followed by an edge network — against its
  reference, at exact arithmetic.

  The three frames: the word-level kernel's and the idealized kernel's are the generated frame certificates of the
  two-region program; the reference's is its generated run with the result dropped. The idealization rewrote nothing,
  so `preserves` is trivial. For the value claim, the idealized kernel's run names its result as a function of the
  arguments (the host arithmetic read back operation by operation, each matrix-product region as one whole-array
  product), the reference's run names its result likewise, and the two functions agree on arguments whose float
  entries are real — which the precondition says they are. What makes them agree: a change of float format is the
  identity; the node-scaled and edge-scaled arrangements of a graph-convolution layer agree because every node's factor
  (in-degree + 1)^(-1/2) is a positive real that comes out of the sum over the node's incoming edges; and the edge
  network's first layer distributes over the concatenation of its input's pieces, the difference of two nodes' real
  features included.
-/
import proofs.«131849_j52312701665557_2_alg».proof.Defs
import proofs.«131849_j52312701665557_2_alg».proof.Proof.Gen.Kernel
import proofs.«131849_j52312701665557_2_alg».proof.Proof.Gen.Kernel.Frame
import proofs.«131849_j52312701665557_2_alg».proof.Proof.Gen.KernelIdeal
import proofs.«131849_j52312701665557_2_alg».proof.Proof.Gen.KernelIdeal.Frame
import proofs.«131849_j52312701665557_2_alg».proof.Proof.Gen.ReferenceIdeal
import proofs.«131849_j52312701665557_2_alg».proof.Proof.Gen.Pre_finite_inputs
import proofs.«131849_j52312701665557_2_alg».proof.Proof.Gen.ReferenceIdeal.Run
import proofs.«131849_j52312701665557_2_alg».proof.Proof.Gen.ReferenceIdeal.Read
import proofs.«131849_j52312701665557_2_alg».proof.Proof.KernelValue
import proofs.«131849_j52312701665557_2_alg».proof.Proof.ValueBridge
import proofs.«131849_j52312701665557_2_alg».proof.Proof.FiniteArgs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at one function of the arguments: the kernel's by its run read back, the reference's
    by its generated run, the two functions equal on the real arguments the precondition grants. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f4, f5, f6, f7, f10, _⟩ := Cert.Proof.FiniteArgs.of_pre _ _ _ _ _ _ _ _ _ _ _ _ _ _ (hpre c)
  rw [Cert.ReferenceIdeal.Read.val_main_v136_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2.1, (hagree c).2.2.2.2.2.2.2.2.2.2.2.2.2]
  exact (Cert.Proof.ValueBridge.kout_eq _ _ _ _ _ _ _ _ _ _ _ _ _ _ f0 f4 f5 f6 f7 f10).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
